-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S80x384 : Shape := ⟨2, ![80, 384]⟩
abbrev S80 : Shape := ⟨1, ![80]⟩
abbrev S80x80 : Shape := ⟨2, ![80, 80]⟩
abbrev S40x80 : Shape := ⟨2, ![40, 80]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S80x384 : S_.BroadcastsInDim S80x384 (![] : Fin 0 → Fin S80x384.rank)
  reducesTo_S80x384_S_d0_1 : S80x384.ReducesTo [0, 1] S_
  bcast_S_S80 : S_.BroadcastsInDim S80 (![] : Fin 0 → Fin S80.rank)
  reducesTo_S80_S_d0 : S80.ReducesTo [0] S_
  bcast_S_S80x80 : S_.BroadcastsInDim S80x80 (![] : Fin 0 → Fin S80x80.rank)
  reducesTo_S80x80_S_d0_1 : S80x80.ReducesTo [0, 1] S_
  bcast_S_S40x80 : S_.BroadcastsInDim S40x80 (![] : Fin 0 → Fin S40x80.rank)
  reducesTo_S40x80_S_d0_1 : S40x80.ReducesTo [0, 1] S_
  bcast_S_S40 : S_.BroadcastsInDim S40 (![] : Fin 0 → Fin S40.rank)
  reducesTo_S40_S_d0 : S40.ReducesTo [0] S_

variable [Facts]

def fn_part8 {F : FTy → Type} [FloatOps F] (main_arg29 : FVec F S40 .f32) (main_v133 : IVec S_ 1) (main_v136 : IVec S40x80 1) : IVec S_ 1 :=
  let main_c_53 : IVec S_ 1 := constantI S_ 1 1#1
  let main_v137 : IVec S_ 1 := (fun x v => Host.reduce IntOp.andi x v reducesTo_S40x80_S_d0_1 h_S_) main_v136 main_c_53
  let main_v138 : IVec S_ 1 := andi main_v133 main_v137
  let main_v139 : FVec F S40 .f32 := Host.absf main_arg29
  let main_cst_54 : FVec F S_ .f32 := constant S_ .f32 0x7F800000#32
  let main_v140 : FVec F S40 .f32 := broadcastInDim S40 ![] bcast_S_S40 main_cst_54
  let main_v141 : IVec S40 1 := cmpf .olt main_v139 main_v140
  let main_c_55 : IVec S_ 1 := constantI S_ 1 1#1
  let main_v142 : IVec S_ 1 := (fun x v => Host.reduce IntOp.andi x v reducesTo_S40_S_d0 h_S_) main_v141 main_c_55
  let main_v143 : IVec S_ 1 := andi main_v138 main_v142
  main_v143

def fn_part7 {F : FTy → Type} [FloatOps F] (main_arg26 : FVec F S80 .f32) (main_arg27 : FVec F S80 .f32) (main_arg28 : FVec F S40x80 .f32) (main_arg29 : FVec F S40 .f32) (main_v118 : IVec S_ 1) (main_v119 : FVec F S80 .f32) : IVec S_ 1 :=
  let main_cst_46 : FVec F S_ .f32 := constant S_ .f32 0x7F800000#32
  let main_v120 : FVec F S80 .f32 := broadcastInDim S80 ![] bcast_S_S80 main_cst_46
  let main_v121 : IVec S80 1 := cmpf .olt main_v119 main_v120
  let main_c_47 : IVec S_ 1 := constantI S_ 1 1#1
  let main_v122 : IVec S_ 1 := (fun x v => Host.reduce IntOp.andi x v reducesTo_S80_S_d0 h_S_) main_v121 main_c_47
  let main_v123 : IVec S_ 1 := andi main_v118 main_v122
  let main_v124 : FVec F S80 .f32 := Host.absf main_arg26
  let main_cst_48 : FVec F S_ .f32 := constant S_ .f32 0x7F800000#32
  let main_v125 : FVec F S80 .f32 := broadcastInDim S80 ![] bcast_S_S80 main_cst_48
  let main_v126 : IVec S80 1 := cmpf .olt main_v124 main_v125
  let main_c_49 : IVec S_ 1 := constantI S_ 1 1#1
  let main_v127 : IVec S_ 1 := (fun x v => Host.reduce IntOp.andi x v reducesTo_S80_S_d0 h_S_) main_v126 main_c_49
  let main_v128 : IVec S_ 1 := andi main_v123 main_v127
  let main_v129 : FVec F S80 .f32 := Host.absf main_arg27
  let main_cst_50 : FVec F S_ .f32 := constant S_ .f32 0x7F800000#32
  let main_v130 : FVec F S80 .f32 := broadcastInDim S80 ![] bcast_S_S80 main_cst_50
  let main_v131 : IVec S80 1 := cmpf .olt main_v129 main_v130
  let main_c_51 : IVec S_ 1 := constantI S_ 1 1#1
  let main_v132 : IVec S_ 1 := (fun x v => Host.reduce IntOp.andi x v reducesTo_S80_S_d0 h_S_) main_v131 main_c_51
  let main_v133 : IVec S_ 1 := andi main_v128 main_v132
  let main_v134 : FVec F S40x80 .f32 := Host.absf main_arg28
  let main_cst_52 : FVec F S_ .f32 := constant S_ .f32 0x7F800000#32
  let main_v135 : FVec F S40x80 .f32 := broadcastInDim S40x80 ![] bcast_S_S40x80 main_cst_52
  let main_v136 : IVec S40x80 1 := cmpf .olt main_v134 main_v135
  fn_part8 (F := F) main_arg29 main_v133 main_v136

def fn_part6 {F : FTy → Type} [FloatOps F] (main_arg22 : FVec F S80x80 .f32) (main_arg23 : FVec F S80 .f32) (main_arg24 : FVec F S80 .f32) (main_arg25 : FVec F S80 .f32) (main_arg26 : FVec F S80 .f32) (main_arg27 : FVec F S80 .f32) (main_arg28 : FVec F S40x80 .f32) (main_arg29 : FVec F S40 .f32) (main_v98 : IVec S_ 1) (main_v101 : IVec S80 1) (main_c_39 : IVec S_ 1) : IVec S_ 1 :=
  let main_v102 : IVec S_ 1 := (fun x v => Host.reduce IntOp.andi x v reducesTo_S80_S_d0 h_S_) main_v101 main_c_39
  let main_v103 : IVec S_ 1 := andi main_v98 main_v102
  let main_v104 : FVec F S80x80 .f32 := Host.absf main_arg22
  let main_cst_40 : FVec F S_ .f32 := constant S_ .f32 0x7F800000#32
  let main_v105 : FVec F S80x80 .f32 := broadcastInDim S80x80 ![] bcast_S_S80x80 main_cst_40
  let main_v106 : IVec S80x80 1 := cmpf .olt main_v104 main_v105
  let main_c_41 : IVec S_ 1 := constantI S_ 1 1#1
  let main_v107 : IVec S_ 1 := (fun x v => Host.reduce IntOp.andi x v reducesTo_S80x80_S_d0_1 h_S_) main_v106 main_c_41
  let main_v108 : IVec S_ 1 := andi main_v103 main_v107
  let main_v109 : FVec F S80 .f32 := Host.absf main_arg23
  let main_cst_42 : FVec F S_ .f32 := constant S_ .f32 0x7F800000#32
  let main_v110 : FVec F S80 .f32 := broadcastInDim S80 ![] bcast_S_S80 main_cst_42
  let main_v111 : IVec S80 1 := cmpf .olt main_v109 main_v110
  let main_c_43 : IVec S_ 1 := constantI S_ 1 1#1
  let main_v112 : IVec S_ 1 := (fun x v => Host.reduce IntOp.andi x v reducesTo_S80_S_d0 h_S_) main_v111 main_c_43
  let main_v113 : IVec S_ 1 := andi main_v108 main_v112
  let main_v114 : FVec F S80 .f32 := Host.absf main_arg24
  let main_cst_44 : FVec F S_ .f32 := constant S_ .f32 0x7F800000#32
  let main_v115 : FVec F S80 .f32 := broadcastInDim S80 ![] bcast_S_S80 main_cst_44
  let main_v116 : IVec S80 1 := cmpf .olt main_v114 main_v115
  let main_c_45 : IVec S_ 1 := constantI S_ 1 1#1
  let main_v117 : IVec S_ 1 := (fun x v => Host.reduce IntOp.andi x v reducesTo_S80_S_d0 h_S_) main_v116 main_c_45
  let main_v118 : IVec S_ 1 := andi main_v113 main_v117
  let main_v119 : FVec F S80 .f32 := Host.absf main_arg25
  fn_part7 (F := F) main_arg26 main_arg27 main_arg28 main_arg29 main_v118 main_v119

def fn_part5 {F : FTy → Type} [FloatOps F] (main_arg19 : FVec F S80 .f32) (main_arg20 : FVec F S80 .f32) (main_arg21 : FVec F S80 .f32) (main_arg22 : FVec F S80x80 .f32) (main_arg23 : FVec F S80 .f32) (main_arg24 : FVec F S80 .f32) (main_arg25 : FVec F S80 .f32) (main_arg26 : FVec F S80 .f32) (main_arg27 : FVec F S80 .f32) (main_arg28 : FVec F S40x80 .f32) (main_arg29 : FVec F S40 .f32) (main_v83 : IVec S_ 1) (main_v84 : FVec F S80 .f32) (main_cst_32 : FVec F S_ .f32) : IVec S_ 1 :=
  let main_v85 : FVec F S80 .f32 := broadcastInDim S80 ![] bcast_S_S80 main_cst_32
  let main_v86 : IVec S80 1 := cmpf .olt main_v84 main_v85
  let main_c_33 : IVec S_ 1 := constantI S_ 1 1#1
  let main_v87 : IVec S_ 1 := (fun x v => Host.reduce IntOp.andi x v reducesTo_S80_S_d0 h_S_) main_v86 main_c_33
  let main_v88 : IVec S_ 1 := andi main_v83 main_v87
  let main_v89 : FVec F S80 .f32 := Host.absf main_arg19
  let main_cst_34 : FVec F S_ .f32 := constant S_ .f32 0x7F800000#32
  let main_v90 : FVec F S80 .f32 := broadcastInDim S80 ![] bcast_S_S80 main_cst_34
  let main_v91 : IVec S80 1 := cmpf .olt main_v89 main_v90
  let main_c_35 : IVec S_ 1 := constantI S_ 1 1#1
  let main_v92 : IVec S_ 1 := (fun x v => Host.reduce IntOp.andi x v reducesTo_S80_S_d0 h_S_) main_v91 main_c_35
  let main_v93 : IVec S_ 1 := andi main_v88 main_v92
  let main_v94 : FVec F S80 .f32 := Host.absf main_arg20
  let main_cst_36 : FVec F S_ .f32 := constant S_ .f32 0x7F800000#32
  let main_v95 : FVec F S80 .f32 := broadcastInDim S80 ![] bcast_S_S80 main_cst_36
  let main_v96 : IVec S80 1 := cmpf .olt main_v94 main_v95
  let main_c_37 : IVec S_ 1 := constantI S_ 1 1#1
  let main_v97 : IVec S_ 1 := (fun x v => Host.reduce IntOp.andi x v reducesTo_S80_S_d0 h_S_) main_v96 main_c_37
  let main_v98 : IVec S_ 1 := andi main_v93 main_v97
  let main_v99 : FVec F S80 .f32 := Host.absf main_arg21
  let main_cst_38 : FVec F S_ .f32 := constant S_ .f32 0x7F800000#32
  let main_v100 : FVec F S80 .f32 := broadcastInDim S80 ![] bcast_S_S80 main_cst_38
  let main_v101 : IVec S80 1 := cmpf .olt main_v99 main_v100
  let main_c_39 : IVec S_ 1 := constantI S_ 1 1#1
  fn_part6 (F := F) main_arg22 main_arg23 main_arg24 main_arg25 main_arg26 main_arg27 main_arg28 main_arg29 main_v98 main_v101 main_c_39

def fn_part4 {F : FTy → Type} [FloatOps F] (main_arg15 : FVec F S128 .f32) (main_arg16 : FVec F S80x384 .f32) (main_arg17 : FVec F S80 .f32) (main_arg18 : FVec F S80 .f32) (main_arg19 : FVec F S80 .f32) (main_arg20 : FVec F S80 .f32) (main_arg21 : FVec F S80 .f32) (main_arg22 : FVec F S80x80 .f32) (main_arg23 : FVec F S80 .f32) (main_arg24 : FVec F S80 .f32) (main_arg25 : FVec F S80 .f32) (main_arg26 : FVec F S80 .f32) (main_arg27 : FVec F S80 .f32) (main_arg28 : FVec F S40x80 .f32) (main_arg29 : FVec F S40 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S80x384 .f32 := Host.absf main_arg16
  let main_cst_28 : FVec F S_ .f32 := constant S_ .f32 0x7F800000#32
  let main_v75 : FVec F S80x384 .f32 := broadcastInDim S80x384 ![] bcast_S_S80x384 main_cst_28
  let main_v76 : IVec S80x384 1 := cmpf .olt main_v74 main_v75
  let main_c_29 : IVec S_ 1 := constantI S_ 1 1#1
  let main_v77 : IVec S_ 1 := (fun x v => Host.reduce IntOp.andi x v reducesTo_S80x384_S_d0_1 h_S_) main_v76 main_c_29
  let main_v78 : IVec S_ 1 := andi main_v73 main_v77
  let main_v79 : FVec F S80 .f32 := Host.absf main_arg17
  let main_cst_30 : FVec F S_ .f32 := constant S_ .f32 0x7F800000#32
  let main_v80 : FVec F S80 .f32 := broadcastInDim S80 ![] bcast_S_S80 main_cst_30
  let main_v81 : IVec S80 1 := cmpf .olt main_v79 main_v80
  let main_c_31 : IVec S_ 1 := constantI S_ 1 1#1
  let main_v82 : IVec S_ 1 := (fun x v => Host.reduce IntOp.andi x v reducesTo_S80_S_d0 h_S_) main_v81 main_c_31
  let main_v83 : IVec S_ 1 := andi main_v78 main_v82
  let main_v84 : FVec F S80 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_v83 main_v84 main_cst_32

def fn_part3 {F : FTy → Type} [FloatOps F] (main_arg12 : FVec F S128 .f32) (main_arg13 : FVec F S128 .f32) (main_arg14 : FVec F S128x128 .f32) (main_arg15 : FVec F S128 .f32) (main_arg16 : FVec F S80x384 .f32) (main_arg17 : FVec F S80 .f32) (main_arg18 : FVec F S80 .f32) (main_arg19 : FVec F S80 .f32) (main_arg20 : FVec F S80 .f32) (main_arg21 : FVec F S80 .f32) (main_arg22 : FVec F S80x80 .f32) (main_arg23 : FVec F S80 .f32) (main_arg24 : FVec F S80 .f32) (main_arg25 : FVec F S80 .f32) (main_arg26 : FVec F S80 .f32) (main_arg27 : FVec F S80 .f32) (main_arg28 : FVec F S40x80 .f32) (main_arg29 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S80x384 .f32) (main_arg17 : FVec F S80 .f32) (main_arg18 : FVec F S80 .f32) (main_arg19 : FVec F S80 .f32) (main_arg20 : FVec F S80 .f32) (main_arg21 : FVec F S80 .f32) (main_arg22 : FVec F S80x80 .f32) (main_arg23 : FVec F S80 .f32) (main_arg24 : FVec F S80 .f32) (main_arg25 : FVec F S80 .f32) (main_arg26 : FVec F S80 .f32) (main_arg27 : FVec F S80 .f32) (main_arg28 : FVec F S40x80 .f32) (main_arg29 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S80x384 .f32) (main_arg17 : FVec F S80 .f32) (main_arg18 : FVec F S80 .f32) (main_arg19 : FVec F S80 .f32) (main_arg20 : FVec F S80 .f32) (main_arg21 : FVec F S80 .f32) (main_arg22 : FVec F S80x80 .f32) (main_arg23 : FVec F S80 .f32) (main_arg24 : FVec F S80 .f32) (main_arg25 : FVec F S80 .f32) (main_arg26 : FVec F S80 .f32) (main_arg27 : FVec F S80 .f32) (main_arg28 : FVec F S40x80 .f32) (main_arg29 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128x128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S80x384 .f32) (main_arg17 : FVec F S80 .f32) (main_arg18 : FVec F S80 .f32) (main_arg19 : FVec F S80 .f32) (main_arg20 : FVec F S80 .f32) (main_arg21 : FVec F S80 .f32) (main_arg22 : FVec F S80x80 .f32) (main_arg23 : FVec F S80 .f32) (main_arg24 : FVec F S80 .f32) (main_arg25 : FVec F S80 .f32) (main_arg26 : FVec F S80 .f32) (main_arg27 : FVec F S80 .f32) (main_arg28 : FVec F S40x80 .f32) (main_arg29 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S80x384 : Shape := ⟨2, ![80, 384]⟩
abbrev S80 : Shape := ⟨1, ![80]⟩
abbrev S80x80 : Shape := ⟨2, ![80, 80]⟩
abbrev S40x80 : Shape := ⟨2, ![40, 80]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S384x80 : Shape := ⟨2, ![384, 80]⟩
abbrev S80x40 : Shape := ⟨2, ![80, 40]⟩
abbrev S1x80 : Shape := ⟨2, ![1, 80]⟩
abbrev S1x40 : Shape := ⟨2, ![1, 40]⟩
abbrev S100000x40 : Shape := ⟨2, ![100000, 40]⟩
abbrev S2000x40 : Shape := ⟨2, ![2000, 40]⟩
abbrev S2000x384 : Shape := ⟨2, ![2000, 384]⟩
abbrev S2000x80 : Shape := ⟨2, ![2000, 80]⟩

abbrev nBuf : Space → Nat
  | .hbm => 108
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S80x384, .f32⟩
  | .hbm, ⟨17, _⟩ => ⟨S80, .f32⟩
  | .hbm, ⟨18, _⟩ => ⟨S80, .f32⟩
  | .hbm, ⟨19, _⟩ => ⟨S80, .f32⟩
  | .hbm, ⟨20, _⟩ => ⟨S80, .f32⟩
  | .hbm, ⟨21, _⟩ => ⟨S80, .f32⟩
  | .hbm, ⟨22, _⟩ => ⟨S80x80, .f32⟩
  | .hbm, ⟨23, _⟩ => ⟨S80, .f32⟩
  | .hbm, ⟨24, _⟩ => ⟨S80, .f32⟩
  | .hbm, ⟨25, _⟩ => ⟨S80, .f32⟩
  | .hbm, ⟨26, _⟩ => ⟨S80, .f32⟩
  | .hbm, ⟨27, _⟩ => ⟨S80, .f32⟩
  | .hbm, ⟨28, _⟩ => ⟨S40x80, .f32⟩
  | .hbm, ⟨29, _⟩ => ⟨S40, .f32⟩
  | .hbm, ⟨30, _⟩ => ⟨S1x1600000, .i32⟩
  | .hbm, ⟨31, _⟩ => ⟨S1600000, .i32⟩
  | .hbm, ⟨32, _⟩ => ⟨S1x1600000, .i32⟩
  | .hbm, ⟨33, _⟩ => ⟨S1600000, .i32⟩
  | .hbm, ⟨34, _⟩ => ⟨S_, .f32⟩
  | .hbm, ⟨35, _⟩ => ⟨S1600000, .f32⟩
  | .hbm, ⟨36, _⟩ => ⟨S_, .f32⟩
  | .hbm, ⟨37, _⟩ => ⟨S100000, .f32⟩
  | .hbm, ⟨38, _⟩ => ⟨S1600000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S128x128, .f32⟩
  | .hbm, ⟨88, _⟩ => ⟨S128x128, .f32⟩
  | .hbm, ⟨89, _⟩ => ⟨S384x80, .f32⟩
  | .hbm, ⟨90, _⟩ => ⟨S80x80, .f32⟩
  | .hbm, ⟨91, _⟩ => ⟨S80x40, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x80, .f32⟩
  | .hbm, ⟨97, _⟩ => ⟨S1x80, .f32⟩
  | .hbm, ⟨98, _⟩ => ⟨S1x80, .f32⟩
  | .hbm, ⟨99, _⟩ => ⟨S1x80, .f32⟩
  | .hbm, ⟨100, _⟩ => ⟨S1x80, .f32⟩
  | .hbm, ⟨101, _⟩ => ⟨S1x80, .f32⟩
  | .hbm, ⟨102, _⟩ => ⟨S1x80, .f32⟩
  | .hbm, ⟨103, _⟩ => ⟨S1x80, .f32⟩
  | .hbm, ⟨104, _⟩ => ⟨S1x80, .f32⟩
  | .hbm, ⟨105, _⟩ => ⟨S1x80, .f32⟩
  | .hbm, ⟨106, _⟩ => ⟨S1x40, .f32⟩
  | .hbm, ⟨107, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S384x80, .f32⟩
  | .local _ .vmem, ⟨31, _⟩ => ⟨S1x80, .f32⟩
  | .local _ .vmem, ⟨32, _⟩ => ⟨S1x80, .f32⟩
  | .local _ .vmem, ⟨33, _⟩ => ⟨S1x80, .f32⟩
  | .local _ .vmem, ⟨34, _⟩ => ⟨S1x80, .f32⟩
  | .local _ .vmem, ⟨35, _⟩ => ⟨S1x80, .f32⟩
  | .local _ .vmem, ⟨36, _⟩ => ⟨S80x80, .f32⟩
  | .local _ .vmem, ⟨37, _⟩ => ⟨S1x80, .f32⟩
  | .local _ .vmem, ⟨38, _⟩ => ⟨S1x80, .f32⟩
  | .local _ .vmem, ⟨39, _⟩ => ⟨S1x80, .f32⟩
  | .local _ .vmem, ⟨40, _⟩ => ⟨S1x80, .f32⟩
  | .local _ .vmem, ⟨41, _⟩ => ⟨S1x80, .f32⟩
  | .local _ .vmem, ⟨42, _⟩ => ⟨S80x40, .f32⟩
  | .local _ .vmem, ⟨43, _⟩ => ⟨S1x40, .f32⟩
  | .local _ .vmem, ⟨44, _⟩ => ⟨S2000x40, .f32⟩
  | .local _ .vmem, ⟨45, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_cst_0 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_1 : Ref sig .tc := ⟨.hbm, 40, rfl⟩
abbrev main_v8 : Ref sig .tc := ⟨.hbm, 41, rfl⟩
abbrev main_v9 : Ref sig .tc := ⟨.hbm, 42, rfl⟩
abbrev main_cst_2 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_c : Ref sig .tc := ⟨.hbm, 47, rfl⟩
abbrev main_v13 : Ref sig .tc := ⟨.hbm, 48, rfl⟩
abbrev main_v14 : Ref sig .tc := ⟨.hbm, 49, rfl⟩
abbrev main_c_3 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_4 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33_0 : Ref sig .tc := ⟨.hbm, 70, rfl⟩
abbrev main_v33_1 : Ref sig .tc := ⟨.hbm, 71, rfl⟩
abbrev main_c_5 : Ref sig .tc := ⟨.hbm, 72, rfl⟩
abbrev main_v34 : Ref sig .tc := ⟨.hbm, 73, rfl⟩
abbrev main_v35 : Ref sig .tc := ⟨.hbm, 74, rfl⟩
abbrev main_c_6 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_7 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg15_0 : Ref sig .tc := ⟨.vmem, 35, rfl⟩
abbrev cc1_stg16_0 : Ref sig .tc := ⟨.vmem, 36, rfl⟩
abbrev cc1_stg17_0 : Ref sig .tc := ⟨.vmem, 37, rfl⟩
abbrev cc1_stg18_0 : Ref sig .tc := ⟨.vmem, 38, rfl⟩
abbrev cc1_stg19_0 : Ref sig .tc := ⟨.vmem, 39, rfl⟩
abbrev cc1_stg20_0 : Ref sig .tc := ⟨.vmem, 40, rfl⟩
abbrev cc1_stg21_0 : Ref sig .tc := ⟨.vmem, 41, rfl⟩
abbrev cc1_stg22_0 : Ref sig .tc := ⟨.vmem, 42, rfl⟩
abbrev cc1_stg23_0 : Ref sig .tc := ⟨.vmem, 43, rfl⟩
abbrev cc1_stg24_0 : Ref sig .tc := ⟨.vmem, 44, rfl⟩
abbrev cc1_stg24_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem15_0 : DmaSem sig := 35
abbrev cc1_sem16_0 : DmaSem sig := 36
abbrev cc1_sem17_0 : DmaSem sig := 37
abbrev cc1_sem18_0 : DmaSem sig := 38
abbrev cc1_sem19_0 : DmaSem sig := 39
abbrev cc1_sem20_0 : DmaSem sig := 40
abbrev cc1_sem21_0 : DmaSem sig := 41
abbrev cc1_sem22_0 : DmaSem sig := 42
abbrev cc1_sem23_0 : DmaSem sig := 43
abbrev cc1_sem24_0 : DmaSem sig := 44
abbrev cc1_sem24_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S384x80 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x80 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x80 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x80 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x80 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x80 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S80x80 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x80 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x80 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x80 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x80 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x80 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S80x40 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x40 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 2 → Memref sig .tc .vmem S2000x40 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S80x384_S384x80_1_0 : S80x384.Transposes [1, 0] S384x80
  transposes_S80x80_S80x80_1_0 : S80x80.Transposes [1, 0] S80x80
  transposes_S40x80_S80x40_1_0 : S40x80.Transposes [1, 0] S80x40
  shapeCasts_S80_S1x80 : S80.ShapeCasts S1x80
  shapeCasts_S40_S1x40 : S40.ShapeCasts S1x40
  concatenates_S2000x128_S2000x128_S2000x128_S2000x384_d1 : Shape.Concatenates [S2000x128, S2000x128, S2000x128] S2000x384 1
  inb_S384x80_S384x80_0_0 : ∀ a, (![0, 0] : Fin 2 → Nat) a + S384x80.size a ≤ S384x80.size a
  h_S384x80 : 0 < S384x80.numel
  shapeCasts_S384x80_S384x80 : S384x80.ShapeCasts S384x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S2000x80 : S1x80.Broadcasts S2000x80
  inb_S80x80_S80x80_0_0 : ∀ a, (![0, 0] : Fin 2 → Nat) a + S80x80.size a ≤ S80x80.size a
  h_S80x80 : 0 < S80x80.numel
  shapeCasts_S80x80_S80x80 : S80x80.ShapeCasts S80x80
  inb_S80x40_S80x40_0_0 : ∀ a, (![0, 0] : Fin 2 → Nat) a + S80x40.size a ≤ S80x40.size a
  h_S80x40 : 0 < S80x40.numel
  shapeCasts_S80x40_S80x40 : S80x40.ShapeCasts S80x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x384_S384x80_S2000x80_1_0_0_1_n_n_wf : DotDims.WF S2000x384 S384x80 S2000x80 [1] [0] [0] [1] [] []
  dot_S2000x80_S80x80_S2000x80_1_0_0_1_n_n_wf : DotDims.WF S2000x80 S80x80 S2000x80 [1] [0] [0] [1] [] []
  dot_S2000x80_S80x40_S2000x40_1_0_0_1_n_n_wf : DotDims.WF S2000x80 S80x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S100000x128.size a
  hwx0_10 : ∀ i : grid0.Coords, EltTy.bits .f32 = 32 ∨ (Rect.block (s := S100000x128) S2000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S100000x128.size a
  hwx0_11 : ∀ i : grid0.Coords, EltTy.bits .f32 = 32 ∨ (Rect.block (s := S100000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S384x80.size a ≤ S384x80.size a
  hwx1_10 : ∀ i : grid1.Coords, EltTy.bits .f32 = 32 ∨ (Rect.block (s := S384x80) S384x80.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x80.size a ≤ S1x80.size a
  hwx1_11 : ∀ i : grid1.Coords, EltTy.bits .f32 = 32 ∨ (Rect.block (s := S1x80) S1x80.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x80.size a ≤ S1x80.size a
  hwx1_12 : ∀ i : grid1.Coords, EltTy.bits .f32 = 32 ∨ (Rect.block (s := S1x80) S1x80.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x80.size a ≤ S1x80.size a
  hwx1_13 : ∀ i : grid1.Coords, EltTy.bits .f32 = 32 ∨ (Rect.block (s := S1x80) S1x80.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x80.size a ≤ S1x80.size a
  hwx1_14 : ∀ i : grid1.Coords, EltTy.bits .f32 = 32 ∨ (Rect.block (s := S1x80) S1x80.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x80.size a ≤ S1x80.size a
  hwx1_15 : ∀ i : grid1.Coords, EltTy.bits .f32 = 32 ∨ (Rect.block (s := S1x80) S1x80.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S80x80.size a ≤ S80x80.size a
  hwx1_16 : ∀ i : grid1.Coords, EltTy.bits .f32 = 32 ∨ (Rect.block (s := S80x80) S80x80.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x80.size a ≤ S1x80.size a
  hwx1_17 : ∀ i : grid1.Coords, EltTy.bits .f32 = 32 ∨ (Rect.block (s := S1x80) S1x80.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x80.size a ≤ S1x80.size a
  hwx1_18 : ∀ i : grid1.Coords, EltTy.bits .f32 = 32 ∨ (Rect.block (s := S1x80) S1x80.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S1x80.size a ≤ S1x80.size a
  hwx1_19 : ∀ i : grid1.Coords, EltTy.bits .f32 = 32 ∨ (Rect.block (s := S1x80) S1x80.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S1x80.size a ≤ S1x80.size a
  hwx1_20 : ∀ i : grid1.Coords, EltTy.bits .f32 = 32 ∨ (Rect.block (s := S1x80) S1x80.size (cc1_transform_20 i) (hinb1_20 i)).WholeWords (EltTy.packing .f32)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S1x80.size a ≤ S1x80.size a
  hwx1_21 : ∀ i : grid1.Coords, EltTy.bits .f32 = 32 ∨ (Rect.block (s := S1x80) S1x80.size (cc1_transform_21 i) (hinb1_21 i)).WholeWords (EltTy.packing .f32)
  hstage1_22 : ∀ j, (stage1_22 j).IsWhole
  nbuf1_22 : grid1.bufCount reads1_22 true = 1
  hreads1_22 : ∀ i i' : grid1.Coords, (∀ a, reads1_22 a = true → i a = i' a) → cc1_transform_22 i = cc1_transform_22 i'
  hinb1_22 : ∀ (i : grid1.Coords) a, (cc1_transform_22 i a + 1) * S80x40.size a ≤ S80x40.size a
  hwx1_22 : ∀ i : grid1.Coords, EltTy.bits .f32 = 32 ∨ (Rect.block (s := S80x40) S80x40.size (cc1_transform_22 i) (hinb1_22 i)).WholeWords (EltTy.packing .f32)
  hstage1_23 : ∀ j, (stage1_23 j).IsWhole
  nbuf1_23 : grid1.bufCount reads1_23 true = 1
  hreads1_23 : ∀ i i' : grid1.Coords, (∀ a, reads1_23 a = true → i a = i' a) → cc1_transform_23 i = cc1_transform_23 i'
  hinb1_23 : ∀ (i : grid1.Coords) a, (cc1_transform_23 i a + 1) * S1x40.size a ≤ S1x40.size a
  hwx1_23 : ∀ i : grid1.Coords, EltTy.bits .f32 = 32 ∨ (Rect.block (s := S1x40) S1x40.size (cc1_transform_23 i) (hinb1_23 i)).WholeWords (EltTy.packing .f32)
  hstage1_24 : ∀ j, (stage1_24 j).IsWhole
  nbuf1_24 : grid1.bufCount reads1_24 false = 2
  hreads1_24 : ∀ i i' : grid1.Coords, (∀ a, reads1_24 a = true → i a = i' a) → cc1_transform_24 i = cc1_transform_24 i'
  hinb1_24 : ∀ (i : grid1.Coords) a, (cc1_transform_24 i a + 1) * S2000x40.size a ≤ S100000x40.size a
  hwx1_24 : ∀ i : grid1.Coords, EltTy.bits .f32 = 32 ∨ (Rect.block (s := S100000x40) S2000x40.size (cc1_transform_24 i) (hinb1_24 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x80_S2000x80_1_0_0_1_n_n : DotDims S2000x384 S384x80 S2000x80 where
  lhsContracting := [1]
  rhsContracting := [0]
  lhsNonContracting := [0]
  rhsNonContracting := [1]
  lhsBatch := []
  rhsBatch := []
  wf := dot_S2000x384_S384x80_S2000x80_1_0_0_1_n_n_wf
def dot_S2000x80_S80x80_S2000x80_1_0_0_1_n_n : DotDims S2000x80 S80x80 S2000x80 where
  lhsContracting := [1]
  rhsContracting := [0]
  lhsNonContracting := [0]
  rhsNonContracting := [1]
  lhsBatch := []
  rhsBatch := []
  wf := dot_S2000x80_S80x80_S2000x80_1_0_0_1_n_n_wf
def dot_S2000x80_S80x40_S2000x40_1_0_0_1_n_n : DotDims S2000x80 S80x40 S2000x40 where
  lhsContracting := [1]
  rhsContracting := [0]
  lhsNonContracting := [0]
  rhsNonContracting := [1]
  lhsBatch := []
  rhsBatch := []
  wf := dot_S2000x80_S80x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33_0) S2000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v33_1) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v46) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v53) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v54) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v48) S384x80.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v55) S1x80.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v56) S1x80.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v57) S1x80.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v58) S1x80.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v59) S1x80.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v49) S80x80.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v60) S1x80.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v61) S1x80.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v62) S1x80.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v63) S1x80.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_v64) S1x80.size cc1_transform_21 reads1_21 false true 1 stage1_21 sem1_21
    hrank1 hreads1_21 hinb1_21 nbuf1_21 (Memref.isWhole_whole _) hwx1_21 hstage1_21

abbrev win1_22 : Pipeline.Window sig grid1 :=
  Pipeline.Window.ofSpec (Memref.whole main_v50) S80x40.size cc1_transform_22 reads1_22 false true 1 stage1_22 sem1_22
    hrank1 hreads1_22 hinb1_22 nbuf1_22 (Memref.isWhole_whole _) hwx1_22 hstage1_22

abbrev win1_23 : Pipeline.Window sig grid1 :=
  Pipeline.Window.ofSpec (Memref.whole main_v65) S1x40.size cc1_transform_23 reads1_23 false true 1 stage1_23 sem1_23
    hrank1 hreads1_23 hinb1_23 nbuf1_23 (Memref.isWhole_whole _) hwx1_23 hstage1_23

abbrev win1_24 : Pipeline.Window sig grid1 :=
  Pipeline.Window.ofSpec (Memref.whole main_v66) S2000x40.size cc1_transform_24 reads1_24 true false 2 stage1_24 sem1_24
    hrank1 hreads1_24 hinb1_24 nbuf1_24 (Memref.isWhole_whole _) hwx1_24 hstage1_24

abbrev win1 : Fin 25 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | 24 => win1_24 | ⟨_ + 25, h⟩ => absurd h (Nat.not_lt.2 (Nat.le_add_left _ _))
abbrev spec1 : Fin 25 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S80x384 : Shape := ⟨2, ![80, 384]⟩
abbrev S80 : Shape := ⟨1, ![80]⟩
abbrev S80x80 : Shape := ⟨2, ![80, 80]⟩
abbrev S40x80 : Shape := ⟨2, ![40, 80]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x384 : Shape := ⟨2, ![100000, 384]⟩
abbrev S384x80 : Shape := ⟨2, ![384, 80]⟩
abbrev S100000x80 : Shape := ⟨2, ![100000, 80]⟩
abbrev S1x80 : Shape := ⟨2, ![1, 80]⟩
abbrev S80x40 : Shape := ⟨2, ![80, 40]⟩
abbrev S100000x40 : Shape := ⟨2, ![100000, 40]⟩
abbrev S1x40 : Shape := ⟨2, ![1, 40]⟩

abbrev nBuf : Space → Nat
  | .hbm => 185
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128x128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S80x384, .f32⟩
  | 17 => ⟨S80, .f32⟩
  | 18 => ⟨S80, .f32⟩
  | 19 => ⟨S80, .f32⟩
  | 20 => ⟨S80, .f32⟩
  | 21 => ⟨S80, .f32⟩
  | 22 => ⟨S80x80, .f32⟩
  | 23 => ⟨S80, .f32⟩
  | 24 => ⟨S80, .f32⟩
  | 25 => ⟨S80, .f32⟩
  | 26 => ⟨S80, .f32⟩
  | 27 => ⟨S80, .f32⟩
  | 28 => ⟨S40x80, .f32⟩
  | 29 => ⟨S40, .f32⟩
  | 30 => ⟨S1x1600000, .i32⟩
  | 31 => ⟨S1600000, .i32⟩
  | 32 => ⟨S1x1600000, .i32⟩
  | 33 => ⟨S1600000, .i32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000x128, .f32⟩
  | 61 => ⟨S100000x128, .f32⟩
  | 62 => ⟨S128x128, .f32⟩
  | 63 => ⟨S100000x128, .f32⟩
  | 64 => ⟨S128x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S128x128, .f32⟩
  | 87 => ⟨S100000x128, .f32⟩
  | 88 => ⟨S1x128, .f32⟩
  | 89 => ⟨S100000x128, .f32⟩
  | 90 => ⟨S100000x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000x128, .f32⟩
  | 106 => ⟨S100000x128, .f32⟩
  | 107 => ⟨S128x128, .f32⟩
  | 108 => ⟨S100000x128, .f32⟩
  | 109 => ⟨S128x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S128, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S100000x384, .f32⟩
  | 4 => ⟨S384x80, .f32⟩
  | 5 => ⟨S100000x80, .f32⟩
  | 6 => ⟨S1x80, .f32⟩
  | 7 => ⟨S100000x80, .f32⟩
  | 8 => ⟨S100000x80, .f32⟩
  | 9 => ⟨S1x80, .f32⟩
  | 10 => ⟨S100000x80, .f32⟩
  | 11 => ⟨S100000x80, .f32⟩
  | 12 => ⟨S_, .f32⟩
  | 13 => ⟨S80, .f32⟩
  | 14 => ⟨S80, .f32⟩
  | 15 => ⟨S80, .f32⟩
  | 16 => ⟨S1x80, .f32⟩
  | 17 => ⟨S100000x80, .f32⟩
  | 18 => ⟨S100000x80, .f32⟩
  | 19 => ⟨S1x80, .f32⟩
  | 20 => ⟨S100000x80, .f32⟩
  | 21 => ⟨S100000x80, .f32⟩
  | 22 => ⟨S1x80, .f32⟩
  | 23 => ⟨S100000x80, .f32⟩
  | 24 => ⟨S100000x80, .f32⟩
  | 25 => ⟨S_, .f32⟩
  | 26 => ⟨S100000x80, .f32⟩
  | 27 => ⟨S100000x80, .f32⟩
  | 28 => ⟨S80x80, .f32⟩
  | 29 => ⟨S100000x80, .f32⟩
  | 30 => ⟨S1x80, .f32⟩
  | 31 => ⟨S100000x80, .f32⟩
  | 32 => ⟨S100000x80, .f32⟩
  | 33 => ⟨S1x80, .f32⟩
  | 34 => ⟨S100000x80, .f32⟩
  | 35 => ⟨S100000x80, .f32⟩
  | 36 => ⟨S_, .f32⟩
  | 37 => ⟨S80, .f32⟩
  | 38 => ⟨S80, .f32⟩
  | 39 => ⟨S80, .f32⟩
  | 40 => ⟨S1x80, .f32⟩
  | 41 => ⟨S100000x80, .f32⟩
  | 42 => ⟨S100000x80, .f32⟩
  | 43 => ⟨S1x80, .f32⟩
  | 44 => ⟨S100000x80, .f32⟩
  | 45 => ⟨S100000x80, .f32⟩
  | 46 => ⟨S1x80, .f32⟩
  | 47 => ⟨S100000x80, .f32⟩
  | 48 => ⟨S100000x80, .f32⟩
  | 49 => ⟨S_, .f32⟩
  | 50 => ⟨S100000x80, .f32⟩
  | 51 => ⟨S100000x80, .f32⟩
  | 52 => ⟨S80x40, .f32⟩
  | 53 => ⟨S100000x40, .f32⟩
  | 54 => ⟨S1x40, .f32⟩
  | 55 => ⟨S100000x40, .f32⟩
  | 56 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_cst_0 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_1 : Ref sig .tc := ⟨.hbm, 40, rfl⟩
abbrev main_v8 : Ref sig .tc := ⟨.hbm, 41, rfl⟩
abbrev main_v9 : Ref sig .tc := ⟨.hbm, 42, rfl⟩
abbrev main_cst_2 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_c : Ref sig .tc := ⟨.hbm, 47, rfl⟩
abbrev main_v13 : Ref sig .tc := ⟨.hbm, 48, rfl⟩
abbrev main_v14 : Ref sig .tc := ⟨.hbm, 49, rfl⟩
abbrev main_c_3 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_4 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_5 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_call0_cst : Ref sig .tc := ⟨.hbm, 83, rfl⟩
abbrev main_call0_v0 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_c_6 : Ref sig .tc := ⟨.hbm, 92, rfl⟩
abbrev main_v52 : Ref sig .tc := ⟨.hbm, 93, rfl⟩
abbrev main_v53 : Ref sig .tc := ⟨.hbm, 94, rfl⟩
abbrev main_c_7 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_8 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_9 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_call1_cst : Ref sig .tc := ⟨.hbm, 128, rfl⟩
abbrev main_call1_v0 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_10 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_call2_cst : Ref sig .tc := ⟨.hbm, 153, rfl⟩
abbrev main_call2_v0 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_11 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_call3_cst : Ref sig .tc := ⟨.hbm, 177, rfl⟩
abbrev main_call3_v0 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  concatenates_S100000x128_S100000x128_S100000x128_S100000x384_d1 : Shape.Concatenates [S100000x128, S100000x128, S100000x128] S100000x384 1
  transposes_S80x384_S384x80_1_0 : S80x384.Transposes [1, 0] S384x80
  bcast_S80_S1x80_1 : S80.BroadcastsInDim S1x80 (![1] : Fin 1 → Fin S1x80.rank)
  bcast_S1x80_S100000x80_0_1 : S1x80.BroadcastsInDim S100000x80 (![0, 1] : Fin 2 → Fin S100000x80.rank)
  bcast_S_S80 : S_.BroadcastsInDim S80 (![] : Fin 0 → Fin S80.rank)
  bcast_S_S100000x80 : S_.BroadcastsInDim S100000x80 (![] : Fin 0 → Fin S100000x80.rank)
  transposes_S80x80_S80x80_1_0 : S80x80.Transposes [1, 0] S80x80
  transposes_S40x80_S80x40_1_0 : S40x80.Transposes [1, 0] S80x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x384_S384x80_S100000x80_1_0_0_1_n_n_wf : DotDims.WF S100000x384 S384x80 S100000x80 [1] [0] [0] [1] [] []
  dot_S100000x80_S80x80_S100000x80_1_0_0_1_n_n_wf : DotDims.WF S100000x80 S80x80 S100000x80 [1] [0] [0] [1] [] []
  dot_S100000x80_S80x40_S100000x40_1_0_0_1_n_n_wf : DotDims.WF S100000x80 S80x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x384_S384x80_S100000x80_1_0_0_1_n_n : DotDims S100000x384 S384x80 S100000x80 where
  lhsContracting := [1]
  rhsContracting := [0]
  lhsNonContracting := [0]
  rhsNonContracting := [1]
  lhsBatch := []
  rhsBatch := []
  wf := dot_S100000x384_S384x80_S100000x80_1_0_0_1_n_n_wf
def dot_S100000x80_S80x80_S100000x80_1_0_0_1_n_n : DotDims S100000x80 S80x80 S100000x80 where
  lhsContracting := [1]
  rhsContracting := [0]
  lhsNonContracting := [0]
  rhsNonContracting := [1]
  lhsBatch := []
  rhsBatch := []
  wf := dot_S100000x80_S80x80_S100000x80_1_0_0_1_n_n_wf
def dot_S100000x80_S80x40_S100000x40_1_0_0_1_n_n : DotDims S100000x80 S80x40 S100000x40 where
  lhsContracting := [1]
  rhsContracting := [0]
  lhsNonContracting := [0]
  rhsNonContracting := [1]
  lhsBatch := []
  rhsBatch := []
  wf := dot_S100000x80_S80x40_S100000x40_1_0_0_1_n_n_wf

class Facts : Prop extends Facts₀ where

variable [Facts]
-- ==== Proof.KernelRun.lean ====
/-
  The kernel program's run with its memory NAMED: every weakly fair execution terminates, nothing faulting, and every buffer
  that outlives the regions ends at the contents the segment-by-segment fold of the program assigns it (the host stretches'
  operations applied in order; each region's arrays at what its grid points wrote back).  The result array and the argument
  arrays are among those buffers, so every later statement about the program's value is a statement about that fold.
-/
import proofs.«175949_j1623497638158_1_alg».proof.Proof.FrameKI

set_option maxRecDepth 16384

noncomputable section

namespace Cert.Sage.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that is not scoped to a region ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array ends at the fold's contents for it. -/
theorem run_result : θ_run defs (onTc (τ := τ) (main (F := F))) ⟨m, fun _ => 0, ρ⟩ (fun r => ∀ c : Dev nD,
      r.2.mem ((c.tc : Thread nD τ).loc main_v66) = W4 m ρ c (Proc.devRef .tc main_v66)) :=
  (θ_run defs _ _).mono (fun r h c => h c _ (mem_uc main_v66 (by decide))) (run_all m ρ)

end Cert.Sage.KRun

end
-- ==== Proof.Spec.lean ====
/-
  Two mean-aggregating graph layers and a three-layer perceptron head, ONE NODE (one row) at a time, on the extended reals.

  For a node with feature row `x` and neighbourhood mean `a` the first layer's hidden row is
      h0 j = clamp ( ((Σ_k a k · Wl k j + Σ_k x k · Wr k j) − μ j) · (σ² j + ε)^(-1/2) · γ j + β j ),   clamp u = max u 0,
  the row handed to the second layer is  x1 j = h0 j + (Σ_k x k · Wres k j + bres j),  the second layer's hidden row h1 has
  the shape of h0 over (x1, the mean of the neighbours' x1 rows), and the head maps the joined row [x, h0, h1] (384 entries)
  through two normalised, clamped affine layers of width 80 and a last affine layer of width 40.  Every matrix here is
  already in "input index first" form (entry k j multiplies input k into output j).

  Nothing below depends on how rows are grouped into blocks: a row of the result is a function of the same row of the
  row-indexed operands and of the whole weight operands.  That is why one and the same function describes a 2000-row block
  and the whole 100000-row array.
-/
import Idealize.ShloMosaic.PureOps.Ideal
import Idealize.ShloMosaic.Lib.ValueIdx

noncomputable section

open scoped BigOperators

namespace Cert.Sage

open Idealize.ShloMosaic Idealize.ShloMosaic.ValueIdx

/-- One entry: centre by the running mean, scale by the inverse root of (running variance + ε), by the gain, shift, and
    clamp below at zero.  ε and 0 are kept as the binary32 words both programs carry. -/
def normRelu (s mu var g b : EReal) : EReal :=
  max ((s - mu) * Ideal.rsqrt (var + Ideal.ofBits .f32 0x3727C5AC#32) * g + b) (Ideal.ofBits .f32 0x00000000#32)

/-- Entry `j` of a row times a matrix: `Σ_k u k · W k j`. -/
def rowMul {K J : Nat} (u : Fin K → EReal) (W : Fin K → Fin J → EReal) (j : Fin J) : EReal :=
  ∑ k : Fin K, u k * W k j

/-- A graph layer's hidden row: the neighbourhood mean through `Wl` plus the node's own row through `Wr`, normalised
    and clamped. -/
def hiddenRow (xr ar : Fin 128 → EReal) (Wl Wr : Fin 128 → Fin 128 → EReal) (g b mu var : Fin 128 → EReal)
    (j : Fin 128) : EReal :=
  normRelu (rowMul ar Wl j + rowMul xr Wr j) (mu j) (var j) (g j) (b j)

/-- The row passed on to the second layer: the hidden row plus an affine image of the node's own row. -/
def residRow (hr xr : Fin 128 → EReal) (Wres : Fin 128 → Fin 128 → EReal) (bres : Fin 128 → EReal) (j : Fin 128) : EReal :=
  hr j + (rowMul xr Wres j + bres j)

/-- Three rows of 128 entries joined into one of 384. -/
def joinRow (a b c : Fin 128 → EReal) (k : Fin 384) : EReal :=
  if h : k.val < 128 then a ⟨k.val, h⟩
  else if h2 : k.val < 256 then b ⟨k.val - 128, by omega⟩ else c ⟨k.val - 256, by omega⟩

/-- A normalised, clamped affine layer on a row. -/
def denseRow {K J : Nat} (z : Fin K → EReal) (W : Fin K → Fin J → EReal) (c g b mu var : Fin J → EReal) (j : Fin J) : EReal :=
  normRelu (rowMul z W j + c j) (mu j) (var j) (g j) (b j)

/-- The head's output row from the node's three collected rows and the second layer's operands. -/
def outRow (xr h0r x1r a1r : Fin 128 → EReal) (Wl1 Wr1 : Fin 128 → Fin 128 → EReal) (g1 b1 mu1 var1 : Fin 128 → EReal)
    (W0 : Fin 384 → Fin 80 → EReal) (c0 g2 b2 mu2 var2 : Fin 80 → EReal)
    (W1 : Fin 80 → Fin 80 → EReal) (c1 g3 b3 mu3 var3 : Fin 80 → EReal)
    (W2 : Fin 80 → Fin 40 → EReal) (c2 : Fin 40 → EReal) (j : Fin 40) : EReal :=
  rowMul (denseRow (denseRow (joinRow xr h0r (hiddenRow x1r a1r Wl1 Wr1 g1 b1 mu1 var1)) W0 c0 g2 b2 mu2 var2)
    W1 c1 g3 b3 mu3 var3) W2 j + c2 j

/-! ## Rows, matrices and vectors read off arrays -/

/-- Row `r` of a two-dimensional array. -/
def rowOf {n0 n1 : Nat} (X : (⟨2, ![n0, n1]⟩ : Shape).Idx → EReal) (r : Fin n0) : Fin n1 → EReal := fun k => X (ix2 r k)
/-- A two-dimensional array as a function of its two coordinates. -/
def matOf {n0 n1 : Nat} (W : (⟨2, ![n0, n1]⟩ : Shape).Idx → EReal) : Fin n0 → Fin n1 → EReal := fun k j => W (ix2 k j)
/-- A one-dimensional array as a function of its coordinate. -/
def vecOf {n : Nat} (g : (⟨1, ![n]⟩ : Shape).Idx → EReal) : Fin n → EReal := fun j => g (ix1 j)
/-- The single row of a 1 × n array. -/
def vec2Of {n : Nat} (g : (⟨2, ![1, n]⟩ : Shape).Idx → EReal) : Fin n → EReal := fun j => g (ix2 (0 : Fin 1) j)

/-! ## The three arrays, row by row

Row `i 0` of each result is the row function of row `i 0` of the row-indexed operands.  The row count `n` is a parameter:
2000 for one block, 100000 for the whole array. -/

/-- A graph layer's hidden array. -/
def hiddenArr {n : Nat} (X A : (⟨2, ![n, 128]⟩ : Shape).Idx → EReal) (Wl Wr : (⟨2, ![128, 128]⟩ : Shape).Idx → EReal)
    (g b mu var : (⟨2, ![1, 128]⟩ : Shape).Idx → EReal) : (⟨2, ![n, 128]⟩ : Shape).Idx → EReal :=
  fun i => hiddenRow (rowOf X (i 0)) (rowOf A (i 0)) (matOf Wl) (matOf Wr) (vec2Of g) (vec2Of b) (vec2Of mu) (vec2Of var) (i 1)

/-- The array passed on to the second layer. -/
def residArr {n : Nat} (H X : (⟨2, ![n, 128]⟩ : Shape).Idx → EReal) (Wres : (⟨2, ![128, 128]⟩ : Shape).Idx → EReal)
    (bres : (⟨2, ![1, 128]⟩ : Shape).Idx → EReal) : (⟨2, ![n, 128]⟩ : Shape).Idx → EReal :=
  fun i => residRow (rowOf H (i 0)) (rowOf X (i 0)) (matOf Wres) (vec2Of bres) (i 1)

/-- The head's output array. -/
def outArr {n : Nat} (X H0 X1 A1 : (⟨2, ![n, 128]⟩ : Shape).Idx → EReal) (Wl1 Wr1 : (⟨2, ![128, 128]⟩ : Shape).Idx → EReal)
    (g1 b1 mu1 var1 : (⟨2, ![1, 128]⟩ : Shape).Idx → EReal)
    (W0 : (⟨2, ![384, 80]⟩ : Shape).Idx → EReal) (c0 g2 b2 mu2 var2 : (⟨2, ![1, 80]⟩ : Shape).Idx → EReal)
    (W1 : (⟨2, ![80, 80]⟩ : Shape).Idx → EReal) (c1 g3 b3 mu3 var3 : (⟨2, ![1, 80]⟩ : Shape).Idx → EReal)
    (W2 : (⟨2, ![80, 40]⟩ : Shape).Idx → EReal) (c2 : (⟨2, ![1, 40]⟩ : Shape).Idx → EReal) : (⟨2, ![n, 40]⟩ : Shape).Idx → EReal :=
  fun i => outRow (rowOf X (i 0)) (rowOf H0 (i 0)) (rowOf X1 (i 0)) (rowOf A1 (i 0)) (matOf Wl1) (matOf Wr1)
    (vec2Of g1) (vec2Of b1) (vec2Of mu1) (vec2Of var1) (matOf W0) (vec2Of c0) (vec2Of g2) (vec2Of b2) (vec2Of mu2) (vec2Of var2)
    (matOf W1) (vec2Of c1) (vec2Of g3) (vec2Of b3) (vec2Of mu3) (vec2Of var3) (matOf W2) (vec2Of c2) (i 1)

end Cert.Sage

end
-- ==== Proof.Contract.lean ====
/-
  Two facts about reading a two-dimensional operation at an explicit entry (p, j).

  * A contraction of an [A, K] array with a [K, B] array over the shared axis, whatever record describes it, as long as the
    record's index maps send output entry (p, j) and contraction index q to the left entry (p, q) and the right entry (q, j):
    the sum over the record's own contraction index type is the plain sum  Σ_k l (p, k) · r (k, j).
  * A [1, n] row repeated down A rows: entry (p, j) is the row's entry j.
-/
import Idealize.ShloMosaic.PureOps.Ideal.Laws
import Idealize.ShloMosaic.Lib.ValueIdx
import Idealize.ShloMosaic.Lib.Pipeline.Value
import proofs.«175949_j1623497638158_1_alg».proof.Proof.Spec

noncomputable section

open scoped BigOperators

namespace Cert.Sage

open Idealize.ShloMosaic Idealize.ShloMosaic.ValueIdx

/-- The sum a contraction record takes at output entry (p, j), re-indexed by the shared axis. -/
theorem contr_sum {A K B : Nat} (d : DotDims ⟨2, ![A, K]⟩ ⟨2, ![K, B]⟩ ⟨2, ![A, B]⟩)
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (l : (⟨2, ![A, K]⟩ : Shape).Idx → EReal) (r : (⟨2, ![K, B]⟩ : Shape).Idx → EReal) (p : Fin A) (j : Fin B) :
    ∑ q : d.contr.Idx, l (d.lhsIdx (ix2 p j) q) * r (d.rhsIdx (ix2 p j) q) = rowMul (rowOf l p) (matOf r) j := by
  rw [← Equiv.sum_comp (contrEquiv1 d K hr hs).symm]
  unfold rowMul rowOf matOf
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- A [1, n] row repeated down the rows of an [A, n] array, at entry (p, j). -/
theorem rowBroadcast_at {A n : Nat} {α : Type} (v : (⟨2, ![1, n]⟩ : Shape).Idx → α)
    (h : (⟨2, ![1, n]⟩ : Shape).Broadcasts ⟨2, ![A, n]⟩) (hn : n ≠ 1) (p : Fin A) (j : Fin n) :
    broadcastTo ⟨2, ![A, n]⟩ v h (ix2 p j) = v (ix2 (0 : Fin 1) j) := by
  refine broadcastTo_apply v h (ix2 p j) (ix2 (0 : Fin 1) j) (fun a => ?_)
  match a with
  | ⟨0, _⟩ => show (0 : Nat) = if (1 : Nat) = 1 then 0 else _; rw [if_pos rfl]
  | ⟨1, _⟩ => show j.val = if n = 1 then 0 else j.val; rw [if_neg hn]

end Cert.Sage

end
-- ==== Proof.Layer0Rows.lean ====
/-
  The first region's two stores, one entry at a time.  A grid point's body holds a 2000-row block of the node features, the
  matching block of neighbourhood means and the whole small operands; entry (p, j) of what it stores in the first output block
  is the hidden row of the node in row p, and in the second that row plus the affine image of the node's own row.  A change
  of float format is the identity on extended reals, so the casts before each product do not appear on the right.
-/
import proofs.«175949_j1623497638158_1_alg».proof.Proof.Gen.KernelIdeal.Skeleton
import proofs.«175949_j1623497638158_1_alg».proof.Proof.Contract

noncomputable section

namespace Cert.Sage.K0

open Cert.KernelIdeal Cert.KernelIdeal.Gen Cert.Sage Idealize.ShloMosaic Idealize.ShloMosaic.ValueIdx

theorem d128_l0 (i : S2000x128.Idx) (q : (dot_S2000x128_S128x128_S2000x128_1_0_0_1_n_n).contr.Idx) :
    ((dot_S2000x128_S128x128_S2000x128_1_0_0_1_n_n).lhsIdx i q (0 : Fin 2)).val = (i (0 : Fin 2)).val := by
  unfold DotDims.lhsIdx
  rw [dif_neg (show ¬(0 : Fin S2000x128.rank) ∈ (dot_S2000x128_S128x128_S2000x128_1_0_0_1_n_n).lhsBatch by decide), dif_pos (show (0 : Fin S2000x128.rank) ∈ (dot_S2000x128_S128x128_S2000x128_1_0_0_1_n_n).lhsNonContracting by decide)]
  rfl
theorem d128_l1 (i : S2000x128.Idx) (q : (dot_S2000x128_S128x128_S2000x128_1_0_0_1_n_n).contr.Idx) :
    ((dot_S2000x128_S128x128_S2000x128_1_0_0_1_n_n).lhsIdx i q (1 : Fin 2)).val = (q ⟨0, by decide⟩).val :=
  (dot_S2000x128_S128x128_S2000x128_1_0_0_1_n_n).lhsIdx_val_of_single rfl i q
theorem d128_r0 (i : S2000x128.Idx) (q : (dot_S2000x128_S128x128_S2000x128_1_0_0_1_n_n).contr.Idx) :
    ((dot_S2000x128_S128x128_S2000x128_1_0_0_1_n_n).rhsIdx i q (0 : Fin 2)).val = (q ⟨0, by decide⟩).val :=
  (dot_S2000x128_S128x128_S2000x128_1_0_0_1_n_n).rhsIdx_val_of_single rfl i q
theorem d128_r1 (i : S2000x128.Idx) (q : (dot_S2000x128_S128x128_S2000x128_1_0_0_1_n_n).contr.Idx) :
    ((dot_S2000x128_S128x128_S2000x128_1_0_0_1_n_n).rhsIdx i q (1 : Fin 2)).val = (i (1 : Fin 2)).val := by
  unfold DotDims.rhsIdx
  rw [dif_neg (show ¬(1 : Fin S128x128.rank) ∈ (dot_S2000x128_S128x128_S2000x128_1_0_0_1_n_n).rhsBatch by decide), dif_pos (show (1 : Fin S128x128.rank) ∈ (dot_S2000x128_S128x128_S2000x128_1_0_0_1_n_n).rhsNonContracting by decide)]
  rfl

/-- A block's product with a 128 × 128 matrix into a zero accumulator, at entry (p, j). -/
theorem mm128 {φ₁ φ₂ : FTy} (l : FVec Ideal S2000x128 φ₁) (r : FVec Ideal S128x128 φ₂) (p : Fin 2000) (j : Fin 128) :
    matmul (F := Ideal) dot_S2000x128_S128x128_S2000x128_1_0_0_1_n_n none l r (constant S2000x128 .f32 0x00000000#32) (ix2 p j)
      = rowMul (rowOf l p) (matOf r) j := by
  refine (Ideal.matmul_constant_zero_apply _ none l r (ix2 p j)).trans ?_
  exact contr_sum dot_S2000x128_S128x128_S2000x128_1_0_0_1_n_n rfl rfl d128_l0 d128_l1 d128_r0 d128_r1 l r p j

/-- A [1, 128] row repeated down a block's 2000 rows, at entry (p, j). -/
theorem bc128 {α : Type} (v : S1x128.Idx → α) (p : Fin 2000) (j : Fin 128) :
    broadcastTo S2000x128 v broadcasts_S1x128_S2000x128 (ix2 p j) = v (ix2 (0 : Fin 1) j) :=
  rowBroadcast_at v broadcasts_S1x128_S2000x128 (by decide) p j

/-- The first store's payload at entry (p, j) of a block: the hidden row of the node in row p. -/
theorem hidden_at (x0 x1 : Vec Ideal S2000x128 .f32) (x2 x3 : Vec Ideal S128x128 .f32) (mu var g b : Vec Ideal S1x128 .f32)
    (p : Fin 2000) (j : Fin 128) :
    k0_pay2 (F := Ideal) x0 x1 x2 x3 mu var g b (ix2 p j)
      = hiddenRow (rowOf x0 p) (rowOf x1 p) (matOf x2) (matOf x3) (vec2Of g) (vec2Of b) (vec2Of mu) (vec2Of var) j := by
  unfold k0_pay2 hiddenRow normRelu
  simp only [shapeCast_self]
  simp only [maximumf_apply, addf_apply, mulf_apply, subf_apply, broadcast_apply, mm128, bc128]
  rfl

/-- The second store's payload at entry (p, j): the hidden row plus the affine image of the node's own row. -/
theorem resid_at (h : FVec Ideal S2000x128 .f32) (x0 : Vec Ideal S2000x128 .f32) (W : Vec Ideal S128x128 .f32) (bres : Vec Ideal S1x128 .f32)
    (p : Fin 2000) (j : Fin 128) :
    k0_pay1 (F := Ideal) h (k0_pay3 x0) W bres (ix2 p j)
      = residRow (rowOf h p) (rowOf x0 p) (matOf W) (vec2Of bres) j := by
  unfold k0_pay1 k0_pay3 residRow
  simp only [shapeCast_self]
  simp only [addf_apply, mm128, bc128]
  rfl

end Cert.Sage.K0

end
-- ==== Proof.Layer0Array.lean ====
/-
  The first region's two output arrays after the run, as whole-array functions of the arrays the region finds on entry.

  The grid has 50 points; point t handles rows 2000·t … 2000·t + 1999 of the row-indexed operands and of both outputs, and
  sees every small operand whole.  What point t writes back to an output is therefore the block of rows 2000·t … of the
  row-by-row function (Spec) of the whole arrays, and the 50 blocks tile the 100000 rows, so each output array ends holding
  that function everywhere.
-/
import proofs.«175949_j1623497638158_1_alg».proof.Proof.FrameKI
import proofs.«175949_j1623497638158_1_alg».proof.Proof.Layer0Rows
import Idealize.ShloMosaic.Lib.Pipeline.Value

set_option maxRecDepth 16384

noncomputable section

namespace Cert.Sage.K0

open Cert.KernelIdeal Cert.KernelIdeal.Gen Cert.KernelIdeal.GenP Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The printed index maps over the grid -/

theorem ix0_0 : ∀ t : Fin cfg0.N, win0_0.index t (0 : Fin 2) = t.val ∧ win0_0.index t (1 : Fin 2) = 0 :=
  (by decide +kernel : ∀ t : Fin grid0.N, _)
theorem ix0_1 : ∀ t : Fin cfg0.N, win0_1.index t (0 : Fin 2) = t.val ∧ win0_1.index t (1 : Fin 2) = 0 :=
  (by decide +kernel : ∀ t : Fin grid0.N, _)
theorem ix0_2 : ∀ t : Fin cfg0.N, win0_2.index t (0 : Fin 2) = 0 ∧ win0_2.index t (1 : Fin 2) = 0 :=
  (by decide +kernel : ∀ t : Fin grid0.N, _)
theorem ix0_3 : ∀ t : Fin cfg0.N, win0_3.index t (0 : Fin 2) = 0 ∧ win0_3.index t (1 : Fin 2) = 0 :=
  (by decide +kernel : ∀ t : Fin grid0.N, _)
theorem ix0_4 : ∀ t : Fin cfg0.N, win0_4.index t (0 : Fin 2) = 0 ∧ win0_4.index t (1 : Fin 2) = 0 :=
  (by decide +kernel : ∀ t : Fin grid0.N, _)
theorem ix0_5 : ∀ t : Fin cfg0.N, win0_5.index t (0 : Fin 2) = 0 ∧ win0_5.index t (1 : Fin 2) = 0 :=
  (by decide +kernel : ∀ t : Fin grid0.N, _)
theorem ix0_6 : ∀ t : Fin cfg0.N, win0_6.index t (0 : Fin 2) = 0 ∧ win0_6.index t (1 : Fin 2) = 0 :=
  (by decide +kernel : ∀ t : Fin grid0.N, _)
theorem ix0_7 : ∀ t : Fin cfg0.N, win0_7.index t (0 : Fin 2) = 0 ∧ win0_7.index t (1 : Fin 2) = 0 :=
  (by decide +kernel : ∀ t : Fin grid0.N, _)
theorem ix0_8 : ∀ t : Fin cfg0.N, win0_8.index t (0 : Fin 2) = 0 ∧ win0_8.index t (1 : Fin 2) = 0 :=
  (by decide +kernel : ∀ t : Fin grid0.N, _)
theorem ix0_9 : ∀ t : Fin cfg0.N, win0_9.index t (0 : Fin 2) = 0 ∧ win0_9.index t (1 : Fin 2) = 0 :=
  (by decide +kernel : ∀ t : Fin grid0.N, _)
theorem ix0_10 : ∀ t : Fin cfg0.N, win0_10.index t (0 : Fin 2) = t.val ∧ win0_10.index t (1 : Fin 2) = 0 :=
  (by decide +kernel : ∀ t : Fin grid0.N, _)
theorem ix0_11 : ∀ t : Fin cfg0.N, win0_11.index t (0 : Fin 2) = t.val ∧ win0_11.index t (1 : Fin 2) = 0 :=
  (by decide +kernel : ∀ t : Fin grid0.N, _)

/-! ## A block's rows and entries are the array's -/

theorem blk0_0 (c : Dev nD) (t : Fin cfg0.N) (p : Fin 2000) (hr : t.val * 2000 + p.val < 100000) :
    rowOf (iblk0 V c 0 t : S2000x128.Idx → EReal) p = rowOf (V c main_arg0 : S100000x128.Idx → EReal) ⟨t.val * 2000 + p.val, hr⟩ := by
  obtain ⟨e0, e1⟩ := ix0_0 t
  funext k
  show V c main_arg0 (((cfg0.win 0).blk t).view.emb (ix2 p k)) = V c main_arg0 (ix2 (⟨t.val * 2000 + p.val, hr⟩ : Fin 100000) k)
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega
theorem blk0_1 (c : Dev nD) (t : Fin cfg0.N) (p : Fin 2000) (hr : t.val * 2000 + p.val < 100000) :
    rowOf (iblk0 V c 1 t : S2000x128.Idx → EReal) p = rowOf (V c main_v24 : S100000x128.Idx → EReal) ⟨t.val * 2000 + p.val, hr⟩ := by
  obtain ⟨e0, e1⟩ := ix0_1 t
  funext k
  show V c main_v24 (((cfg0.win 1).blk t).view.emb (ix2 p k)) = V c main_v24 (ix2 (⟨t.val * 2000 + p.val, hr⟩ : Fin 100000) k)
  refine congrArg (V c main_v24) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega
theorem blk0_2 (c : Dev nD) (t : Fin cfg0.N) :
    matOf (iblk0 V c 2 t : S128x128.Idx → EReal) = matOf (V c main_v25 : S128x128.Idx → EReal) := by
  obtain ⟨e0, e1⟩ := ix0_2 t
  funext k j
  show V c main_v25 (((cfg0.win 2).blk t).view.emb (ix2 k j)) = V c main_v25 (ix2 k j)
  refine congrArg (V c main_v25) (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega
theorem blk0_3 (c : Dev nD) (t : Fin cfg0.N) :
    matOf (iblk0 V c 3 t : S128x128.Idx → EReal) = matOf (V c main_v26 : S128x128.Idx → EReal) := by
  obtain ⟨e0, e1⟩ := ix0_3 t
  funext k j
  show V c main_v26 (((cfg0.win 3).blk t).view.emb (ix2 k j)) = V c main_v26 (ix2 k j)
  refine congrArg (V c main_v26) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega
theorem blk0_4 (c : Dev nD) (t : Fin cfg0.N) :
    vec2Of (iblk0 V c 4 t : S1x128.Idx → EReal) = vec2Of (V c main_v28 : S1x128.Idx → EReal) := by
  obtain ⟨e0, e1⟩ := ix0_4 t
  funext j
  show V c main_v28 (((cfg0.win 4).blk t).view.emb (ix2 (0 : Fin 1) j)) = V c main_v28 (ix2 (0 : Fin 1) j)
  refine congrArg (V c main_v28) (funext fun a => Fin.ext ?_)
  match a with
  | ⟨0, _⟩ => show win0_4.index t (0 : Fin 2) * 1 + 1 * 0 = 0; omega
  | ⟨1, _⟩ => show win0_4.index t (1 : Fin 2) * 128 + 1 * j.val = j.val; omega
theorem blk0_5 (c : Dev nD) (t : Fin cfg0.N) :
    vec2Of (iblk0 V c 5 t : S1x128.Idx → EReal) = vec2Of (V c main_v29 : S1x128.Idx → EReal) := by
  obtain ⟨e0, e1⟩ := ix0_5 t
  funext j
  show V c main_v29 (((cfg0.win 5).blk t).view.emb (ix2 (0 : Fin 1) j)) = V c main_v29 (ix2 (0 : Fin 1) j)
  refine congrArg (V c main_v29) (funext fun a => Fin.ext ?_)
  match a with
  | ⟨0, _⟩ => show win0_5.index t (0 : Fin 2) * 1 + 1 * 0 = 0; omega
  | ⟨1, _⟩ => show win0_5.index t (1 : Fin 2) * 128 + 1 * j.val = j.val; omega
theorem blk0_6 (c : Dev nD) (t : Fin cfg0.N) :
    vec2Of (iblk0 V c 6 t : S1x128.Idx → EReal) = vec2Of (V c main_v30 : S1x128.Idx → EReal) := by
  obtain ⟨e0, e1⟩ := ix0_6 t
  funext j
  show V c main_v30 (((cfg0.win 6).blk t).view.emb (ix2 (0 : Fin 1) j)) = V c main_v30 (ix2 (0 : Fin 1) j)
  refine congrArg (V c main_v30) (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega
theorem blk0_7 (c : Dev nD) (t : Fin cfg0.N) :
    vec2Of (iblk0 V c 7 t : S1x128.Idx → EReal) = vec2Of (V c main_v31 : S1x128.Idx → EReal) := by
  obtain ⟨e0, e1⟩ := ix0_7 t
  funext j
  show V c main_v31 (((cfg0.win 7).blk t).view.emb (ix2 (0 : Fin 1) j)) = V c main_v31 (ix2 (0 : Fin 1) j)
  refine congrArg (V c main_v31) (funext fun a => Fin.ext ?_)
  match a with
  | ⟨0, _⟩ => show win0_7.index t (0 : Fin 2) * 1 + 1 * 0 = 0; omega
  | ⟨1, _⟩ => show win0_7.index t (1 : Fin 2) * 128 + 1 * j.val = j.val; omega
theorem blk0_8 (c : Dev nD) (t : Fin cfg0.N) :
    matOf (iblk0 V c 8 t : S128x128.Idx → EReal) = matOf (V c main_v27 : S128x128.Idx → EReal) := by
  obtain ⟨e0, e1⟩ := ix0_8 t
  funext k j
  show V c main_v27 (((cfg0.win 8).blk t).view.emb (ix2 k j)) = V c main_v27 (ix2 k j)
  refine congrArg (V c main_v27) (funext fun a => Fin.ext ?_)
  match a with
  | ⟨0, _⟩ => show win0_8.index t (0 : Fin 2) * 128 + 1 * k.val = k.val; omega
  | ⟨1, _⟩ => show win0_8.index t (1 : Fin 2) * 128 + 1 * j.val = j.val; omega
theorem blk0_9 (c : Dev nD) (t : Fin cfg0.N) :
    vec2Of (iblk0 V c 9 t : S1x128.Idx → EReal) = vec2Of (V c main_v32 : S1x128.Idx → EReal) := by
  obtain ⟨e0, e1⟩ := ix0_9 t
  funext j
  show V c main_v32 (((cfg0.win 9).blk t).view.emb (ix2 (0 : Fin 1) j)) = V c main_v32 (ix2 (0 : Fin 1) j)
  refine congrArg (V c main_v32) (funext fun a => Fin.ext ?_)
  match a with
  | ⟨0, _⟩ => show win0_9.index t (0 : Fin 2) * 1 + 1 * 0 = 0; omega
  | ⟨1, _⟩ => show win0_9.index t (1 : Fin 2) * 128 + 1 * j.val = j.val; omega

/-! ## The output blocks tile the arrays -/

/-- Entry (p, j) of output block t is entry (2000·t + p, j) of the array. -/
theorem emb0_10 (t : Fin cfg0.N) (p : Fin 2000) (j : Fin 128) (hr : t.val * 2000 + p.val < 100000) :
    ((cfg0.win 10).blk t).view.emb (ix2 p j) = ix2 (⟨t.val * 2000 + p.val, hr⟩ : Fin 100000) j := by
  obtain ⟨e0, e1⟩ := ix0_10 t
  funext a; apply Fin.ext
  match a with
  | ⟨0, _⟩ => show win0_10.index t (0 : Fin 2) * 2000 + 1 * p.val = t.val * 2000 + p.val; omega
  | ⟨1, _⟩ => show win0_10.index t (1 : Fin 2) * 128 + 1 * j.val = j.val; omega
/-- An index of the array is in point t's block iff each coordinate is in the block's range on its axis. -/
theorem mem_blk0_10 (t : Fin cfg0.N) (i : S100000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v33_0).slice (win0_10.rect t)).set ↔ _
  rw [View.set_slice_whole, Rect.mem_set_unit]
  exact Iff.rfl
/-- The 50 blocks tile the array's 100000 rows: row r is in the block of point r / 2000. -/
theorem cover0_10 (i : S100000x128.Idx) : ∃ t : Fin cfg0.N, (cfg0.win 10).flush t = true ∧ i ∈ ((cfg0.win 10).blk t).view.set := by
  have hi0 : (i 0).val < 100000 := (i 0).isLt
  have hi1 : (i 1).val < 128 := (i 1).isLt
  have hN : (i 0).val / 2000 < cfg0.N := by show _ < grid0.N; rw [N_0]; omega
  obtain ⟨e0, e1⟩ := ix0_10 ⟨(i 0).val / 2000, hN⟩
  refine ⟨⟨(i 0).val / 2000, hN⟩, flush0_10 _, ?_⟩
  rw [mem_blk0_10]
  intro a
  match a with
  | ⟨0, _⟩ =>
    show win0_10.index ⟨(i 0).val / 2000, hN⟩ (0 : Fin 2) * 2000 ≤ (i 0).val ∧ (i 0).val < win0_10.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_10.index ⟨(i 0).val / 2000, hN⟩ (1 : Fin 2) * 128 ≤ (i 1).val ∧ (i 1).val < win0_10.index ⟨(i 0).val / 2000, hN⟩ (1 : Fin 2) * 128 + 128
    omega
/-- Entry (p, j) of output block t is entry (2000·t + p, j) of the array. -/
theorem emb0_11 (t : Fin cfg0.N) (p : Fin 2000) (j : Fin 128) (hr : t.val * 2000 + p.val < 100000) :
    ((cfg0.win 11).blk t).view.emb (ix2 p j) = ix2 (⟨t.val * 2000 + p.val, hr⟩ : Fin 100000) j := by
  obtain ⟨e0, e1⟩ := ix0_11 t
  funext a; apply Fin.ext
  match a with
  | ⟨0, _⟩ => show win0_11.index t (0 : Fin 2) * 2000 + 1 * p.val = t.val * 2000 + p.val; omega
  | ⟨1, _⟩ => show win0_11.index t (1 : Fin 2) * 128 + 1 * j.val = j.val; omega
/-- An index of the array is in point t's block iff each coordinate is in the block's range on its axis. -/
theorem mem_blk0_11 (t : Fin cfg0.N) (i : S100000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v33_1).slice (win0_11.rect t)).set ↔ _
  rw [View.set_slice_whole, Rect.mem_set_unit]
  exact Iff.rfl
/-- The 50 blocks tile the array's 100000 rows: row r is in the block of point r / 2000. -/
theorem cover0_11 (i : S100000x128.Idx) : ∃ t : Fin cfg0.N, (cfg0.win 11).flush t = true ∧ i ∈ ((cfg0.win 11).blk t).view.set := by
  have hi0 : (i 0).val < 100000 := (i 0).isLt
  have hi1 : (i 1).val < 128 := (i 1).isLt
  have hN : (i 0).val / 2000 < cfg0.N := by show _ < grid0.N; rw [N_0]; omega
  obtain ⟨e0, e1⟩ := ix0_11 ⟨(i 0).val / 2000, hN⟩
  refine ⟨⟨(i 0).val / 2000, hN⟩, flush0_11 _, ?_⟩
  rw [mem_blk0_11]
  intro a
  match a with
  | ⟨0, _⟩ =>
    show win0_11.index ⟨(i 0).val / 2000, hN⟩ (0 : Fin 2) * 2000 ≤ (i 0).val ∧ (i 0).val < win0_11.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_11.index ⟨(i 0).val / 2000, hN⟩ (1 : Fin 2) * 128 ≤ (i 1).val ∧ (i 1).val < win0_11.index ⟨(i 0).val / 2000, hN⟩ (1 : Fin 2) * 128 + 128
    omega

/-! ## What a point writes back -/

theorem tlt (t : Fin cfg0.N) : t.val < 50 := lt_of_lt_of_eq t.isLt N_0

/-- The hidden row of the node in row p of block t, over the whole arrays. -/
theorem hidden_pt (c : Dev nD) (t : Fin cfg0.N) (p : Fin 2000) (j : Fin 128) (hr : t.val * 2000 + p.val < 100000) :
    k0_pay2 (F := Ideal) (iblk0 V c 0 t) (iblk0 V c 1 t) (iblk0 V c 2 t) (iblk0 V c 3 t) (iblk0 V c 6 t) (iblk0 V c 7 t) (iblk0 V c 4 t) (iblk0 V c 5 t) (ix2 p j)
      = hiddenArr (V c main_arg0) (V c main_v24) (V c main_v25) (V c main_v26) (V c main_v28) (V c main_v29) (V c main_v30) (V c main_v31) (ix2 (⟨t.val * 2000 + p.val, hr⟩ : Fin 100000) j) := by
  refine (hidden_at _ _ _ _ _ _ _ _ p j).trans ?_
  rw [blk0_0 V c t p hr, blk0_1 V c t p hr, blk0_2 V c t, blk0_3 V c t, blk0_4 V c t, blk0_5 V c t, blk0_6 V c t, blk0_7 V c t]
  rfl

theorem point10 (c : Dev nD) (t : Fin cfg0.N) (y : S2000x128.Idx) :
    k0_pay2 (F := Ideal) (iblk0 V c 0 t) (iblk0 V c 1 t) (iblk0 V c 2 t) (iblk0 V c 3 t) (iblk0 V c 6 t) (iblk0 V c 7 t) (iblk0 V c 4 t) (iblk0 V c 5 t) y
      = hiddenArr (V c main_arg0) (V c main_v24) (V c main_v25) (V c main_v26) (V c main_v28) (V c main_v29) (V c main_v30) (V c main_v31) (((cfg0.win 10).blk t).view.emb y) := by
  obtain ⟨p, j, rfl⟩ : ∃ (p : Fin 2000) (j : Fin 128), y = ix2 p j := ⟨y 0, y 1, eq_ix2 y⟩
  have hr : t.val * 2000 + p.val < 100000 := by have := tlt t; have := p.isLt; omega
  rw [emb0_10 t p j hr]
  exact hidden_pt V c t p j hr

/-- WHAT POINT t WRITES BACK to the first output is block t of the hidden array. -/
theorem flushed10_eq (c : Dev nD) (t : Fin cfg0.N) :
    (dat0 V c).flushed 10 t = ((cfg0.win 10).blk t).view.read (Elt Ideal) (hiddenArr (V c main_arg0) (V c main_v24) (V c main_v25) (V c main_v26) (V c main_v28) (V c main_v29) (V c main_v30) (V c main_v31)) := by
  show (cfg0.win 10).cut (grid0.coords t) ((dat0 V c).after 10 t) = _
  rw [after0_10]
  unfold out0_10
  rw [View.canon_unit_zero hz]
  simp only [View.ld_unit_zero (S := S2000x128) hz, View.ld_unit_zero (S := S128x128) hz, View.ld_unit_zero (S := S1x128) hz]
  funext y
  exact point10 V c t y

theorem point11 (c : Dev nD) (t : Fin cfg0.N) (y : S2000x128.Idx) :
    k0_pay1 (F := Ideal) (k0_pay2 (iblk0 V c 0 t) (iblk0 V c 1 t) (iblk0 V c 2 t) (iblk0 V c 3 t) (iblk0 V c 6 t) (iblk0 V c 7 t) (iblk0 V c 4 t) (iblk0 V c 5 t)) (k0_pay3 (iblk0 V c 0 t)) (iblk0 V c 8 t) (iblk0 V c 9 t) y
      = residArr (hiddenArr (V c main_arg0) (V c main_v24) (V c main_v25) (V c main_v26) (V c main_v28) (V c main_v29) (V c main_v30) (V c main_v31)) (V c main_arg0) (V c main_v27) (V c main_v32) (((cfg0.win 11).blk t).view.emb y) := by
  obtain ⟨p, j, rfl⟩ : ∃ (p : Fin 2000) (j : Fin 128), y = ix2 p j := ⟨y 0, y 1, eq_ix2 y⟩
  have hr : t.val * 2000 + p.val < 100000 := by have := tlt t; have := p.isLt; omega
  rw [emb0_11 t p j hr]
  refine (resid_at _ _ _ _ p j).trans ?_
  have hrow : rowOf (k0_pay2 (F := Ideal) (iblk0 V c 0 t) (iblk0 V c 1 t) (iblk0 V c 2 t) (iblk0 V c 3 t) (iblk0 V c 6 t) (iblk0 V c 7 t) (iblk0 V c 4 t) (iblk0 V c 5 t)) p
      = rowOf (hiddenArr (V c main_arg0) (V c main_v24) (V c main_v25) (V c main_v26) (V c main_v28) (V c main_v29) (V c main_v30) (V c main_v31)) (⟨t.val * 2000 + p.val, hr⟩ : Fin 100000) :=
    funext fun k => hidden_pt V c t p k hr
  rw [hrow, blk0_0 V c t p hr, blk0_8 V c t, blk0_9 V c t]
  rfl

/-- WHAT POINT t WRITES BACK to the second output is block t of the array passed to the second layer. -/
theorem flushed11_eq (c : Dev nD) (t : Fin cfg0.N) :
    (dat0 V c).flushed 11 t = ((cfg0.win 11).blk t).view.read (Elt Ideal)
      (residArr (hiddenArr (V c main_arg0) (V c main_v24) (V c main_v25) (V c main_v26) (V c main_v28) (V c main_v29) (V c main_v30) (V c main_v31)) (V c main_arg0) (V c main_v27) (V c main_v32)) := by
  show (cfg0.win 11).cut (grid0.coords t) ((dat0 V c).after 11 t) = _
  rw [after0_11]
  unfold out0_11
  rw [View.canon_unit_zero hz]
  simp only [View.ld_unit_zero (S := S2000x128) hz, View.ld_unit_zero (S := S128x128) hz, View.ld_unit_zero (S := S1x128) hz]
  funext y
  exact point11 V c t y

/-! ## The two arrays after the region -/

/-- The first output array ends holding the hidden array of the arrays the region finds on entry. -/
theorem hidden_final (c : Dev nD) :
    (dat0 V c).arrAt 10 cfg0.N = hiddenArr (V c main_arg0) (V c main_v24) (V c main_v25) (V c main_v26) (V c main_v28) (V c main_v29) (V c main_v30) (V c main_v31) :=
  (dat0 V c).arrAt_eq_of_cover 10 _ (fun t _ => flushed10_eq V c t) cover0_10

/-- The second output array ends holding the array passed to the second layer. -/
theorem resid_final (c : Dev nD) :
    (dat0 V c).arrAt 11 cfg0.N = residArr (hiddenArr (V c main_arg0) (V c main_v24) (V c main_v25) (V c main_v26) (V c main_v28) (V c main_v29) (V c main_v30) (V c main_v31)) (V c main_arg0) (V c main_v27) (V c main_v32) :=
  (dat0 V c).arrAt_eq_of_cover 11 _ (fun t _ => flushed11_eq V c t) cover0_11

end Cert.Sage.K0

end
-- ==== Proof.Layer1Rows.lean ====
/-
  The second region's store, one entry at a time.  A grid point's body holds 2000-row blocks of the node features, of the
  first layer's hidden rows, of the rows handed to the second layer and of their neighbourhood means, and the whole small
  operands.  Entry (p, j) of what it stores is the head's output row of the node in row p: the second layer's hidden row
  h1 (the neighbourhood mean through one 128 × 128 matrix plus the node's row through the other, normalised and clamped),
  the three rows [features, first hidden row, h1] joined into one of 384 entries, two normalised, clamped affine layers of
  width 80 and a last affine layer of width 40.

  Every operation of the body except the three products and the join acts entry by entry, so it commutes with reading
  at (p, j); a product at (p, j) needs the whole row p of its left operand, so the proof goes stage by stage, each stage
  giving row p of the next product's left operand as a function of row p of the previous one.  The join at (p, k) reads
  the piece whose column span holds k (columns 0–127, 128–255, 256–383) at column k minus the span's start.  A change of
  float format is the identity on extended reals, so the casts before each product do not appear on the right.
-/
import proofs.«175949_j1623497638158_1_alg».proof.Proof.Gen.KernelIdeal.Skeleton
import proofs.«175949_j1623497638158_1_alg».proof.Proof.Contract

noncomputable section

namespace Cert.Sage.K1

open Cert.KernelIdeal Cert.KernelIdeal.Gen Cert.Sage Idealize.ShloMosaic Idealize.ShloMosaic.ValueIdx

/-! ## The four contraction records: where output entry (p, j) and contraction index q read the two operands -/

theorem d128_l0 (i : S2000x128.Idx) (q : (dot_S2000x128_S128x128_S2000x128_1_0_0_1_n_n).contr.Idx) :
    ((dot_S2000x128_S128x128_S2000x128_1_0_0_1_n_n).lhsIdx i q (0 : Fin 2)).val = (i (0 : Fin 2)).val := by
  unfold DotDims.lhsIdx
  rw [dif_neg (show ¬(0 : Fin S2000x128.rank) ∈ (dot_S2000x128_S128x128_S2000x128_1_0_0_1_n_n).lhsBatch by decide), dif_pos (show (0 : Fin S2000x128.rank) ∈ (dot_S2000x128_S128x128_S2000x128_1_0_0_1_n_n).lhsNonContracting by decide)]
  rfl
theorem d128_l1 (i : S2000x128.Idx) (q : (dot_S2000x128_S128x128_S2000x128_1_0_0_1_n_n).contr.Idx) :
    ((dot_S2000x128_S128x128_S2000x128_1_0_0_1_n_n).lhsIdx i q (1 : Fin 2)).val = (q ⟨0, by decide⟩).val :=
  (dot_S2000x128_S128x128_S2000x128_1_0_0_1_n_n).lhsIdx_val_of_single rfl i q
theorem d128_r0 (i : S2000x128.Idx) (q : (dot_S2000x128_S128x128_S2000x128_1_0_0_1_n_n).contr.Idx) :
    ((dot_S2000x128_S128x128_S2000x128_1_0_0_1_n_n).rhsIdx i q (0 : Fin 2)).val = (q ⟨0, by decide⟩).val :=
  (dot_S2000x128_S128x128_S2000x128_1_0_0_1_n_n).rhsIdx_val_of_single rfl i q
theorem d128_r1 (i : S2000x128.Idx) (q : (dot_S2000x128_S128x128_S2000x128_1_0_0_1_n_n).contr.Idx) :
    ((dot_S2000x128_S128x128_S2000x128_1_0_0_1_n_n).rhsIdx i q (1 : Fin 2)).val = (i (1 : Fin 2)).val := by
  unfold DotDims.rhsIdx
  rw [dif_neg (show ¬(1 : Fin S128x128.rank) ∈ (dot_S2000x128_S128x128_S2000x128_1_0_0_1_n_n).rhsBatch by decide), dif_pos (show (1 : Fin S128x128.rank) ∈ (dot_S2000x128_S128x128_S2000x128_1_0_0_1_n_n).rhsNonContracting by decide)]
  rfl

/-- A block's product with a 128 × 128 matrix into a zero accumulator, at entry (p, j). -/
theorem mm128 {φ₁ φ₂ : FTy} (l : FVec Ideal S2000x128 φ₁) (r : FVec Ideal S128x128 φ₂) (p : Fin 2000) (j : Fin 128) :
    matmul (F := Ideal) dot_S2000x128_S128x128_S2000x128_1_0_0_1_n_n none l r (constant S2000x128 .f32 0x00000000#32) (ix2 p j)
      = rowMul (rowOf l p) (matOf r) j := by
  refine (Ideal.matmul_constant_zero_apply _ none l r (ix2 p j)).trans ?_
  exact contr_sum dot_S2000x128_S128x128_S2000x128_1_0_0_1_n_n rfl rfl d128_l0 d128_l1 d128_r0 d128_r1 l r p j

theorem d384x80_l0 (i : S2000x80.Idx) (q : (dot_S2000x384_S384x80_S2000x80_1_0_0_1_n_n).contr.Idx) :
    ((dot_S2000x384_S384x80_S2000x80_1_0_0_1_n_n).lhsIdx i q (0 : Fin 2)).val = (i (0 : Fin 2)).val := by
  unfold DotDims.lhsIdx
  rw [dif_neg (show ¬(0 : Fin S2000x384.rank) ∈ (dot_S2000x384_S384x80_S2000x80_1_0_0_1_n_n).lhsBatch by decide), dif_pos (show (0 : Fin S2000x384.rank) ∈ (dot_S2000x384_S384x80_S2000x80_1_0_0_1_n_n).lhsNonContracting by decide)]
  rfl
theorem d384x80_l1 (i : S2000x80.Idx) (q : (dot_S2000x384_S384x80_S2000x80_1_0_0_1_n_n).contr.Idx) :
    ((dot_S2000x384_S384x80_S2000x80_1_0_0_1_n_n).lhsIdx i q (1 : Fin 2)).val = (q ⟨0, by decide⟩).val :=
  (dot_S2000x384_S384x80_S2000x80_1_0_0_1_n_n).lhsIdx_val_of_single rfl i q
theorem d384x80_r0 (i : S2000x80.Idx) (q : (dot_S2000x384_S384x80_S2000x80_1_0_0_1_n_n).contr.Idx) :
    ((dot_S2000x384_S384x80_S2000x80_1_0_0_1_n_n).rhsIdx i q (0 : Fin 2)).val = (q ⟨0, by decide⟩).val :=
  (dot_S2000x384_S384x80_S2000x80_1_0_0_1_n_n).rhsIdx_val_of_single rfl i q
theorem d384x80_r1 (i : S2000x80.Idx) (q : (dot_S2000x384_S384x80_S2000x80_1_0_0_1_n_n).contr.Idx) :
    ((dot_S2000x384_S384x80_S2000x80_1_0_0_1_n_n).rhsIdx i q (1 : Fin 2)).val = (i (1 : Fin 2)).val := by
  unfold DotDims.rhsIdx
  rw [dif_neg (show ¬(1 : Fin S384x80.rank) ∈ (dot_S2000x384_S384x80_S2000x80_1_0_0_1_n_n).rhsBatch by decide), dif_pos (show (1 : Fin S384x80.rank) ∈ (dot_S2000x384_S384x80_S2000x80_1_0_0_1_n_n).rhsNonContracting by decide)]
  rfl

/-- A block's product with a 384 × 80 matrix into a zero accumulator, at entry (p, j). -/
theorem mm384x80 {φ₁ φ₂ : FTy} (l : FVec Ideal S2000x384 φ₁) (r : FVec Ideal S384x80 φ₂) (p : Fin 2000) (j : Fin 80) :
    matmul (F := Ideal) dot_S2000x384_S384x80_S2000x80_1_0_0_1_n_n none l r (constant S2000x80 .f32 0x00000000#32) (ix2 p j)
      = rowMul (rowOf l p) (matOf r) j := by
  refine (Ideal.matmul_constant_zero_apply _ none l r (ix2 p j)).trans ?_
  exact contr_sum dot_S2000x384_S384x80_S2000x80_1_0_0_1_n_n rfl rfl d384x80_l0 d384x80_l1 d384x80_r0 d384x80_r1 l r p j

theorem d80x80_l0 (i : S2000x80.Idx) (q : (dot_S2000x80_S80x80_S2000x80_1_0_0_1_n_n).contr.Idx) :
    ((dot_S2000x80_S80x80_S2000x80_1_0_0_1_n_n).lhsIdx i q (0 : Fin 2)).val = (i (0 : Fin 2)).val := by
  unfold DotDims.lhsIdx
  rw [dif_neg (show ¬(0 : Fin S2000x80.rank) ∈ (dot_S2000x80_S80x80_S2000x80_1_0_0_1_n_n).lhsBatch by decide), dif_pos (show (0 : Fin S2000x80.rank) ∈ (dot_S2000x80_S80x80_S2000x80_1_0_0_1_n_n).lhsNonContracting by decide)]
  rfl
theorem d80x80_l1 (i : S2000x80.Idx) (q : (dot_S2000x80_S80x80_S2000x80_1_0_0_1_n_n).contr.Idx) :
    ((dot_S2000x80_S80x80_S2000x80_1_0_0_1_n_n).lhsIdx i q (1 : Fin 2)).val = (q ⟨0, by decide⟩).val :=
  (dot_S2000x80_S80x80_S2000x80_1_0_0_1_n_n).lhsIdx_val_of_single rfl i q
theorem d80x80_r0 (i : S2000x80.Idx) (q : (dot_S2000x80_S80x80_S2000x80_1_0_0_1_n_n).contr.Idx) :
    ((dot_S2000x80_S80x80_S2000x80_1_0_0_1_n_n).rhsIdx i q (0 : Fin 2)).val = (q ⟨0, by decide⟩).val :=
  (dot_S2000x80_S80x80_S2000x80_1_0_0_1_n_n).rhsIdx_val_of_single rfl i q
theorem d80x80_r1 (i : S2000x80.Idx) (q : (dot_S2000x80_S80x80_S2000x80_1_0_0_1_n_n).contr.Idx) :
    ((dot_S2000x80_S80x80_S2000x80_1_0_0_1_n_n).rhsIdx i q (1 : Fin 2)).val = (i (1 : Fin 2)).val := by
  unfold DotDims.rhsIdx
  rw [dif_neg (show ¬(1 : Fin S80x80.rank) ∈ (dot_S2000x80_S80x80_S2000x80_1_0_0_1_n_n).rhsBatch by decide), dif_pos (show (1 : Fin S80x80.rank) ∈ (dot_S2000x80_S80x80_S2000x80_1_0_0_1_n_n).rhsNonContracting by decide)]
  rfl

/-- A block's product with a 80 × 80 matrix into a zero accumulator, at entry (p, j). -/
theorem mm80x80 {φ₁ φ₂ : FTy} (l : FVec Ideal S2000x80 φ₁) (r : FVec Ideal S80x80 φ₂) (p : Fin 2000) (j : Fin 80) :
    matmul (F := Ideal) dot_S2000x80_S80x80_S2000x80_1_0_0_1_n_n none l r (constant S2000x80 .f32 0x00000000#32) (ix2 p j)
      = rowMul (rowOf l p) (matOf r) j := by
  refine (Ideal.matmul_constant_zero_apply _ none l r (ix2 p j)).trans ?_
  exact contr_sum dot_S2000x80_S80x80_S2000x80_1_0_0_1_n_n rfl rfl d80x80_l0 d80x80_l1 d80x80_r0 d80x80_r1 l r p j

theorem d80x40_l0 (i : S2000x40.Idx) (q : (dot_S2000x80_S80x40_S2000x40_1_0_0_1_n_n).contr.Idx) :
    ((dot_S2000x80_S80x40_S2000x40_1_0_0_1_n_n).lhsIdx i q (0 : Fin 2)).val = (i (0 : Fin 2)).val := by
  unfold DotDims.lhsIdx
  rw [dif_neg (show ¬(0 : Fin S2000x80.rank) ∈ (dot_S2000x80_S80x40_S2000x40_1_0_0_1_n_n).lhsBatch by decide), dif_pos (show (0 : Fin S2000x80.rank) ∈ (dot_S2000x80_S80x40_S2000x40_1_0_0_1_n_n).lhsNonContracting by decide)]
  rfl
theorem d80x40_l1 (i : S2000x40.Idx) (q : (dot_S2000x80_S80x40_S2000x40_1_0_0_1_n_n).contr.Idx) :
    ((dot_S2000x80_S80x40_S2000x40_1_0_0_1_n_n).lhsIdx i q (1 : Fin 2)).val = (q ⟨0, by decide⟩).val :=
  (dot_S2000x80_S80x40_S2000x40_1_0_0_1_n_n).lhsIdx_val_of_single rfl i q
theorem d80x40_r0 (i : S2000x40.Idx) (q : (dot_S2000x80_S80x40_S2000x40_1_0_0_1_n_n).contr.Idx) :
    ((dot_S2000x80_S80x40_S2000x40_1_0_0_1_n_n).rhsIdx i q (0 : Fin 2)).val = (q ⟨0, by decide⟩).val :=
  (dot_S2000x80_S80x40_S2000x40_1_0_0_1_n_n).rhsIdx_val_of_single rfl i q
theorem d80x40_r1 (i : S2000x40.Idx) (q : (dot_S2000x80_S80x40_S2000x40_1_0_0_1_n_n).contr.Idx) :
    ((dot_S2000x80_S80x40_S2000x40_1_0_0_1_n_n).rhsIdx i q (1 : Fin 2)).val = (i (1 : Fin 2)).val := by
  unfold DotDims.rhsIdx
  rw [dif_neg (show ¬(1 : Fin S80x40.rank) ∈ (dot_S2000x80_S80x40_S2000x40_1_0_0_1_n_n).rhsBatch by decide), dif_pos (show (1 : Fin S80x40.rank) ∈ (dot_S2000x80_S80x40_S2000x40_1_0_0_1_n_n).rhsNonContracting by decide)]
  rfl

/-- A block's product with a 80 × 40 matrix into a zero accumulator, at entry (p, j). -/
theorem mm80x40 {φ₁ φ₂ : FTy} (l : FVec Ideal S2000x80 φ₁) (r : FVec Ideal S80x40 φ₂) (p : Fin 2000) (j : Fin 40) :
    matmul (F := Ideal) dot_S2000x80_S80x40_S2000x40_1_0_0_1_n_n none l r (constant S2000x40 .f32 0x00000000#32) (ix2 p j)
      = rowMul (rowOf l p) (matOf r) j := by
  refine (Ideal.matmul_constant_zero_apply _ none l r (ix2 p j)).trans ?_
  exact contr_sum dot_S2000x80_S80x40_S2000x40_1_0_0_1_n_n rfl rfl d80x40_l0 d80x40_l1 d80x40_r0 d80x40_r1 l r p j

/-! ## The [1, n] rows repeated down a block -/

/-- A [1, 128] row repeated down a block's 2000 rows, at entry (p, j). -/
theorem bc128 {α : Type} (v : S1x128.Idx → α) (p : Fin 2000) (j : Fin 128) :
    broadcastTo S2000x128 v broadcasts_S1x128_S2000x128 (ix2 p j) = v (ix2 (0 : Fin 1) j) :=
  rowBroadcast_at v broadcasts_S1x128_S2000x128 (by decide) p j

/-- A [1, 80] row repeated down a block's 2000 rows, at entry (p, j). -/
theorem bc80 {α : Type} (v : S1x80.Idx → α) (p : Fin 2000) (j : Fin 80) :
    broadcastTo S2000x80 v broadcasts_S1x80_S2000x80 (ix2 p j) = v (ix2 (0 : Fin 1) j) :=
  rowBroadcast_at v broadcasts_S1x80_S2000x80 (by decide) p j

/-- A [1, 40] row repeated down a block's 2000 rows, at entry (p, j). -/
theorem bc40 {α : Type} (v : S1x40.Idx → α) (p : Fin 2000) (j : Fin 40) :
    broadcastTo S2000x40 v broadcasts_S1x40_S2000x40 (ix2 p j) = v (ix2 (0 : Fin 1) j) :=
  rowBroadcast_at v broadcasts_S1x40_S2000x40 (by decide) p j

/-! ## The join of three blocks along the column axis -/

/-- Three blocks joined along the column axis, at entry (p, k): the joined row of the three rows p. -/
theorem join_at (a b c : S2000x128.Idx → EReal) (p : Fin 2000) (k : Fin 384) :
    concatenate S2000x384 1 [⟨S2000x128, a⟩, ⟨S2000x128, b⟩, ⟨S2000x128, c⟩]
        concatenates_S2000x128_S2000x128_S2000x128_S2000x384_d1 (ix2 p k)
      = joinRow (rowOf a p) (rowOf b p) (rowOf c p) k := by
  unfold joinRow rowOf
  split
  · rename_i h
    refine concatenate_apply_piece (1 : Fin S2000x384.rank) _ _ (ix2 p k) 0 (by simp) S2000x128 a rfl rfl 0 rfl
      (ix2 p ⟨k.val, h⟩) (fun e he => ?_) (Nat.zero_add _)
    match e with
    | ⟨0, _⟩ => rfl
    | ⟨1, _⟩ => exact absurd rfl he
  · split
    · rename_i h h2
      refine concatenate_apply_piece (1 : Fin S2000x384.rank) _ _ (ix2 p k) 1 (by simp) S2000x128 b rfl rfl 128 rfl
        (ix2 p ⟨k.val - 128, by omega⟩) (fun e he => ?_) ?_
      · match e with
        | ⟨0, _⟩ => rfl
        | ⟨1, _⟩ => exact absurd rfl he
      · show 128 + (k.val - 128) = k.val
        omega
    · rename_i h h2
      refine concatenate_apply_piece (1 : Fin S2000x384.rank) _ _ (ix2 p k) 2 (by simp) S2000x128 c rfl rfl 256 rfl
        (ix2 p ⟨k.val - 256, by omega⟩) (fun e he => ?_) ?_
      · match e with
        | ⟨0, _⟩ => rfl
        | ⟨1, _⟩ => exact absurd rfl he
      · show 256 + (k.val - 256) = k.val
        omega

/-- Row p of the joined block. -/
theorem join_row (a b c : S2000x128.Idx → EReal) (p : Fin 2000) :
    rowOf (concatenate S2000x384 1 [⟨S2000x128, a⟩, ⟨S2000x128, b⟩, ⟨S2000x128, c⟩]
        concatenates_S2000x128_S2000x128_S2000x128_S2000x384_d1) p
      = joinRow (rowOf a p) (rowOf b p) (rowOf c p) :=
  funext fun k => join_at a b c p k

/-! ## The stages -/

/-- A row read at a column is the array read at (row, column). -/
theorem rowOf_apply {n0 n1 : Nat} (X : (⟨2, ![n0, n1]⟩ : Shape).Idx → EReal) (r : Fin n0) (k : Fin n1) :
    rowOf X r k = X (ix2 r k) := rfl

/-- Row p of the joined block after the change of float format, which is the identity on extended reals. -/
theorem join_row' (a b c : FVec Ideal S2000x128 .f32) (h : FTy.bf16.bits < FTy.f32.bits) (p : Fin 2000) :
    rowOf (truncf .bf16 (concatenate S2000x384 1 [⟨S2000x128, a⟩, ⟨S2000x128, b⟩, ⟨S2000x128, c⟩]
        concatenates_S2000x128_S2000x128_S2000x128_S2000x384_d1) h : FVec Ideal S2000x384 .bf16) p
      = joinRow (rowOf a p) (rowOf b p) (rowOf c p) :=
  join_row a b c p

/-- The second graph layer's hidden block at entry (p, j): the hidden row of the node in row p. -/
theorem h1_at (x2 x3 : Vec Ideal S2000x128 .f32) (x4 x5 : Vec Ideal S128x128 .f32) (x6 x7 x8 x9 : Vec Ideal S1x128 .f32)
    (p : Fin 2000) (j : Fin 128) :
    max (k1_pay3 (F := Ideal) x2 x3 x4 x5 x8 x9 x6 (ix2 p j) + k1_pay4 (F := Ideal) x7 (ix2 p j)) (Ideal.ofBits .f32 0x00000000#32)
      = hiddenRow (rowOf x2 p) (rowOf x3 p) (matOf x4) (matOf x5) (vec2Of x6) (vec2Of x7) (vec2Of x8) (vec2Of x9) j := by
  unfold k1_pay3 k1_pay4 hiddenRow normRelu
  simp only [shapeCast_self]
  simp only [mulf_apply, subf_apply, addf_apply, broadcast_apply, mm128, bc128]
  rfl

/-- The head's first two layers at entry (p, j), over whatever the three joined blocks are: the second layer's product
    applied to the first layer's normalised, clamped row of the joined row. -/
theorem pay5_at (v0 v2 v32 v35 : FVec Ideal S2000x128 .f32) (x10 : Vec Ideal S384x80 .f32) (x11 x14 x15 x12 x13 : Vec Ideal S1x80 .f32)
    (x16 : Vec Ideal S80x80 .f32) (p : Fin 2000) (j : Fin 80) :
    k1_pay5 (F := Ideal) v0 v2 v32 v35 x10 x11 x14 x15 x12 x13 x16 (ix2 p j)
      = rowMul (denseRow (joinRow (rowOf v0 p) (rowOf v2 p)
            (fun k => max (v32 (ix2 p k) + v35 (ix2 p k)) (Ideal.ofBits .f32 0x00000000#32)))
          (matOf x10) (vec2Of x11) (vec2Of x12) (vec2Of x13) (vec2Of x14) (vec2Of x15)) (matOf x16) j := by
  unfold k1_pay5
  simp only [shapeCast_self]
  simp only [mm80x80]
  refine congrArg (fun u => rowMul u (matOf x16) j) (funext fun k => ?_)
  unfold denseRow normRelu
  simp only [rowOf_apply, truncf_apply, maximumf_apply, addf_apply, mulf_apply, subf_apply, broadcast_apply, bc80, mm384x80,
    join_row']
  rfl

/-- The head's last two layers at entry (p, j), over whatever block the second layer's product is. -/
theorem pay1_at (v74 : FVec Ideal S2000x80 .f32) (x17 x20 x21 x18 x19 : Vec Ideal S1x80 .f32) (x22 : Vec Ideal S80x40 .f32)
    (x23 : Vec Ideal S1x40 .f32) (p : Fin 2000) (j : Fin 40) :
    k1_pay1 (F := Ideal) v74 x17 x20 x21 x18 x19 x22 x23 (ix2 p j)
      = rowMul (fun k => normRelu (v74 (ix2 p k) + vec2Of x17 k) (vec2Of x20 k) (vec2Of x21 k) (vec2Of x18 k) (vec2Of x19 k))
          (matOf x22) j + vec2Of x23 j := by
  unfold k1_pay1
  simp only [shapeCast_self]
  simp only [addf_apply, mm80x40, bc40]
  refine congrArg₂ (· + ·) (congrArg (fun u => rowMul u (matOf x22) j) (funext fun k => ?_)) rfl
  unfold normRelu
  simp only [rowOf_apply, truncf_apply, maximumf_apply, addf_apply, mulf_apply, subf_apply, broadcast_apply, bc80]
  rfl

/-! ## The store's payload -/

/-- What the second region's body stores at entry (p, j) of its output block: the head's output row of the node in row p. -/
theorem out_at (x0 x1 x2 x3 : Vec Ideal S2000x128 .f32) (x4 x5 : Vec Ideal S128x128 .f32) (x6 x7 x8 x9 : Vec Ideal S1x128 .f32)
    (x10 : Vec Ideal S384x80 .f32) (x11 x12 x13 x14 x15 : Vec Ideal S1x80 .f32) (x16 : Vec Ideal S80x80 .f32)
    (x17 x18 x19 x20 x21 : Vec Ideal S1x80 .f32) (x22 : Vec Ideal S80x40 .f32) (x23 : Vec Ideal S1x40 .f32) (p : Fin 2000) (j : Fin 40) :
    k1_pay1 (F := Ideal) (k1_pay5 x0 (k1_pay2 x1) (k1_pay3 x2 x3 x4 x5 x8 x9 x6) (k1_pay4 x7) x10 x11 x14 x15 x12 x13 x16) x17 x20 x21 x18 x19 x22 x23 (ix2 p j)
      = outRow (rowOf x0 p) (rowOf x1 p) (rowOf x2 p) (rowOf x3 p) (matOf x4) (matOf x5) (vec2Of x6) (vec2Of x7) (vec2Of x8) (vec2Of x9)
          (matOf x10) (vec2Of x11) (vec2Of x12) (vec2Of x13) (vec2Of x14) (vec2Of x15)
          (matOf x16) (vec2Of x17) (vec2Of x18) (vec2Of x19) (vec2Of x20) (vec2Of x21) (matOf x22) (vec2Of x23) j := by
  rw [pay1_at]
  unfold outRow
  refine congrArg₂ (· + ·) (congrArg (fun u => rowMul u (matOf x22) j) (funext fun k => ?_)) rfl
  rw [pay5_at]
  have e1 : rowOf (k1_pay2 (F := Ideal) x1) p = rowOf x1 p := by
    unfold k1_pay2
    simp only [shapeCast_self]
  have e2 : (fun k => max (k1_pay3 (F := Ideal) x2 x3 x4 x5 x8 x9 x6 (ix2 p k) + k1_pay4 (F := Ideal) x7 (ix2 p k))
        (Ideal.ofBits .f32 0x00000000#32))
      = hiddenRow (rowOf x2 p) (rowOf x3 p) (matOf x4) (matOf x5) (vec2Of x6) (vec2Of x7) (vec2Of x8) (vec2Of x9) :=
    funext fun k => h1_at x2 x3 x4 x5 x6 x7 x8 x9 p k
  rw [e1, e2]
  rfl

end Cert.Sage.K1

end
-- ==== Proof.Layer1Array.lean ====
/-
  The second region's output array after the run, as a whole-array function of the arrays the region finds on entry.

  As in the first region the grid has 50 points, point t handling rows 2000·t … 2000·t + 1999 of the four row-indexed operands
  (node features, first hidden rows, the rows passed on, their neighbourhood means) and of the output, every small operand
  seen whole; what point t writes back is the block of those rows of the row-by-row output function of the whole arrays, and
  the 50 blocks tile the 100000 rows.
-/
import proofs.«175949_j1623497638158_1_alg».proof.Proof.FrameKI
import proofs.«175949_j1623497638158_1_alg».proof.Proof.Layer1Rows
import Idealize.ShloMosaic.Lib.Pipeline.Value

set_option maxRecDepth 16384

noncomputable section

namespace Cert.Sage.K1

open Cert.KernelIdeal Cert.KernelIdeal.Gen Cert.KernelIdeal.GenP Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The printed index maps over the grid -/

theorem ix1_0 : ∀ t : Fin cfg1.N, win1_0.index t (0 : Fin 2) = t.val ∧ win1_0.index t (1 : Fin 2) = 0 :=
  (by decide +kernel : ∀ t : Fin grid1.N, _)
theorem ix1_1 : ∀ t : Fin cfg1.N, win1_1.index t (0 : Fin 2) = t.val ∧ win1_1.index t (1 : Fin 2) = 0 :=
  (by decide +kernel : ∀ t : Fin grid1.N, _)
theorem ix1_2 : ∀ t : Fin cfg1.N, win1_2.index t (0 : Fin 2) = t.val ∧ win1_2.index t (1 : Fin 2) = 0 :=
  (by decide +kernel : ∀ t : Fin grid1.N, _)
theorem ix1_3 : ∀ t : Fin cfg1.N, win1_3.index t (0 : Fin 2) = t.val ∧ win1_3.index t (1 : Fin 2) = 0 :=
  (by decide +kernel : ∀ t : Fin grid1.N, _)
theorem ix1_4 : ∀ t : Fin cfg1.N, win1_4.index t (0 : Fin 2) = 0 ∧ win1_4.index t (1 : Fin 2) = 0 :=
  (by decide +kernel : ∀ t : Fin grid1.N, _)
theorem ix1_5 : ∀ t : Fin cfg1.N, win1_5.index t (0 : Fin 2) = 0 ∧ win1_5.index t (1 : Fin 2) = 0 :=
  (by decide +kernel : ∀ t : Fin grid1.N, _)
theorem ix1_6 : ∀ t : Fin cfg1.N, win1_6.index t (0 : Fin 2) = 0 ∧ win1_6.index t (1 : Fin 2) = 0 :=
  (by decide +kernel : ∀ t : Fin grid1.N, _)
theorem ix1_7 : ∀ t : Fin cfg1.N, win1_7.index t (0 : Fin 2) = 0 ∧ win1_7.index t (1 : Fin 2) = 0 :=
  (by decide +kernel : ∀ t : Fin grid1.N, _)
theorem ix1_8 : ∀ t : Fin cfg1.N, win1_8.index t (0 : Fin 2) = 0 ∧ win1_8.index t (1 : Fin 2) = 0 :=
  (by decide +kernel : ∀ t : Fin grid1.N, _)
theorem ix1_9 : ∀ t : Fin cfg1.N, win1_9.index t (0 : Fin 2) = 0 ∧ win1_9.index t (1 : Fin 2) = 0 :=
  (by decide +kernel : ∀ t : Fin grid1.N, _)
theorem ix1_10 : ∀ t : Fin cfg1.N, win1_10.index t (0 : Fin 2) = 0 ∧ win1_10.index t (1 : Fin 2) = 0 :=
  (by decide +kernel : ∀ t : Fin grid1.N, _)
theorem ix1_11 : ∀ t : Fin cfg1.N, win1_11.index t (0 : Fin 2) = 0 ∧ win1_11.index t (1 : Fin 2) = 0 :=
  (by decide +kernel : ∀ t : Fin grid1.N, _)
theorem ix1_12 : ∀ t : Fin cfg1.N, win1_12.index t (0 : Fin 2) = 0 ∧ win1_12.index t (1 : Fin 2) = 0 :=
  (by decide +kernel : ∀ t : Fin grid1.N, _)
theorem ix1_13 : ∀ t : Fin cfg1.N, win1_13.index t (0 : Fin 2) = 0 ∧ win1_13.index t (1 : Fin 2) = 0 :=
  (by decide +kernel : ∀ t : Fin grid1.N, _)
theorem ix1_14 : ∀ t : Fin cfg1.N, win1_14.index t (0 : Fin 2) = 0 ∧ win1_14.index t (1 : Fin 2) = 0 :=
  (by decide +kernel : ∀ t : Fin grid1.N, _)
theorem ix1_15 : ∀ t : Fin cfg1.N, win1_15.index t (0 : Fin 2) = 0 ∧ win1_15.index t (1 : Fin 2) = 0 :=
  (by decide +kernel : ∀ t : Fin grid1.N, _)
theorem ix1_16 : ∀ t : Fin cfg1.N, win1_16.index t (0 : Fin 2) = 0 ∧ win1_16.index t (1 : Fin 2) = 0 :=
  (by decide +kernel : ∀ t : Fin grid1.N, _)
theorem ix1_17 : ∀ t : Fin cfg1.N, win1_17.index t (0 : Fin 2) = 0 ∧ win1_17.index t (1 : Fin 2) = 0 :=
  (by decide +kernel : ∀ t : Fin grid1.N, _)
theorem ix1_18 : ∀ t : Fin cfg1.N, win1_18.index t (0 : Fin 2) = 0 ∧ win1_18.index t (1 : Fin 2) = 0 :=
  (by decide +kernel : ∀ t : Fin grid1.N, _)
theorem ix1_19 : ∀ t : Fin cfg1.N, win1_19.index t (0 : Fin 2) = 0 ∧ win1_19.index t (1 : Fin 2) = 0 :=
  (by decide +kernel : ∀ t : Fin grid1.N, _)
theorem ix1_20 : ∀ t : Fin cfg1.N, win1_20.index t (0 : Fin 2) = 0 ∧ win1_20.index t (1 : Fin 2) = 0 :=
  (by decide +kernel : ∀ t : Fin grid1.N, _)
theorem ix1_21 : ∀ t : Fin cfg1.N, win1_21.index t (0 : Fin 2) = 0 ∧ win1_21.index t (1 : Fin 2) = 0 :=
  (by decide +kernel : ∀ t : Fin grid1.N, _)
theorem ix1_22 : ∀ t : Fin cfg1.N, win1_22.index t (0 : Fin 2) = 0 ∧ win1_22.index t (1 : Fin 2) = 0 :=
  (by decide +kernel : ∀ t : Fin grid1.N, _)
theorem ix1_23 : ∀ t : Fin cfg1.N, win1_23.index t (0 : Fin 2) = 0 ∧ win1_23.index t (1 : Fin 2) = 0 :=
  (by decide +kernel : ∀ t : Fin grid1.N, _)
theorem ix1_24 : ∀ t : Fin cfg1.N, win1_24.index t (0 : Fin 2) = t.val ∧ win1_24.index t (1 : Fin 2) = 0 :=
  (by decide +kernel : ∀ t : Fin grid1.N, _)

/-! ## A block's rows and entries are the array's -/

theorem blk1_0 (c : Dev nD) (t : Fin cfg1.N) (p : Fin 2000) (hr : t.val * 2000 + p.val < 100000) :
    rowOf (iblk1 V c 0 t : S2000x128.Idx → EReal) p = rowOf (V c main_arg0 : S100000x128.Idx → EReal) ⟨t.val * 2000 + p.val, hr⟩ := by
  obtain ⟨e0, e1⟩ := ix1_0 t
  funext k
  show V c main_arg0 (((cfg1.win 0).blk t).view.emb (ix2 p k)) = V c main_arg0 (ix2 (⟨t.val * 2000 + p.val, hr⟩ : Fin 100000) k)
  refine congrArg (V c main_arg0) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega
theorem blk1_1 (c : Dev nD) (t : Fin cfg1.N) (p : Fin 2000) (hr : t.val * 2000 + p.val < 100000) :
    rowOf (iblk1 V c 1 t : S2000x128.Idx → EReal) p = rowOf (V c main_v33_0 : S100000x128.Idx → EReal) ⟨t.val * 2000 + p.val, hr⟩ := by
  obtain ⟨e0, e1⟩ := ix1_1 t
  funext k
  show V c main_v33_0 (((cfg1.win 1).blk t).view.emb (ix2 p k)) = V c main_v33_0 (ix2 (⟨t.val * 2000 + p.val, hr⟩ : Fin 100000) k)
  refine congrArg (V c main_v33_0) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega
theorem blk1_2 (c : Dev nD) (t : Fin cfg1.N) (p : Fin 2000) (hr : t.val * 2000 + p.val < 100000) :
    rowOf (iblk1 V c 2 t : S2000x128.Idx → EReal) p = rowOf (V c main_v33_1 : S100000x128.Idx → EReal) ⟨t.val * 2000 + p.val, hr⟩ := by
  obtain ⟨e0, e1⟩ := ix1_2 t
  funext k
  show V c main_v33_1 (((cfg1.win 2).blk t).view.emb (ix2 p k)) = V c main_v33_1 (ix2 (⟨t.val * 2000 + p.val, hr⟩ : Fin 100000) k)
  refine congrArg (V c main_v33_1) (funext fun a => Fin.ext ?_)
  match a with
  | ⟨0, _⟩ => show win1_2.index t (0 : Fin 2) * 2000 + 1 * p.val = t.val * 2000 + p.val; omega
  | ⟨1, _⟩ => show win1_2.index t (1 : Fin 2) * 128 + 1 * k.val = k.val; omega
theorem blk1_3 (c : Dev nD) (t : Fin cfg1.N) (p : Fin 2000) (hr : t.val * 2000 + p.val < 100000) :
    rowOf (iblk1 V c 3 t : S2000x128.Idx → EReal) p = rowOf (V c main_v45 : S100000x128.Idx → EReal) ⟨t.val * 2000 + p.val, hr⟩ := by
  obtain ⟨e0, e1⟩ := ix1_3 t
  funext k
  show V c main_v45 (((cfg1.win 3).blk t).view.emb (ix2 p k)) = V c main_v45 (ix2 (⟨t.val * 2000 + p.val, hr⟩ : Fin 100000) k)
  refine congrArg (V c main_v45) (funext fun a => Fin.ext ?_)
  match a with
  | ⟨0, _⟩ => show win1_3.index t (0 : Fin 2) * 2000 + 1 * p.val = t.val * 2000 + p.val; omega
  | ⟨1, _⟩ => show win1_3.index t (1 : Fin 2) * 128 + 1 * k.val = k.val; omega
theorem blk1_4 (c : Dev nD) (t : Fin cfg1.N) :
    matOf (iblk1 V c 4 t : S128x128.Idx → EReal) = matOf (V c main_v46 : S128x128.Idx → EReal) := by
  obtain ⟨e0, e1⟩ := ix1_4 t
  funext k j
  show V c main_v46 (((cfg1.win 4).blk t).view.emb (ix2 k j)) = V c main_v46 (ix2 k j)
  refine congrArg (V c main_v46) (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega
theorem blk1_5 (c : Dev nD) (t : Fin cfg1.N) :
    matOf (iblk1 V c 5 t : S128x128.Idx → EReal) = matOf (V c main_v47 : S128x128.Idx → EReal) := by
  obtain ⟨e0, e1⟩ := ix1_5 t
  funext k j
  show V c main_v47 (((cfg1.win 5).blk t).view.emb (ix2 k j)) = V c main_v47 (ix2 k j)
  refine congrArg (V c main_v47) (funext fun a => Fin.ext ?_)
  match a with
  | ⟨0, _⟩ => show win1_5.index t (0 : Fin 2) * 128 + 1 * k.val = k.val; omega
  | ⟨1, _⟩ => show win1_5.index t (1 : Fin 2) * 128 + 1 * j.val = j.val; omega
theorem blk1_6 (c : Dev nD) (t : Fin cfg1.N) :
    vec2Of (iblk1 V c 6 t : S1x128.Idx → EReal) = vec2Of (V c main_v51 : S1x128.Idx → EReal) := by
  obtain ⟨e0, e1⟩ := ix1_6 t
  funext j
  show V c main_v51 (((cfg1.win 6).blk t).view.emb (ix2 (0 : Fin 1) j)) = V c main_v51 (ix2 (0 : Fin 1) j)
  refine congrArg (V c main_v51) (funext fun a => Fin.ext ?_)
  match a with
  | ⟨0, _⟩ => show win1_6.index t (0 : Fin 2) * 1 + 1 * 0 = 0; omega
  | ⟨1, _⟩ => show win1_6.index t (1 : Fin 2) * 128 + 1 * j.val = j.val; omega
theorem blk1_7 (c : Dev nD) (t : Fin cfg1.N) :
    vec2Of (iblk1 V c 7 t : S1x128.Idx → EReal) = vec2Of (V c main_v52 : S1x128.Idx → EReal) := by
  obtain ⟨e0, e1⟩ := ix1_7 t
  funext j
  show V c main_v52 (((cfg1.win 7).blk t).view.emb (ix2 (0 : Fin 1) j)) = V c main_v52 (ix2 (0 : Fin 1) j)
  refine congrArg (V c main_v52) (funext fun a => Fin.ext ?_)
  match a with
  | ⟨0, _⟩ => show win1_7.index t (0 : Fin 2) * 1 + 1 * 0 = 0; omega
  | ⟨1, _⟩ => show win1_7.index t (1 : Fin 2) * 128 + 1 * j.val = j.val; omega
theorem blk1_8 (c : Dev nD) (t : Fin cfg1.N) :
    vec2Of (iblk1 V c 8 t : S1x128.Idx → EReal) = vec2Of (V c main_v53 : S1x128.Idx → EReal) := by
  obtain ⟨e0, e1⟩ := ix1_8 t
  funext j
  show V c main_v53 (((cfg1.win 8).blk t).view.emb (ix2 (0 : Fin 1) j)) = V c main_v53 (ix2 (0 : Fin 1) j)
  refine congrArg (V c main_v53) (funext fun a => Fin.ext ?_)
  match a with
  | ⟨0, _⟩ => show win1_8.index t (0 : Fin 2) * 1 + 1 * 0 = 0; omega
  | ⟨1, _⟩ => show win1_8.index t (1 : Fin 2) * 128 + 1 * j.val = j.val; omega
theorem blk1_9 (c : Dev nD) (t : Fin cfg1.N) :
    vec2Of (iblk1 V c 9 t : S1x128.Idx → EReal) = vec2Of (V c main_v54 : S1x128.Idx → EReal) := by
  obtain ⟨e0, e1⟩ := ix1_9 t
  funext j
  show V c main_v54 (((cfg1.win 9).blk t).view.emb (ix2 (0 : Fin 1) j)) = V c main_v54 (ix2 (0 : Fin 1) j)
  refine congrArg (V c main_v54) (funext fun a => Fin.ext ?_)
  match a with
  | ⟨0, _⟩ => show win1_9.index t (0 : Fin 2) * 1 + 1 * 0 = 0; omega
  | ⟨1, _⟩ => show win1_9.index t (1 : Fin 2) * 128 + 1 * j.val = j.val; omega
theorem blk1_10 (c : Dev nD) (t : Fin cfg1.N) :
    matOf (iblk1 V c 10 t : S384x80.Idx → EReal) = matOf (V c main_v48 : S384x80.Idx → EReal) := by
  obtain ⟨e0, e1⟩ := ix1_10 t
  funext k j
  show V c main_v48 (((cfg1.win 10).blk t).view.emb (ix2 k j)) = V c main_v48 (ix2 k j)
  refine congrArg (V c main_v48) (funext fun a => Fin.ext ?_)
  match a with
  | ⟨0, _⟩ => show win1_10.index t (0 : Fin 2) * 384 + 1 * k.val = k.val; omega
  | ⟨1, _⟩ => show win1_10.index t (1 : Fin 2) * 80 + 1 * j.val = j.val; omega
theorem blk1_11 (c : Dev nD) (t : Fin cfg1.N) :
    vec2Of (iblk1 V c 11 t : S1x80.Idx → EReal) = vec2Of (V c main_v55 : S1x80.Idx → EReal) := by
  obtain ⟨e0, e1⟩ := ix1_11 t
  funext j
  show V c main_v55 (((cfg1.win 11).blk t).view.emb (ix2 (0 : Fin 1) j)) = V c main_v55 (ix2 (0 : Fin 1) j)
  refine congrArg (V c main_v55) (funext fun a => Fin.ext ?_)
  match a with
  | ⟨0, _⟩ => show win1_11.index t (0 : Fin 2) * 1 + 1 * 0 = 0; omega
  | ⟨1, _⟩ => show win1_11.index t (1 : Fin 2) * 80 + 1 * j.val = j.val; omega
theorem blk1_12 (c : Dev nD) (t : Fin cfg1.N) :
    vec2Of (iblk1 V c 12 t : S1x80.Idx → EReal) = vec2Of (V c main_v56 : S1x80.Idx → EReal) := by
  obtain ⟨e0, e1⟩ := ix1_12 t
  funext j
  show V c main_v56 (((cfg1.win 12).blk t).view.emb (ix2 (0 : Fin 1) j)) = V c main_v56 (ix2 (0 : Fin 1) j)
  refine congrArg (V c main_v56) (funext fun a => Fin.ext ?_)
  match a with
  | ⟨0, _⟩ => show win1_12.index t (0 : Fin 2) * 1 + 1 * 0 = 0; omega
  | ⟨1, _⟩ => show win1_12.index t (1 : Fin 2) * 80 + 1 * j.val = j.val; omega
theorem blk1_13 (c : Dev nD) (t : Fin cfg1.N) :
    vec2Of (iblk1 V c 13 t : S1x80.Idx → EReal) = vec2Of (V c main_v57 : S1x80.Idx → EReal) := by
  obtain ⟨e0, e1⟩ := ix1_13 t
  funext j
  show V c main_v57 (((cfg1.win 13).blk t).view.emb (ix2 (0 : Fin 1) j)) = V c main_v57 (ix2 (0 : Fin 1) j)
  refine congrArg (V c main_v57) (funext fun a => Fin.ext ?_)
  match a with
  | ⟨0, _⟩ => show win1_13.index t (0 : Fin 2) * 1 + 1 * 0 = 0; omega
  | ⟨1, _⟩ => show win1_13.index t (1 : Fin 2) * 80 + 1 * j.val = j.val; omega
theorem blk1_14 (c : Dev nD) (t : Fin cfg1.N) :
    vec2Of (iblk1 V c 14 t : S1x80.Idx → EReal) = vec2Of (V c main_v58 : S1x80.Idx → EReal) := by
  obtain ⟨e0, e1⟩ := ix1_14 t
  funext j
  show V c main_v58 (((cfg1.win 14).blk t).view.emb (ix2 (0 : Fin 1) j)) = V c main_v58 (ix2 (0 : Fin 1) j)
  refine congrArg (V c main_v58) (funext fun a => Fin.ext ?_)
  match a with
  | ⟨0, _⟩ => show win1_14.index t (0 : Fin 2) * 1 + 1 * 0 = 0; omega
  | ⟨1, _⟩ => show win1_14.index t (1 : Fin 2) * 80 + 1 * j.val = j.val; omega
theorem blk1_15 (c : Dev nD) (t : Fin cfg1.N) :
    vec2Of (iblk1 V c 15 t : S1x80.Idx → EReal) = vec2Of (V c main_v59 : S1x80.Idx → EReal) := by
  obtain ⟨e0, e1⟩ := ix1_15 t
  funext j
  show V c main_v59 (((cfg1.win 15).blk t).view.emb (ix2 (0 : Fin 1) j)) = V c main_v59 (ix2 (0 : Fin 1) j)
  refine congrArg (V c main_v59) (funext fun a => Fin.ext ?_)
  match a with
  | ⟨0, _⟩ => show win1_15.index t (0 : Fin 2) * 1 + 1 * 0 = 0; omega
  | ⟨1, _⟩ => show win1_15.index t (1 : Fin 2) * 80 + 1 * j.val = j.val; omega
theorem blk1_16 (c : Dev nD) (t : Fin cfg1.N) :
    matOf (iblk1 V c 16 t : S80x80.Idx → EReal) = matOf (V c main_v49 : S80x80.Idx → EReal) := by
  obtain ⟨e0, e1⟩ := ix1_16 t
  funext k j
  show V c main_v49 (((cfg1.win 16).blk t).view.emb (ix2 k j)) = V c main_v49 (ix2 k j)
  refine congrArg (V c main_v49) (funext fun a => Fin.ext ?_)
  match a with
  | ⟨0, _⟩ => show win1_16.index t (0 : Fin 2) * 80 + 1 * k.val = k.val; omega
  | ⟨1, _⟩ => show win1_16.index t (1 : Fin 2) * 80 + 1 * j.val = j.val; omega
theorem blk1_17 (c : Dev nD) (t : Fin cfg1.N) :
    vec2Of (iblk1 V c 17 t : S1x80.Idx → EReal) = vec2Of (V c main_v60 : S1x80.Idx → EReal) := by
  obtain ⟨e0, e1⟩ := ix1_17 t
  funext j
  show V c main_v60 (((cfg1.win 17).blk t).view.emb (ix2 (0 : Fin 1) j)) = V c main_v60 (ix2 (0 : Fin 1) j)
  refine congrArg (V c main_v60) (funext fun a => Fin.ext ?_)
  match a with
  | ⟨0, _⟩ => show win1_17.index t (0 : Fin 2) * 1 + 1 * 0 = 0; omega
  | ⟨1, _⟩ => show win1_17.index t (1 : Fin 2) * 80 + 1 * j.val = j.val; omega
theorem blk1_18 (c : Dev nD) (t : Fin cfg1.N) :
    vec2Of (iblk1 V c 18 t : S1x80.Idx → EReal) = vec2Of (V c main_v61 : S1x80.Idx → EReal) := by
  obtain ⟨e0, e1⟩ := ix1_18 t
  funext j
  show V c main_v61 (((cfg1.win 18).blk t).view.emb (ix2 (0 : Fin 1) j)) = V c main_v61 (ix2 (0 : Fin 1) j)
  refine congrArg (V c main_v61) (funext fun a => Fin.ext ?_)
  match a with
  | ⟨0, _⟩ => show win1_18.index t (0 : Fin 2) * 1 + 1 * 0 = 0; omega
  | ⟨1, _⟩ => show win1_18.index t (1 : Fin 2) * 80 + 1 * j.val = j.val; omega
theorem blk1_19 (c : Dev nD) (t : Fin cfg1.N) :
    vec2Of (iblk1 V c 19 t : S1x80.Idx → EReal) = vec2Of (V c main_v62 : S1x80.Idx → EReal) := by
  obtain ⟨e0, e1⟩ := ix1_19 t
  funext j
  show V c main_v62 (((cfg1.win 19).blk t).view.emb (ix2 (0 : Fin 1) j)) = V c main_v62 (ix2 (0 : Fin 1) j)
  refine congrArg (V c main_v62) (funext fun a => Fin.ext ?_)
  match a with
  | ⟨0, _⟩ => show win1_19.index t (0 : Fin 2) * 1 + 1 * 0 = 0; omega
  | ⟨1, _⟩ => show win1_19.index t (1 : Fin 2) * 80 + 1 * j.val = j.val; omega
theorem blk1_20 (c : Dev nD) (t : Fin cfg1.N) :
    vec2Of (iblk1 V c 20 t : S1x80.Idx → EReal) = vec2Of (V c main_v63 : S1x80.Idx → EReal) := by
  obtain ⟨e0, e1⟩ := ix1_20 t
  funext j
  show V c main_v63 (((cfg1.win 20).blk t).view.emb (ix2 (0 : Fin 1) j)) = V c main_v63 (ix2 (0 : Fin 1) j)
  refine congrArg (V c main_v63) (funext fun a => Fin.ext ?_)
  match a with
  | ⟨0, _⟩ => show win1_20.index t (0 : Fin 2) * 1 + 1 * 0 = 0; omega
  | ⟨1, _⟩ => show win1_20.index t (1 : Fin 2) * 80 + 1 * j.val = j.val; omega
theorem blk1_21 (c : Dev nD) (t : Fin cfg1.N) :
    vec2Of (iblk1 V c 21 t : S1x80.Idx → EReal) = vec2Of (V c main_v64 : S1x80.Idx → EReal) := by
  obtain ⟨e0, e1⟩ := ix1_21 t
  funext j
  show V c main_v64 (((cfg1.win 21).blk t).view.emb (ix2 (0 : Fin 1) j)) = V c main_v64 (ix2 (0 : Fin 1) j)
  refine congrArg (V c main_v64) (funext fun a => Fin.ext ?_)
  match a with
  | ⟨0, _⟩ => show win1_21.index t (0 : Fin 2) * 1 + 1 * 0 = 0; omega
  | ⟨1, _⟩ => show win1_21.index t (1 : Fin 2) * 80 + 1 * j.val = j.val; omega
theorem blk1_22 (c : Dev nD) (t : Fin cfg1.N) :
    matOf (iblk1 V c 22 t : S80x40.Idx → EReal) = matOf (V c main_v50 : S80x40.Idx → EReal) := by
  obtain ⟨e0, e1⟩ := ix1_22 t
  funext k j
  show V c main_v50 (((cfg1.win 22).blk t).view.emb (ix2 k j)) = V c main_v50 (ix2 k j)
  refine congrArg (V c main_v50) (funext fun a => Fin.ext ?_)
  match a with
  | ⟨0, _⟩ => show win1_22.index t (0 : Fin 2) * 80 + 1 * k.val = k.val; omega
  | ⟨1, _⟩ => show win1_22.index t (1 : Fin 2) * 40 + 1 * j.val = j.val; omega
theorem blk1_23 (c : Dev nD) (t : Fin cfg1.N) :
    vec2Of (iblk1 V c 23 t : S1x40.Idx → EReal) = vec2Of (V c main_v65 : S1x40.Idx → EReal) := by
  obtain ⟨e0, e1⟩ := ix1_23 t
  funext j
  show V c main_v65 (((cfg1.win 23).blk t).view.emb (ix2 (0 : Fin 1) j)) = V c main_v65 (ix2 (0 : Fin 1) j)
  refine congrArg (V c main_v65) (funext fun a => Fin.ext ?_)
  match a with
  | ⟨0, _⟩ => show win1_23.index t (0 : Fin 2) * 1 + 1 * 0 = 0; omega
  | ⟨1, _⟩ => show win1_23.index t (1 : Fin 2) * 40 + 1 * j.val = j.val; omega

/-! ## The output blocks tile the array -/

/-- Entry (p, j) of output block t is entry (2000·t + p, j) of the array. -/
theorem emb1_24 (t : Fin cfg1.N) (p : Fin 2000) (j : Fin 40) (hr : t.val * 2000 + p.val < 100000) :
    ((cfg1.win 24).blk t).view.emb (ix2 p j) = ix2 (⟨t.val * 2000 + p.val, hr⟩ : Fin 100000) j := by
  obtain ⟨e0, e1⟩ := ix1_24 t
  funext a; apply Fin.ext
  match a with
  | ⟨0, _⟩ => show win1_24.index t (0 : Fin 2) * 2000 + 1 * p.val = t.val * 2000 + p.val; omega
  | ⟨1, _⟩ => show win1_24.index t (1 : Fin 2) * 40 + 1 * j.val = j.val; omega
/-- An index of the array is in point t's block iff each coordinate is in the block's range on its axis. -/
theorem mem_blk1_24 (t : Fin cfg1.N) (i : S100000x40.Idx) :
    i ∈ ((cfg1.win 24).blk t).view.set ↔ ∀ a : Fin 2, win1_24.index t a * S2000x40.size a ≤ (i a).val ∧ (i a).val < win1_24.index t a * S2000x40.size a + S2000x40.size a := by
  show i ∈ ((View.whole main_v66).slice (win1_24.rect t)).set ↔ _
  rw [View.set_slice_whole, Rect.mem_set_unit]
  exact Iff.rfl
/-- The 50 blocks tile the array's 100000 rows: row r is in the block of point r / 2000. -/
theorem cover1_24 (i : S100000x40.Idx) : ∃ t : Fin cfg1.N, (cfg1.win 24).flush t = true ∧ i ∈ ((cfg1.win 24).blk t).view.set := by
  have hi0 : (i 0).val < 100000 := (i 0).isLt
  have hi1 : (i 1).val < 40 := (i 1).isLt
  have hN : (i 0).val / 2000 < cfg1.N := by show _ < grid1.N; rw [N_1]; omega
  obtain ⟨e0, e1⟩ := ix1_24 ⟨(i 0).val / 2000, hN⟩
  refine ⟨⟨(i 0).val / 2000, hN⟩, flush1_24 _, ?_⟩
  rw [mem_blk1_24]
  intro a
  match a with
  | ⟨0, _⟩ =>
    show win1_24.index ⟨(i 0).val / 2000, hN⟩ (0 : Fin 2) * 2000 ≤ (i 0).val ∧ (i 0).val < win1_24.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_24.index ⟨(i 0).val / 2000, hN⟩ (1 : Fin 2) * 40 ≤ (i 1).val ∧ (i 1).val < win1_24.index ⟨(i 0).val / 2000, hN⟩ (1 : Fin 2) * 40 + 40
    omega

/-! ## What a point writes back -/

theorem tlt (t : Fin cfg1.N) : t.val < 50 := lt_of_lt_of_eq t.isLt N_1

/-- The payload at entry (p, j) of a block, over any blocks and arrays such that row p of each row-indexed block is row r
    of its array and each small block is its whole array: the output function of the arrays at entry (r, j). -/
theorem point_rows (b0 : Vec Ideal S2000x128 .f32) (b1 : Vec Ideal S2000x128 .f32) (b2 : Vec Ideal S2000x128 .f32) (b3 : Vec Ideal S2000x128 .f32) (b4 : Vec Ideal S128x128 .f32) (b5 : Vec Ideal S128x128 .f32) (b6 : Vec Ideal S1x128 .f32) (b7 : Vec Ideal S1x128 .f32) (b8 : Vec Ideal S1x128 .f32) (b9 : Vec Ideal S1x128 .f32) (b10 : Vec Ideal S384x80 .f32) (b11 : Vec Ideal S1x80 .f32) (b12 : Vec Ideal S1x80 .f32) (b13 : Vec Ideal S1x80 .f32) (b14 : Vec Ideal S1x80 .f32) (b15 : Vec Ideal S1x80 .f32) (b16 : Vec Ideal S80x80 .f32) (b17 : Vec Ideal S1x80 .f32) (b18 : Vec Ideal S1x80 .f32) (b19 : Vec Ideal S1x80 .f32) (b20 : Vec Ideal S1x80 .f32) (b21 : Vec Ideal S1x80 .f32) (b22 : Vec Ideal S80x40 .f32) (b23 : Vec Ideal S1x40 .f32)
    (A0 : S100000x128.Idx → EReal) (A1 : S100000x128.Idx → EReal) (A2 : S100000x128.Idx → EReal) (A3 : S100000x128.Idx → EReal) (A4 : S128x128.Idx → EReal) (A5 : S128x128.Idx → EReal) (A6 : S1x128.Idx → EReal) (A7 : S1x128.Idx → EReal) (A8 : S1x128.Idx → EReal) (A9 : S1x128.Idx → EReal) (A10 : S384x80.Idx → EReal) (A11 : S1x80.Idx → EReal) (A12 : S1x80.Idx → EReal) (A13 : S1x80.Idx → EReal) (A14 : S1x80.Idx → EReal) (A15 : S1x80.Idx → EReal) (A16 : S80x80.Idx → EReal) (A17 : S1x80.Idx → EReal) (A18 : S1x80.Idx → EReal) (A19 : S1x80.Idx → EReal) (A20 : S1x80.Idx → EReal) (A21 : S1x80.Idx → EReal) (A22 : S80x40.Idx → EReal) (A23 : S1x40.Idx → EReal)
    (p : Fin 2000) (r : Fin 100000) (j : Fin 40)
    (h0 : rowOf b0 p = rowOf A0 r) (h1 : rowOf b1 p = rowOf A1 r) (h2 : rowOf b2 p = rowOf A2 r) (h3 : rowOf b3 p = rowOf A3 r) (h4 : matOf b4 = matOf A4) (h5 : matOf b5 = matOf A5) (h6 : vec2Of b6 = vec2Of A6) (h7 : vec2Of b7 = vec2Of A7) (h8 : vec2Of b8 = vec2Of A8) (h9 : vec2Of b9 = vec2Of A9) (h10 : matOf b10 = matOf A10) (h11 : vec2Of b11 = vec2Of A11) (h12 : vec2Of b12 = vec2Of A12) (h13 : vec2Of b13 = vec2Of A13) (h14 : vec2Of b14 = vec2Of A14) (h15 : vec2Of b15 = vec2Of A15) (h16 : matOf b16 = matOf A16) (h17 : vec2Of b17 = vec2Of A17) (h18 : vec2Of b18 = vec2Of A18) (h19 : vec2Of b19 = vec2Of A19) (h20 : vec2Of b20 = vec2Of A20) (h21 : vec2Of b21 = vec2Of A21) (h22 : matOf b22 = matOf A22) (h23 : vec2Of b23 = vec2Of A23) :
    k1_pay1 (F := Ideal) (k1_pay5 b0 (k1_pay2 b1) (k1_pay3 b2 b3 b4 b5 b8 b9 b6) (k1_pay4 b7) b10 b11 b14 b15 b12 b13 b16) b17 b20 b21 b18 b19 b22 b23 (ix2 p j)
      = outArr A0 A1 A2 A3 A4 A5 A6 A7 A8 A9 A10 A11 A12 A13 A14 A15 A16 A17 A18 A19 A20 A21 A22 A23 (ix2 r j) := by
  rw [out_at, h0, h1, h2, h3, h4, h5, h6, h7, h8, h9, h10, h11, h12, h13, h14, h15, h16, h17, h18, h19, h20, h21, h22, h23]
  rfl

theorem point24 (c : Dev nD) (t : Fin cfg1.N) (y : S2000x40.Idx) :
    k1_pay1 (F := Ideal) (k1_pay5 (iblk1 V c 0 t) (k1_pay2 (iblk1 V c 1 t)) (k1_pay3 (iblk1 V c 2 t) (iblk1 V c 3 t) (iblk1 V c 4 t) (iblk1 V c 5 t) (iblk1 V c 8 t) (iblk1 V c 9 t) (iblk1 V c 6 t)) (k1_pay4 (iblk1 V c 7 t)) (iblk1 V c 10 t) (iblk1 V c 11 t) (iblk1 V c 14 t) (iblk1 V c 15 t) (iblk1 V c 12 t) (iblk1 V c 13 t) (iblk1 V c 16 t)) (iblk1 V c 17 t) (iblk1 V c 20 t) (iblk1 V c 21 t) (iblk1 V c 18 t) (iblk1 V c 19 t) (iblk1 V c 22 t) (iblk1 V c 23 t) y
      = outArr (V c main_arg0) (V c main_v33_0) (V c main_v33_1) (V c main_v45) (V c main_v46) (V c main_v47) (V c main_v51) (V c main_v52) (V c main_v53) (V c main_v54) (V c main_v48) (V c main_v55) (V c main_v56) (V c main_v57) (V c main_v58) (V c main_v59) (V c main_v49) (V c main_v60) (V c main_v61) (V c main_v62) (V c main_v63) (V c main_v64) (V c main_v50) (V c main_v65) (((cfg1.win 24).blk t).view.emb y) := by
  obtain ⟨p, j, rfl⟩ : ∃ (p : Fin 2000) (j : Fin 40), y = ix2 p j := ⟨y 0, y 1, eq_ix2 y⟩
  have hr : t.val * 2000 + p.val < 100000 := by have := tlt t; have := p.isLt; omega
  refine (point_rows (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t)
    (V c main_arg0) (V c main_v33_0) (V c main_v33_1) (V c main_v45) (V c main_v46) (V c main_v47) (V c main_v51) (V c main_v52) (V c main_v53) (V c main_v54) (V c main_v48) (V c main_v55) (V c main_v56) (V c main_v57) (V c main_v58) (V c main_v59) (V c main_v49) (V c main_v60) (V c main_v61) (V c main_v62) (V c main_v63) (V c main_v64) (V c main_v50) (V c main_v65)
    p ⟨t.val * 2000 + p.val, hr⟩ j
    (blk1_0 V c t p hr) (blk1_1 V c t p hr) (blk1_2 V c t p hr) (blk1_3 V c t p hr) (blk1_4 V c t) (blk1_5 V c t) (blk1_6 V c t) (blk1_7 V c t) (blk1_8 V c t) (blk1_9 V c t) (blk1_10 V c t) (blk1_11 V c t) (blk1_12 V c t) (blk1_13 V c t) (blk1_14 V c t) (blk1_15 V c t) (blk1_16 V c t) (blk1_17 V c t) (blk1_18 V c t) (blk1_19 V c t) (blk1_20 V c t) (blk1_21 V c t) (blk1_22 V c t) (blk1_23 V c t)).trans ?_
  exact congrArg (outArr (V c main_arg0) (V c main_v33_0) (V c main_v33_1) (V c main_v45) (V c main_v46) (V c main_v47) (V c main_v51) (V c main_v52) (V c main_v53) (V c main_v54) (V c main_v48) (V c main_v55) (V c main_v56) (V c main_v57) (V c main_v58) (V c main_v59) (V c main_v49) (V c main_v60) (V c main_v61) (V c main_v62) (V c main_v63) (V c main_v64) (V c main_v50) (V c main_v65)) (emb1_24 t p j hr).symm

/-- WHAT POINT t WRITES BACK is block t of the output array. -/
theorem flushed24_eq (c : Dev nD) (t : Fin cfg1.N) :
    (dat1 V c).flushed 24 t = ((cfg1.win 24).blk t).view.read (Elt Ideal) (outArr (V c main_arg0) (V c main_v33_0) (V c main_v33_1) (V c main_v45) (V c main_v46) (V c main_v47) (V c main_v51) (V c main_v52) (V c main_v53) (V c main_v54) (V c main_v48) (V c main_v55) (V c main_v56) (V c main_v57) (V c main_v58) (V c main_v59) (V c main_v49) (V c main_v60) (V c main_v61) (V c main_v62) (V c main_v63) (V c main_v64) (V c main_v50) (V c main_v65)) := by
  show (cfg1.win 24).cut (grid1.coords t) ((dat1 V c).after 24 t) = _
  rw [after1_24]
  unfold out1_24
  rw [View.canon_unit_zero hz]
  simp only [View.ld_unit_zero (S := S2000x128) hz, View.ld_unit_zero (S := S128x128) hz, View.ld_unit_zero (S := S1x128) hz, View.ld_unit_zero (S := S384x80) hz, View.ld_unit_zero (S := S1x80) hz, View.ld_unit_zero (S := S80x80) hz, View.ld_unit_zero (S := S80x40) hz, View.ld_unit_zero (S := S1x40) hz, View.ld_unit_zero (S := S2000x40) hz]
  funext y
  exact point24 V c t y

/-- The output array ends holding the output function of the arrays the region finds on entry. -/
theorem out_final (c : Dev nD) :
    (dat1 V c).arrAt 24 cfg1.N = outArr (V c main_arg0) (V c main_v33_0) (V c main_v33_1) (V c main_v45) (V c main_v46) (V c main_v47) (V c main_v51) (V c main_v52) (V c main_v53) (V c main_v54) (V c main_v48) (V c main_v55) (V c main_v56) (V c main_v57) (V c main_v58) (V c main_v59) (V c main_v49) (V c main_v60) (V c main_v61) (V c main_v62) (V c main_v63) (V c main_v64) (V c main_v50) (V c main_v65) :=
  (dat1 V c).arrAt_eq_of_cover 24 _ (fun t _ => flushed24_eq V c t) cover1_24

end Cert.Sage.K1

end
-- ==== Proof.Net.lean ====
/-
  The whole network on n nodes as ONE function of its operands, the neighbourhood mean being an arbitrary map `agg` on
  [n, 128] arrays: the first layer's hidden array from (X, agg X), the array passed on, the second layer fed with that array
  and ITS neighbourhood mean, and the head on the three collected arrays.  Both programs compute the mean by the same chain
  of index operations, a scatter-add and a division, which no step of the comparison needs to open: it enters only here, as `agg`.
-/
import proofs.«175949_j1623497638158_1_alg».proof.Proof.Spec

noncomputable section

namespace Cert.Sage

open Idealize.ShloMosaic

/-- The network's output array. -/
def netArr {n : Nat} (agg : ((⟨2, ![n, 128]⟩ : Shape).Idx → EReal) → ((⟨2, ![n, 128]⟩ : Shape).Idx → EReal))
    (X : (⟨2, ![n, 128]⟩ : Shape).Idx → EReal)
    (Wl0 Wr0 : (⟨2, ![128, 128]⟩ : Shape).Idx → EReal) (g0 b0 mu0 var0 : (⟨2, ![1, 128]⟩ : Shape).Idx → EReal)
    (Wres : (⟨2, ![128, 128]⟩ : Shape).Idx → EReal) (bres : (⟨2, ![1, 128]⟩ : Shape).Idx → EReal)
    (Wl1 Wr1 : (⟨2, ![128, 128]⟩ : Shape).Idx → EReal) (g1 b1 mu1 var1 : (⟨2, ![1, 128]⟩ : Shape).Idx → EReal)
    (W0 : (⟨2, ![384, 80]⟩ : Shape).Idx → EReal) (c0 g2 b2 mu2 var2 : (⟨2, ![1, 80]⟩ : Shape).Idx → EReal)
    (W1 : (⟨2, ![80, 80]⟩ : Shape).Idx → EReal) (c1 g3 b3 mu3 var3 : (⟨2, ![1, 80]⟩ : Shape).Idx → EReal)
    (W2 : (⟨2, ![80, 40]⟩ : Shape).Idx → EReal) (c2 : (⟨2, ![1, 40]⟩ : Shape).Idx → EReal) :
    (⟨2, ![n, 40]⟩ : Shape).Idx → EReal :=
  outArr X (hiddenArr X (agg X) Wl0 Wr0 g0 b0 mu0 var0)
    (residArr (hiddenArr X (agg X) Wl0 Wr0 g0 b0 mu0 var0) X Wres bres)
    (agg (residArr (hiddenArr X (agg X) Wl0 Wr0 g0 b0 mu0 var0) X Wres bres))
    Wl1 Wr1 g1 b1 mu1 var1 W0 c0 g2 b2 mu2 var2 W1 c1 g3 b3 mu3 var3 W2 c2

end Cert.Sage

end
-- ==== Proof.KernelGlue.lean ====
/-
  The kernel program's host stretches, read, and its result as the network function of the arguments.

  Before the first region the program computes the neighbourhood mean of the node features, transposes the first layer's
  three matrices and reshapes five vectors to rows; between the regions it computes the neighbourhood mean of the array the
  first region passed on, transposes the remaining matrices and reshapes the remaining vectors.  Each array a region sees is
  therefore one of these operations applied to launch contents, or an output of the first region.  The neighbourhood-mean
  chain and the transposes are the same operations the reference applies, so they are named by the reference's own stage
  functions and never opened.
-/
import proofs.«175949_j1623497638158_1_alg».proof.Proof.FrameKI
import proofs.«175949_j1623497638158_1_alg».proof.Proof.Gen.ReferenceIdeal.Read
import proofs.«175949_j1623497638158_1_alg».proof.Proof.Layer0Array
import proofs.«175949_j1623497638158_1_alg».proof.Proof.Layer1Array
import proofs.«175949_j1623497638158_1_alg».proof.Proof.Net
import Idealize.ShloMosaic.Lib.StableHlo.Run

set_option maxRecDepth 16384

noncomputable section

namespace Cert.Sage.KGlue

open Cert.KernelIdeal Cert.KernelIdeal.Gen Cert.KernelIdeal.GenP Cert.Sage
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## What the first region finds -/

theorem v1_main_arg0 : V1 m ρ c main_arg0 = (m ((c : Thread nD τ).loc main_arg0)) := by
  show StableHlo.after hostOps0 (W0 m ρ c) (Proc.devRef .tc main_arg0) = _
  after_results_simp
theorem v1_main_v24 : V1 m ρ c main_v24 = Cert.ReferenceIdeal.Read.val_main_v24 (F := Ideal) (m ((c : Thread nD τ).loc main_arg0)) (m ((c : Thread nD τ).loc main_arg1)) := by
  show StableHlo.after hostOps0 (W0 m ρ c) (Proc.devRef .tc main_v24) = _
  after_results_simp
  rfl
theorem v1_main_v25 : V1 m ρ c main_v25 = Cert.ReferenceIdeal.Read.val_main_v25 (F := Ideal) (m ((c : Thread nD τ).loc main_arg2)) := by
  show StableHlo.after hostOps0 (W0 m ρ c) (Proc.devRef .tc main_v25) = _
  after_results_simp
  rfl
theorem v1_main_v26 : V1 m ρ c main_v26 = Cert.ReferenceIdeal.Read.val_main_v27 (F := Ideal) (m ((c : Thread nD τ).loc main_arg3)) := by
  show StableHlo.after hostOps0 (W0 m ρ c) (Proc.devRef .tc main_v26) = _
  after_results_simp
  rfl
theorem v1_main_v27 : V1 m ρ c main_v27 = Cert.ReferenceIdeal.Read.val_main_v46 (F := Ideal) (m ((c : Thread nD τ).loc main_arg14)) := by
  show StableHlo.after hostOps0 (W0 m ρ c) (Proc.devRef .tc main_v27) = _
  after_results_simp
  rfl
theorem v1_main_v28 : V1 m ρ c main_v28 = shapeCast S1x128 (m ((c : Thread nD τ).loc main_arg6)) shapeCasts_S128_S1x128 := by
  show StableHlo.after hostOps0 (W0 m ρ c) (Proc.devRef .tc main_v28) = _
  after_results_simp
  rfl
theorem v1_main_v29 : V1 m ρ c main_v29 = shapeCast S1x128 (m ((c : Thread nD τ).loc main_arg7)) shapeCasts_S128_S1x128 := by
  show StableHlo.after hostOps0 (W0 m ρ c) (Proc.devRef .tc main_v29) = _
  after_results_simp
  rfl
theorem v1_main_v30 : V1 m ρ c main_v30 = shapeCast S1x128 (m ((c : Thread nD τ).loc main_arg8)) shapeCasts_S128_S1x128 := by
  show StableHlo.after hostOps0 (W0 m ρ c) (Proc.devRef .tc main_v30) = _
  after_results_simp
  rfl
theorem v1_main_v31 : V1 m ρ c main_v31 = shapeCast S1x128 (m ((c : Thread nD τ).loc main_arg9)) shapeCasts_S128_S1x128 := by
  show StableHlo.after hostOps0 (W0 m ρ c) (Proc.devRef .tc main_v31) = _
  after_results_simp
  rfl
theorem v1_main_v32 : V1 m ρ c main_v32 = shapeCast S1x128 (m ((c : Thread nD τ).loc main_arg15)) shapeCasts_S128_S1x128 := by
  show StableHlo.after hostOps0 (W0 m ρ c) (Proc.devRef .tc main_v32) = _
  after_results_simp
  rfl

/-! ## The first region's outputs, and the arguments, as the second stretch finds them -/

theorem w2_arg1 : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results_simp)
theorem w2_arg4 : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results_simp)
theorem w2_arg5 : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp)
theorem w2_arg10 : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results_simp)
theorem w2_arg11 : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results_simp)
theorem w2_arg12 : W2 m ρ c (Proc.devRef .tc main_arg12) = (m ((c : Thread nD τ).loc main_arg12)) :=
  (W2_of_ne m ρ c main_arg12 (by decide)).trans (by
    show StableHlo.after hostOps0 (W0 m ρ c) (Proc.devRef .tc main_arg12) = _
    after_results_simp)
theorem w2_arg13 : W2 m ρ c (Proc.devRef .tc main_arg13) = (m ((c : Thread nD τ).loc main_arg13)) :=
  (W2_of_ne m ρ c main_arg13 (by decide)).trans (by
    show StableHlo.after hostOps0 (W0 m ρ c) (Proc.devRef .tc main_arg13) = _
    after_results_simp)
theorem w2_arg16 : W2 m ρ c (Proc.devRef .tc main_arg16) = (m ((c : Thread nD τ).loc main_arg16)) :=
  (W2_of_ne m ρ c main_arg16 (by decide)).trans (by
    show StableHlo.after hostOps0 (W0 m ρ c) (Proc.devRef .tc main_arg16) = _
    after_results_simp)
theorem w2_arg17 : W2 m ρ c (Proc.devRef .tc main_arg17) = (m ((c : Thread nD τ).loc main_arg17)) :=
  (W2_of_ne m ρ c main_arg17 (by decide)).trans (by
    show StableHlo.after hostOps0 (W0 m ρ c) (Proc.devRef .tc main_arg17) = _
    after_results_simp)
theorem w2_arg18 : W2 m ρ c (Proc.devRef .tc main_arg18) = (m ((c : Thread nD τ).loc main_arg18)) :=
  (W2_of_ne m ρ c main_arg18 (by decide)).trans (by
    show StableHlo.after hostOps0 (W0 m ρ c) (Proc.devRef .tc main_arg18) = _
    after_results_simp)
theorem w2_arg19 : W2 m ρ c (Proc.devRef .tc main_arg19) = (m ((c : Thread nD τ).loc main_arg19)) :=
  (W2_of_ne m ρ c main_arg19 (by decide)).trans (by
    show StableHlo.after hostOps0 (W0 m ρ c) (Proc.devRef .tc main_arg19) = _
    after_results_simp)
theorem w2_arg20 : W2 m ρ c (Proc.devRef .tc main_arg20) = (m ((c : Thread nD τ).loc main_arg20)) :=
  (W2_of_ne m ρ c main_arg20 (by decide)).trans (by
    show StableHlo.after hostOps0 (W0 m ρ c) (Proc.devRef .tc main_arg20) = _
    after_results_simp)
theorem w2_arg21 : W2 m ρ c (Proc.devRef .tc main_arg21) = (m ((c : Thread nD τ).loc main_arg21)) :=
  (W2_of_ne m ρ c main_arg21 (by decide)).trans (by
    show StableHlo.after hostOps0 (W0 m ρ c) (Proc.devRef .tc main_arg21) = _
    after_results_simp)
theorem w2_arg22 : W2 m ρ c (Proc.devRef .tc main_arg22) = (m ((c : Thread nD τ).loc main_arg22)) :=
  (W2_of_ne m ρ c main_arg22 (by decide)).trans (by
    show StableHlo.after hostOps0 (W0 m ρ c) (Proc.devRef .tc main_arg22) = _
    after_results_simp)
theorem w2_arg23 : W2 m ρ c (Proc.devRef .tc main_arg23) = (m ((c : Thread nD τ).loc main_arg23)) :=
  (W2_of_ne m ρ c main_arg23 (by decide)).trans (by
    show StableHlo.after hostOps0 (W0 m ρ c) (Proc.devRef .tc main_arg23) = _
    after_results_simp)
theorem w2_arg24 : W2 m ρ c (Proc.devRef .tc main_arg24) = (m ((c : Thread nD τ).loc main_arg24)) :=
  (W2_of_ne m ρ c main_arg24 (by decide)).trans (by
    show StableHlo.after hostOps0 (W0 m ρ c) (Proc.devRef .tc main_arg24) = _
    after_results_simp)
theorem w2_arg25 : W2 m ρ c (Proc.devRef .tc main_arg25) = (m ((c : Thread nD τ).loc main_arg25)) :=
  (W2_of_ne m ρ c main_arg25 (by decide)).trans (by
    show StableHlo.after hostOps0 (W0 m ρ c) (Proc.devRef .tc main_arg25) = _
    after_results_simp)
theorem w2_arg26 : W2 m ρ c (Proc.devRef .tc main_arg26) = (m ((c : Thread nD τ).loc main_arg26)) :=
  (W2_of_ne m ρ c main_arg26 (by decide)).trans (by
    show StableHlo.after hostOps0 (W0 m ρ c) (Proc.devRef .tc main_arg26) = _
    after_results_simp)
theorem w2_arg27 : W2 m ρ c (Proc.devRef .tc main_arg27) = (m ((c : Thread nD τ).loc main_arg27)) :=
  (W2_of_ne m ρ c main_arg27 (by decide)).trans (by
    show StableHlo.after hostOps0 (W0 m ρ c) (Proc.devRef .tc main_arg27) = _
    after_results_simp)
theorem w2_arg28 : W2 m ρ c (Proc.devRef .tc main_arg28) = (m ((c : Thread nD τ).loc main_arg28)) :=
  (W2_of_ne m ρ c main_arg28 (by decide)).trans (by
    show StableHlo.after hostOps0 (W0 m ρ c) (Proc.devRef .tc main_arg28) = _
    after_results_simp)
theorem w2_arg29 : W2 m ρ c (Proc.devRef .tc main_arg29) = (m ((c : Thread nD τ).loc main_arg29)) :=
  (W2_of_ne m ρ c main_arg29 (by decide)).trans (by
    show StableHlo.after hostOps0 (W0 m ρ c) (Proc.devRef .tc main_arg29) = _
    after_results_simp)

theorem w2_v33_0 : W2 m ρ c (Proc.devRef .tc main_v33_0) = hiddenArr (m ((c : Thread nD τ).loc main_arg0)) (Cert.ReferenceIdeal.Read.val_main_v24 (F := Ideal) (m ((c : Thread nD τ).loc main_arg0)) (m ((c : Thread nD τ).loc main_arg1))) (Cert.ReferenceIdeal.Read.val_main_v25 (F := Ideal) (m ((c : Thread nD τ).loc main_arg2))) (Cert.ReferenceIdeal.Read.val_main_v27 (F := Ideal) (m ((c : Thread nD τ).loc main_arg3))) (shapeCast S1x128 (m ((c : Thread nD τ).loc main_arg6)) shapeCasts_S128_S1x128) (shapeCast S1x128 (m ((c : Thread nD τ).loc main_arg7)) shapeCasts_S128_S1x128) (shapeCast S1x128 (m ((c : Thread nD τ).loc main_arg8)) shapeCasts_S128_S1x128) (shapeCast S1x128 (m ((c : Thread nD τ).loc main_arg9)) shapeCasts_S128_S1x128) := by
  refine (W2_arr m ρ c 10).trans ((K0.hidden_final (V1 m ρ) c).trans ?_)
  rw [v1_main_arg0, v1_main_v24, v1_main_v25, v1_main_v26, v1_main_v28, v1_main_v29, v1_main_v30, v1_main_v31]

theorem w2_v33_1 : W2 m ρ c (Proc.devRef .tc main_v33_1) = residArr (hiddenArr (m ((c : Thread nD τ).loc main_arg0)) (Cert.ReferenceIdeal.Read.val_main_v24 (F := Ideal) (m ((c : Thread nD τ).loc main_arg0)) (m ((c : Thread nD τ).loc main_arg1))) (Cert.ReferenceIdeal.Read.val_main_v25 (F := Ideal) (m ((c : Thread nD τ).loc main_arg2))) (Cert.ReferenceIdeal.Read.val_main_v27 (F := Ideal) (m ((c : Thread nD τ).loc main_arg3))) (shapeCast S1x128 (m ((c : Thread nD τ).loc main_arg6)) shapeCasts_S128_S1x128) (shapeCast S1x128 (m ((c : Thread nD τ).loc main_arg7)) shapeCasts_S128_S1x128) (shapeCast S1x128 (m ((c : Thread nD τ).loc main_arg8)) shapeCasts_S128_S1x128) (shapeCast S1x128 (m ((c : Thread nD τ).loc main_arg9)) shapeCasts_S128_S1x128)) (m ((c : Thread nD τ).loc main_arg0)) (Cert.ReferenceIdeal.Read.val_main_v46 (F := Ideal) (m ((c : Thread nD τ).loc main_arg14))) (shapeCast S1x128 (m ((c : Thread nD τ).loc main_arg15)) shapeCasts_S128_S1x128) := by
  refine (W2_arr m ρ c 11).trans ((K0.resid_final (V1 m ρ) c).trans ?_)
  rw [v1_main_arg0, v1_main_v24, v1_main_v25, v1_main_v26, v1_main_v28, v1_main_v29, v1_main_v30, v1_main_v31, v1_main_v27, v1_main_v32]

theorem w2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (v1_main_arg0 m ρ c)

/-! ## What the second region finds -/

theorem v3_main_arg0 : V3 m ρ c main_arg0 = (m ((c : Thread nD τ).loc main_arg0)) := by
  show StableHlo.after hostOps1 (W2 m ρ c) (Proc.devRef .tc main_arg0) = _
  after_results_simp
  exact w2_arg0 m ρ c
theorem v3_main_v33_0 : V3 m ρ c main_v33_0 = hiddenArr (m ((c : Thread nD τ).loc main_arg0)) (Cert.ReferenceIdeal.Read.val_main_v24 (F := Ideal) (m ((c : Thread nD τ).loc main_arg0)) (m ((c : Thread nD τ).loc main_arg1))) (Cert.ReferenceIdeal.Read.val_main_v25 (F := Ideal) (m ((c : Thread nD τ).loc main_arg2))) (Cert.ReferenceIdeal.Read.val_main_v27 (F := Ideal) (m ((c : Thread nD τ).loc main_arg3))) (shapeCast S1x128 (m ((c : Thread nD τ).loc main_arg6)) shapeCasts_S128_S1x128) (shapeCast S1x128 (m ((c : Thread nD τ).loc main_arg7)) shapeCasts_S128_S1x128) (shapeCast S1x128 (m ((c : Thread nD τ).loc main_arg8)) shapeCasts_S128_S1x128) (shapeCast S1x128 (m ((c : Thread nD τ).loc main_arg9)) shapeCasts_S128_S1x128) := by
  show StableHlo.after hostOps1 (W2 m ρ c) (Proc.devRef .tc main_v33_0) = _
  after_results_simp
  exact w2_v33_0 m ρ c
theorem v3_main_v33_1 : V3 m ρ c main_v33_1 = residArr (hiddenArr (m ((c : Thread nD τ).loc main_arg0)) (Cert.ReferenceIdeal.Read.val_main_v24 (F := Ideal) (m ((c : Thread nD τ).loc main_arg0)) (m ((c : Thread nD τ).loc main_arg1))) (Cert.ReferenceIdeal.Read.val_main_v25 (F := Ideal) (m ((c : Thread nD τ).loc main_arg2))) (Cert.ReferenceIdeal.Read.val_main_v27 (F := Ideal) (m ((c : Thread nD τ).loc main_arg3))) (shapeCast S1x128 (m ((c : Thread nD τ).loc main_arg6)) shapeCasts_S128_S1x128) (shapeCast S1x128 (m ((c : Thread nD τ).loc main_arg7)) shapeCasts_S128_S1x128) (shapeCast S1x128 (m ((c : Thread nD τ).loc main_arg8)) shapeCasts_S128_S1x128) (shapeCast S1x128 (m ((c : Thread nD τ).loc main_arg9)) shapeCasts_S128_S1x128)) (m ((c : Thread nD τ).loc main_arg0)) (Cert.ReferenceIdeal.Read.val_main_v46 (F := Ideal) (m ((c : Thread nD τ).loc main_arg14))) (shapeCast S1x128 (m ((c : Thread nD τ).loc main_arg15)) shapeCasts_S128_S1x128) := by
  show StableHlo.after hostOps1 (W2 m ρ c) (Proc.devRef .tc main_v33_1) = _
  after_results_simp
  exact w2_v33_1 m ρ c
/-- The neighbourhood mean of the array passed on: the second stretch's chain over the first region's second output and the
    index arrays the first stretch left. -/
theorem v3_main_v45 : V3 m ρ c main_v45 = Cert.ReferenceIdeal.Read.val_main_v24 (F := Ideal) (residArr (hiddenArr (m ((c : Thread nD τ).loc main_arg0)) (Cert.ReferenceIdeal.Read.val_main_v24 (F := Ideal) (m ((c : Thread nD τ).loc main_arg0)) (m ((c : Thread nD τ).loc main_arg1))) (Cert.ReferenceIdeal.Read.val_main_v25 (F := Ideal) (m ((c : Thread nD τ).loc main_arg2))) (Cert.ReferenceIdeal.Read.val_main_v27 (F := Ideal) (m ((c : Thread nD τ).loc main_arg3))) (shapeCast S1x128 (m ((c : Thread nD τ).loc main_arg6)) shapeCasts_S128_S1x128) (shapeCast S1x128 (m ((c : Thread nD τ).loc main_arg7)) shapeCasts_S128_S1x128) (shapeCast S1x128 (m ((c : Thread nD τ).loc main_arg8)) shapeCasts_S128_S1x128) (shapeCast S1x128 (m ((c : Thread nD τ).loc main_arg9)) shapeCasts_S128_S1x128)) (m ((c : Thread nD τ).loc main_arg0)) (Cert.ReferenceIdeal.Read.val_main_v46 (F := Ideal) (m ((c : Thread nD τ).loc main_arg14))) (shapeCast S1x128 (m ((c : Thread nD τ).loc main_arg15)) shapeCasts_S128_S1x128)) (m ((c : Thread nD τ).loc main_arg1)) := by
  show StableHlo.after hostOps1 (W2 m ρ c) (Proc.devRef .tc main_v45) = _
  after_results_simp
  rw [w2_v33_1, W2_of_ne m ρ c main_v1 (by decide), W2_of_ne m ρ c main_v3 (by decide), W2_of_ne m ρ c main_v12 (by decide)]
  show _ = Cert.ReferenceIdeal.Read.val_main_v24 (F := Ideal) _ _
  generalize (residArr (hiddenArr (m ((c : Thread nD τ).loc main_arg0)) (Cert.ReferenceIdeal.Read.val_main_v24 (F := Ideal) (m ((c : Thread nD τ).loc main_arg0)) (m ((c : Thread nD τ).loc main_arg1))) (Cert.ReferenceIdeal.Read.val_main_v25 (F := Ideal) (m ((c : Thread nD τ).loc main_arg2))) (Cert.ReferenceIdeal.Read.val_main_v27 (F := Ideal) (m ((c : Thread nD τ).loc main_arg3))) (shapeCast S1x128 (m ((c : Thread nD τ).loc main_arg6)) shapeCasts_S128_S1x128) (shapeCast S1x128 (m ((c : Thread nD τ).loc main_arg7)) shapeCasts_S128_S1x128) (shapeCast S1x128 (m ((c : Thread nD τ).loc main_arg8)) shapeCasts_S128_S1x128) (shapeCast S1x128 (m ((c : Thread nD τ).loc main_arg9)) shapeCasts_S128_S1x128)) (m ((c : Thread nD τ).loc main_arg0)) (Cert.ReferenceIdeal.Read.val_main_v46 (F := Ideal) (m ((c : Thread nD τ).loc main_arg14))) (shapeCast S1x128 (m ((c : Thread nD τ).loc main_arg15)) shapeCasts_S128_S1x128)) = Y
  show _ = Cert.ReferenceIdeal.Read.val_main_v24 (F := Ideal) Y (m ((c : Thread nD τ).loc main_arg1))
  after_results_simp
  rfl
theorem v3_main_v46 : V3 m ρ c main_v46 = Cert.ReferenceIdeal.Read.val_main_v64 (F := Ideal) (m ((c : Thread nD τ).loc main_arg4)) := by
  show StableHlo.after hostOps1 (W2 m ρ c) (Proc.devRef .tc main_v46) = _
  after_results_simp
  rw [w2_arg4]
  rfl
theorem v3_main_v47 : V3 m ρ c main_v47 = Cert.ReferenceIdeal.Read.val_main_v66 (F := Ideal) (m ((c : Thread nD τ).loc main_arg5)) := by
  show StableHlo.after hostOps1 (W2 m ρ c) (Proc.devRef .tc main_v47) = _
  after_results_simp
  rw [w2_arg5]
  rfl
theorem v3_main_v48 : V3 m ρ c main_v48 = Cert.ReferenceIdeal.Read.val_main_v86 (F := Ideal) (m ((c : Thread nD τ).loc main_arg16)) := by
  show StableHlo.after hostOps1 (W2 m ρ c) (Proc.devRef .tc main_v48) = _
  after_results_simp
  rw [w2_arg16]
  rfl
theorem v3_main_v49 : V3 m ρ c main_v49 = Cert.ReferenceIdeal.Read.val_main_v107 (F := Ideal) (m ((c : Thread nD τ).loc main_arg22)) := by
  show StableHlo.after hostOps1 (W2 m ρ c) (Proc.devRef .tc main_v49) = _
  after_results_simp
  rw [w2_arg22]
  rfl
theorem v3_main_v50 : V3 m ρ c main_v50 = Cert.ReferenceIdeal.Read.val_main_v128 (F := Ideal) (m ((c : Thread nD τ).loc main_arg28)) := by
  show StableHlo.after hostOps1 (W2 m ρ c) (Proc.devRef .tc main_v50) = _
  after_results_simp
  rw [w2_arg28]
  rfl
theorem v3_main_v51 : V3 m ρ c main_v51 = shapeCast S1x128 (m ((c : Thread nD τ).loc main_arg10)) shapeCasts_S128_S1x128 := by
  show StableHlo.after hostOps1 (W2 m ρ c) (Proc.devRef .tc main_v51) = _
  after_results_simp
  rw [w2_arg10]
  rfl
theorem v3_main_v52 : V3 m ρ c main_v52 = shapeCast S1x128 (m ((c : Thread nD τ).loc main_arg11)) shapeCasts_S128_S1x128 := by
  show StableHlo.after hostOps1 (W2 m ρ c) (Proc.devRef .tc main_v52) = _
  after_results_simp
  rw [w2_arg11]
  rfl
theorem v3_main_v53 : V3 m ρ c main_v53 = shapeCast S1x128 (m ((c : Thread nD τ).loc main_arg12)) shapeCasts_S128_S1x128 := by
  show StableHlo.after hostOps1 (W2 m ρ c) (Proc.devRef .tc main_v53) = _
  after_results_simp
  rw [w2_arg12]
  rfl
theorem v3_main_v54 : V3 m ρ c main_v54 = shapeCast S1x128 (m ((c : Thread nD τ).loc main_arg13)) shapeCasts_S128_S1x128 := by
  show StableHlo.after hostOps1 (W2 m ρ c) (Proc.devRef .tc main_v54) = _
  after_results_simp
  rw [w2_arg13]
  rfl
theorem v3_main_v55 : V3 m ρ c main_v55 = shapeCast S1x80 (m ((c : Thread nD τ).loc main_arg17)) shapeCasts_S80_S1x80 := by
  show StableHlo.after hostOps1 (W2 m ρ c) (Proc.devRef .tc main_v55) = _
  after_results_simp
  rw [w2_arg17]
  rfl
theorem v3_main_v56 : V3 m ρ c main_v56 = shapeCast S1x80 (m ((c : Thread nD τ).loc main_arg18)) shapeCasts_S80_S1x80 := by
  show StableHlo.after hostOps1 (W2 m ρ c) (Proc.devRef .tc main_v56) = _
  after_results_simp
  rw [w2_arg18]
  rfl
theorem v3_main_v57 : V3 m ρ c main_v57 = shapeCast S1x80 (m ((c : Thread nD τ).loc main_arg19)) shapeCasts_S80_S1x80 := by
  show StableHlo.after hostOps1 (W2 m ρ c) (Proc.devRef .tc main_v57) = _
  after_results_simp
  rw [w2_arg19]
  rfl
theorem v3_main_v58 : V3 m ρ c main_v58 = shapeCast S1x80 (m ((c : Thread nD τ).loc main_arg20)) shapeCasts_S80_S1x80 := by
  show StableHlo.after hostOps1 (W2 m ρ c) (Proc.devRef .tc main_v58) = _
  after_results_simp
  rw [w2_arg20]
  rfl
theorem v3_main_v59 : V3 m ρ c main_v59 = shapeCast S1x80 (m ((c : Thread nD τ).loc main_arg21)) shapeCasts_S80_S1x80 := by
  show StableHlo.after hostOps1 (W2 m ρ c) (Proc.devRef .tc main_v59) = _
  after_results_simp
  rw [w2_arg21]
  rfl
theorem v3_main_v60 : V3 m ρ c main_v60 = shapeCast S1x80 (m ((c : Thread nD τ).loc main_arg23)) shapeCasts_S80_S1x80 := by
  show StableHlo.after hostOps1 (W2 m ρ c) (Proc.devRef .tc main_v60) = _
  after_results_simp
  rw [w2_arg23]
  rfl
theorem v3_main_v61 : V3 m ρ c main_v61 = shapeCast S1x80 (m ((c : Thread nD τ).loc main_arg24)) shapeCasts_S80_S1x80 := by
  show StableHlo.after hostOps1 (W2 m ρ c) (Proc.devRef .tc main_v61) = _
  after_results_simp
  rw [w2_arg24]
  rfl
theorem v3_main_v62 : V3 m ρ c main_v62 = shapeCast S1x80 (m ((c : Thread nD τ).loc main_arg25)) shapeCasts_S80_S1x80 := by
  show StableHlo.after hostOps1 (W2 m ρ c) (Proc.devRef .tc main_v62) = _
  after_results_simp
  rw [w2_arg25]
  rfl
theorem v3_main_v63 : V3 m ρ c main_v63 = shapeCast S1x80 (m ((c : Thread nD τ).loc main_arg26)) shapeCasts_S80_S1x80 := by
  show StableHlo.after hostOps1 (W2 m ρ c) (Proc.devRef .tc main_v63) = _
  after_results_simp
  rw [w2_arg26]
  rfl
theorem v3_main_v64 : V3 m ρ c main_v64 = shapeCast S1x80 (m ((c : Thread nD τ).loc main_arg27)) shapeCasts_S80_S1x80 := by
  show StableHlo.after hostOps1 (W2 m ρ c) (Proc.devRef .tc main_v64) = _
  after_results_simp
  rw [w2_arg27]
  rfl
theorem v3_main_v65 : V3 m ρ c main_v65 = shapeCast S1x40 (m ((c : Thread nD τ).loc main_arg29)) shapeCasts_S40_S1x40 := by
  show StableHlo.after hostOps1 (W2 m ρ c) (Proc.devRef .tc main_v65) = _
  after_results_simp
  rw [w2_arg29]
  rfl

/-! ## The result -/

/-- The output array depends on its operands only through their values. -/
theorem outArr_congr {X X' : (⟨2, ![100000, 128]⟩ : Shape).Idx → EReal} {H0 H0' : (⟨2, ![100000, 128]⟩ : Shape).Idx → EReal} {X1 X1' : (⟨2, ![100000, 128]⟩ : Shape).Idx → EReal} {A1 A1' : (⟨2, ![100000, 128]⟩ : Shape).Idx → EReal} {Wl1 Wl1' : (⟨2, ![128, 128]⟩ : Shape).Idx → EReal} {Wr1 Wr1' : (⟨2, ![128, 128]⟩ : Shape).Idx → EReal} {g1 g1' : (⟨2, ![1, 128]⟩ : Shape).Idx → EReal} {b1 b1' : (⟨2, ![1, 128]⟩ : Shape).Idx → EReal} {mu1 mu1' : (⟨2, ![1, 128]⟩ : Shape).Idx → EReal} {var1 var1' : (⟨2, ![1, 128]⟩ : Shape).Idx → EReal} {W0 W0' : (⟨2, ![384, 80]⟩ : Shape).Idx → EReal} {c0 c0' : (⟨2, ![1, 80]⟩ : Shape).Idx → EReal} {g2 g2' : (⟨2, ![1, 80]⟩ : Shape).Idx → EReal} {b2 b2' : (⟨2, ![1, 80]⟩ : Shape).Idx → EReal} {mu2 mu2' : (⟨2, ![1, 80]⟩ : Shape).Idx → EReal} {var2 var2' : (⟨2, ![1, 80]⟩ : Shape).Idx → EReal} {W1 W1' : (⟨2, ![80, 80]⟩ : Shape).Idx → EReal} {c1 c1' : (⟨2, ![1, 80]⟩ : Shape).Idx → EReal} {g3 g3' : (⟨2, ![1, 80]⟩ : Shape).Idx → EReal} {b3 b3' : (⟨2, ![1, 80]⟩ : Shape).Idx → EReal} {mu3 mu3' : (⟨2, ![1, 80]⟩ : Shape).Idx → EReal} {var3 var3' : (⟨2, ![1, 80]⟩ : Shape).Idx → EReal} {W2 W2' : (⟨2, ![80, 40]⟩ : Shape).Idx → EReal} {c2 c2' : (⟨2, ![1, 40]⟩ : Shape).Idx → EReal}
    (h0 : X = X') (h1 : H0 = H0') (h2 : X1 = X1') (h3 : A1 = A1') (h4 : Wl1 = Wl1') (h5 : Wr1 = Wr1') (h6 : g1 = g1') (h7 : b1 = b1') (h8 : mu1 = mu1') (h9 : var1 = var1') (h10 : W0 = W0') (h11 : c0 = c0') (h12 : g2 = g2') (h13 : b2 = b2') (h14 : mu2 = mu2') (h15 : var2 = var2') (h16 : W1 = W1') (h17 : c1 = c1') (h18 : g3 = g3') (h19 : b3 = b3') (h20 : mu3 = mu3') (h21 : var3 = var3') (h22 : W2 = W2') (h23 : c2 = c2') :
    outArr X H0 X1 A1 Wl1 Wr1 g1 b1 mu1 var1 W0 c0 g2 b2 mu2 var2 W1 c1 g3 b3 mu3 var3 W2 c2 = outArr X' H0' X1' A1' Wl1' Wr1' g1' b1' mu1' var1' W0' c0' g2' b2' mu2' var2' W1' c1' g3' b3' mu3' var3' W2' c2' := by
  subst h0 h1 h2 h3 h4 h5 h6 h7 h8 h9 h10 h11 h12 h13 h14 h15 h16 h17 h18 h19 h20 h21 h22 h23
  rfl

/-- The result array ends at the network function of the arguments. -/
theorem kernel_value : W4 m ρ c (Proc.devRef .tc main_v66) = netArr (fun X => Cert.ReferenceIdeal.Read.val_main_v24 (F := Ideal) X (m ((c : Thread nD τ).loc main_arg1)))
      (m ((c : Thread nD τ).loc main_arg0))
      (Cert.ReferenceIdeal.Read.val_main_v25 (F := Ideal) (m ((c : Thread nD τ).loc main_arg2)))
      (Cert.ReferenceIdeal.Read.val_main_v27 (F := Ideal) (m ((c : Thread nD τ).loc main_arg3)))
      (shapeCast S1x128 (m ((c : Thread nD τ).loc main_arg6)) shapeCasts_S128_S1x128)
      (shapeCast S1x128 (m ((c : Thread nD τ).loc main_arg7)) shapeCasts_S128_S1x128)
      (shapeCast S1x128 (m ((c : Thread nD τ).loc main_arg8)) shapeCasts_S128_S1x128)
      (shapeCast S1x128 (m ((c : Thread nD τ).loc main_arg9)) shapeCasts_S128_S1x128)
      (Cert.ReferenceIdeal.Read.val_main_v46 (F := Ideal) (m ((c : Thread nD τ).loc main_arg14)))
      (shapeCast S1x128 (m ((c : Thread nD τ).loc main_arg15)) shapeCasts_S128_S1x128)
      (Cert.ReferenceIdeal.Read.val_main_v64 (F := Ideal) (m ((c : Thread nD τ).loc main_arg4)))
      (Cert.ReferenceIdeal.Read.val_main_v66 (F := Ideal) (m ((c : Thread nD τ).loc main_arg5)))
      (shapeCast S1x128 (m ((c : Thread nD τ).loc main_arg10)) shapeCasts_S128_S1x128)
      (shapeCast S1x128 (m ((c : Thread nD τ).loc main_arg11)) shapeCasts_S128_S1x128)
      (shapeCast S1x128 (m ((c : Thread nD τ).loc main_arg12)) shapeCasts_S128_S1x128)
      (shapeCast S1x128 (m ((c : Thread nD τ).loc main_arg13)) shapeCasts_S128_S1x128)
      (Cert.ReferenceIdeal.Read.val_main_v86 (F := Ideal) (m ((c : Thread nD τ).loc main_arg16)))
      (shapeCast S1x80 (m ((c : Thread nD τ).loc main_arg17)) shapeCasts_S80_S1x80)
      (shapeCast S1x80 (m ((c : Thread nD τ).loc main_arg18)) shapeCasts_S80_S1x80)
      (shapeCast S1x80 (m ((c : Thread nD τ).loc main_arg19)) shapeCasts_S80_S1x80)
      (shapeCast S1x80 (m ((c : Thread nD τ).loc main_arg20)) shapeCasts_S80_S1x80)
      (shapeCast S1x80 (m ((c : Thread nD τ).loc main_arg21)) shapeCasts_S80_S1x80)
      (Cert.ReferenceIdeal.Read.val_main_v107 (F := Ideal) (m ((c : Thread nD τ).loc main_arg22)))
      (shapeCast S1x80 (m ((c : Thread nD τ).loc main_arg23)) shapeCasts_S80_S1x80)
      (shapeCast S1x80 (m ((c : Thread nD τ).loc main_arg24)) shapeCasts_S80_S1x80)
      (shapeCast S1x80 (m ((c : Thread nD τ).loc main_arg25)) shapeCasts_S80_S1x80)
      (shapeCast S1x80 (m ((c : Thread nD τ).loc main_arg26)) shapeCasts_S80_S1x80)
      (shapeCast S1x80 (m ((c : Thread nD τ).loc main_arg27)) shapeCasts_S80_S1x80)
      (Cert.ReferenceIdeal.Read.val_main_v128 (F := Ideal) (m ((c : Thread nD τ).loc main_arg28)))
      (shapeCast S1x40 (m ((c : Thread nD τ).loc main_arg29)) shapeCasts_S40_S1x40) :=
  (W4_arr m ρ c 24).trans ((K1.out_final (V3 m ρ) c).trans
    (outArr_congr (v3_main_arg0 m ρ c)
      (v3_main_v33_0 m ρ c)
      (v3_main_v33_1 m ρ c)
      (v3_main_v45 m ρ c)
      (v3_main_v46 m ρ c)
      (v3_main_v47 m ρ c)
      (v3_main_v51 m ρ c)
      (v3_main_v52 m ρ c)
      (v3_main_v53 m ρ c)
      (v3_main_v54 m ρ c)
      (v3_main_v48 m ρ c)
      (v3_main_v55 m ρ c)
      (v3_main_v56 m ρ c)
      (v3_main_v57 m ρ c)
      (v3_main_v58 m ρ c)
      (v3_main_v59 m ρ c)
      (v3_main_v49 m ρ c)
      (v3_main_v60 m ρ c)
      (v3_main_v61 m ρ c)
      (v3_main_v62 m ρ c)
      (v3_main_v63 m ρ c)
      (v3_main_v64 m ρ c)
      (v3_main_v50 m ρ c)
      (v3_main_v65 m ρ c)))

end Cert.Sage.KGlue

end
-- ==== Proof.RefRows.lean ====
/-
  The reference program read one row at a time.

  Each stage of the reference is an array over all 100000 nodes.  Read at the index (r, j) it depends only on row r of
  the row-indexed operands and on the whole weight operands, and it is the per-row function of the specification:
  a contraction over one axis is a row times a matrix, a vector broadcast along the rows is the vector at the column,
  and the pointwise operations are the extended reals' own.
-/
import proofs.«175949_j1623497638158_1_alg».proof.Proof.Gen.ReferenceIdeal.Read
import proofs.«175949_j1623497638158_1_alg».proof.Proof.Spec

noncomputable section

open scoped BigOperators

namespace Cert.Sage.Ref

open Cert.ReferenceIdeal Cert.ReferenceIdeal.Read Cert.Sage Idealize.ShloMosaic Idealize.ShloMosaic.ValueIdx

/-! ## Indices by coordinates, and a contraction as a row times a matrix -/

/-- Two rank-two indices with the same coordinates are equal: checked axis by axis. -/
macro "idx2" : term => `(funext fun a => match a with | ⟨0, _⟩ => rfl | ⟨1, _⟩ => rfl)
/-- Two rank-one indices with the same coordinate are equal. -/
macro "idx1" : term => `(funext fun a => match a with | ⟨0, _⟩ => rfl)

/-- A contraction over the one shared axis, read at (r, j), is row r of the left operand times the right operand at
    column j, once the two index functions of the contraction are identified as k ↦ (r, k) and k ↦ (k, j). -/
theorem sum_rowMul {n0 K J : Nat} (L : (⟨2, ![n0, K]⟩ : Shape).Idx → EReal) (W : (⟨2, ![K, J]⟩ : Shape).Idx → EReal)
    (r : Fin n0) (j : Fin J) (li : Fin K → (⟨2, ![n0, K]⟩ : Shape).Idx) (ri : Fin K → (⟨2, ![K, J]⟩ : Shape).Idx)
    (hl : ∀ k, li k = ix2 r k) (hr : ∀ k, ri k = ix2 k j) :
    ∑ k : Fin K, L (li k) * W (ri k) = rowMul (rowOf L r) (matOf W) j := by
  unfold rowMul rowOf matOf
  exact Finset.sum_congr rfl fun k _ => by rw [hl, hr]

/-! ## The first graph layer -/

/-- The neighbourhood mean through the left weight: a row times a matrix. -/
theorem v26_at (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (r : Fin 100000) (j : Fin 128) :
    val_main_v26 (F := Ideal) x0 x1 x2 (ix2 r j)
      = rowMul (rowOf (val_main_v24 (F := Ideal) x0 x1) r) (matOf (val_main_v25 (F := Ideal) x2)) j := by
  rewrite [val_main_v26_apply]
  exact sum_rowMul (val_main_v24 (F := Ideal) x0 x1) (val_main_v25 (F := Ideal) x2) r j _ _ (fun _ => idx2) (fun _ => idx2)

/-- The node's own row through the right weight. -/
theorem v28_at (x0 : (⟨S100000x128, .f32⟩ : BufTy).Contents (Elt Ideal)) (x3 : (⟨S128x128, .f32⟩ : BufTy).Contents (Elt Ideal))
    (r : Fin 100000) (j : Fin 128) :
    val_main_v28 (F := Ideal) x0 x3 (ix2 r j)
      = rowMul (rowOf (x0) r) (matOf (val_main_v27 (F := Ideal) x3)) j := by
  rewrite [val_main_v28_apply]
  exact sum_rowMul (x0) (val_main_v27 (F := Ideal) x3) r j _ _ (fun _ => idx2) (fun _ => idx2)

/-- The running mean, broadcast along the rows and read at (r, j): the vector at j. -/
theorem v31_at (x8 : (⟨S128, .f32⟩ : BufTy).Contents (Elt Ideal)) (r : Fin 100000) (j : Fin 128) :
    val_main_v31 (F := Ideal) x8 (ix2 r j) = vecOf x8 j := by
  rewrite [val_main_v31_apply, val_main_v30_apply]
  exact congrArg x8 idx1

/-- The inverse root of (running variance + ε), computed on the vector, broadcast along the rows and read at (r, j). -/
theorem v37_at (x9 : (⟨S128, .f32⟩ : BufTy).Contents (Elt Ideal)) (r : Fin 100000) (j : Fin 128) :
    val_main_v37 (F := Ideal) x9 (ix2 r j) = Ideal.rsqrt (vecOf x9 j + Ideal.ofBits .f32 0x3727C5AC#32) := by
  rewrite [val_main_v37_apply, val_main_v36_apply, val_main_v35_apply, val_main_v34_apply, val_main_v33_apply, val_main_cst_5_apply]
  exact congrArg (fun t => Ideal.rsqrt (x9 t + Ideal.ofBits .f32 0x3727C5AC#32)) idx1

/-- The gain, broadcast along the rows and read at (r, j): the vector at j. -/
theorem v40_at (x6 : (⟨S128, .f32⟩ : BufTy).Contents (Elt Ideal)) (r : Fin 100000) (j : Fin 128) :
    val_main_v40 (F := Ideal) x6 (ix2 r j) = vecOf x6 j := by
  rewrite [val_main_v40_apply, val_main_v39_apply]
  exact congrArg x6 idx1

/-- The shift, broadcast along the rows and read at (r, j): the vector at j. -/
theorem v43_at (x7 : (⟨S128, .f32⟩ : BufTy).Contents (Elt Ideal)) (r : Fin 100000) (j : Fin 128) :
    val_main_v43 (F := Ideal) x7 (ix2 r j) = vecOf x7 j := by
  rewrite [val_main_v43_apply, val_main_v42_apply]
  exact congrArg x7 idx1

/-- The clamp's zero, broadcast to the whole array, read anywhere. -/
theorem c0_at (r : Fin 100000) (j : Fin 128) :
    val_main_call0_v0 (F := Ideal) (ix2 r j) = Ideal.ofBits .f32 0x00000000#32 := by
  rewrite [val_main_call0_v0_apply, val_main_call0_cst_apply]
  rfl

/-- **The first hidden array at (r, j)** is the first layer's hidden row of node r at j. -/
theorem hidden0 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal))
    (r : Fin 100000) (j : Fin 128) :
    val_main_v45 (F := Ideal) x0 x1 x2 x3 x6 x7 x8 x9 (ix2 r j)
      = hiddenRow (rowOf x0 r) (rowOf (val_main_v24 (F := Ideal) x0 x1) r) (matOf (val_main_v25 (F := Ideal) x2)) (matOf (val_main_v27 (F := Ideal) x3))
          (vecOf x6) (vecOf x7) (vecOf x8) (vecOf x9) j := by
  rewrite [val_main_v45_apply, val_main_v44_apply, val_main_v41_apply, val_main_v38_apply, val_main_v32_apply, val_main_v29_apply,
    v26_at, v28_at, v31_at, v37_at, v40_at, v43_at, c0_at]
  rfl

/-! ## The row passed to the second layer -/

/-- The node's own row through the residual weight. -/
theorem v47_at (x0 : (⟨S100000x128, .f32⟩ : BufTy).Contents (Elt Ideal)) (x14 : (⟨S128x128, .f32⟩ : BufTy).Contents (Elt Ideal))
    (r : Fin 100000) (j : Fin 128) :
    val_main_v47 (F := Ideal) x0 x14 (ix2 r j)
      = rowMul (rowOf (x0) r) (matOf (val_main_v46 (F := Ideal) x14)) j := by
  rewrite [val_main_v47_apply]
  exact sum_rowMul (x0) (val_main_v46 (F := Ideal) x14) r j _ _ (fun _ => idx2) (fun _ => idx2)

/-- The residual bias, broadcast along the rows and read at (r, j): the vector at j. -/
theorem v49_at (x15 : (⟨S128, .f32⟩ : BufTy).Contents (Elt Ideal)) (r : Fin 100000) (j : Fin 128) :
    val_main_v49 (F := Ideal) x15 (ix2 r j) = vecOf x15 j := by
  rewrite [val_main_v49_apply, val_main_v48_apply]
  exact congrArg x15 idx1

/-- **The second layer's input at (r, j)**: the hidden row plus the affine image of the node's own row. -/
theorem resid0 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal))
    (r : Fin 100000) (j : Fin 128) :
    val_main_v51 (F := Ideal) x0 x1 x2 x3 x6 x7 x8 x9 x14 x15 (ix2 r j)
      = residRow (rowOf (val_main_v45 (F := Ideal) x0 x1 x2 x3 x6 x7 x8 x9) r) (rowOf x0 r) (matOf (val_main_v46 (F := Ideal) x14)) (vecOf x15) j := by
  rewrite [val_main_v51_apply, val_main_v50_apply,
    v47_at, v49_at]
  rfl

/-! ## The second graph layer -/

/-- The neighbourhood mean of the second layer's input through the left weight. -/
theorem v65_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal))
    (r : Fin 100000) (j : Fin 128) :
    val_main_v65 (F := Ideal) x0 x1 x2 x3 x4 x6 x7 x8 x9 x14 x15 (ix2 r j)
      = rowMul (rowOf (val_main_v63 (F := Ideal) x0 x1 x2 x3 x6 x7 x8 x9 x14 x15) r) (matOf (val_main_v64 (F := Ideal) x4)) j := by
  rewrite [val_main_v65_apply]
  exact sum_rowMul (val_main_v63 (F := Ideal) x0 x1 x2 x3 x6 x7 x8 x9 x14 x15) (val_main_v64 (F := Ideal) x4) r j _ _ (fun _ => idx2) (fun _ => idx2)

/-- The second layer's input row through the right weight. -/
theorem v67_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal))
    (r : Fin 100000) (j : Fin 128) :
    val_main_v67 (F := Ideal) x0 x1 x2 x3 x5 x6 x7 x8 x9 x14 x15 (ix2 r j)
      = rowMul (rowOf (val_main_v51 (F := Ideal) x0 x1 x2 x3 x6 x7 x8 x9 x14 x15) r) (matOf (val_main_v66 (F := Ideal) x5)) j := by
  rewrite [val_main_v67_apply]
  exact sum_rowMul (val_main_v51 (F := Ideal) x0 x1 x2 x3 x6 x7 x8 x9 x14 x15) (val_main_v66 (F := Ideal) x5) r j _ _ (fun _ => idx2) (fun _ => idx2)

/-- The running mean, broadcast along the rows and read at (r, j): the vector at j. -/
theorem v70_at (x12 : (⟨S128, .f32⟩ : BufTy).Contents (Elt Ideal)) (r : Fin 100000) (j : Fin 128) :
    val_main_v70 (F := Ideal) x12 (ix2 r j) = vecOf x12 j := by
  rewrite [val_main_v70_apply, val_main_v69_apply]
  exact congrArg x12 idx1

/-- The inverse root of (running variance + ε), computed on the vector, broadcast along the rows and read at (r, j). -/
theorem v76_at (x13 : (⟨S128, .f32⟩ : BufTy).Contents (Elt Ideal)) (r : Fin 100000) (j : Fin 128) :
    val_main_v76 (F := Ideal) x13 (ix2 r j) = Ideal.rsqrt (vecOf x13 j + Ideal.ofBits .f32 0x3727C5AC#32) := by
  rewrite [val_main_v76_apply, val_main_v75_apply, val_main_v74_apply, val_main_v73_apply, val_main_v72_apply, val_main_cst_9_apply]
  exact congrArg (fun t => Ideal.rsqrt (x13 t + Ideal.ofBits .f32 0x3727C5AC#32)) idx1

/-- The gain, broadcast along the rows and read at (r, j): the vector at j. -/
theorem v79_at (x10 : (⟨S128, .f32⟩ : BufTy).Contents (Elt Ideal)) (r : Fin 100000) (j : Fin 128) :
    val_main_v79 (F := Ideal) x10 (ix2 r j) = vecOf x10 j := by
  rewrite [val_main_v79_apply, val_main_v78_apply]
  exact congrArg x10 idx1

/-- The shift, broadcast along the rows and read at (r, j): the vector at j. -/
theorem v82_at (x11 : (⟨S128, .f32⟩ : BufTy).Contents (Elt Ideal)) (r : Fin 100000) (j : Fin 128) :
    val_main_v82 (F := Ideal) x11 (ix2 r j) = vecOf x11 j := by
  rewrite [val_main_v82_apply, val_main_v81_apply]
  exact congrArg x11 idx1

/-- The clamp's zero, broadcast to the whole array, read anywhere. -/
theorem c1_at (r : Fin 100000) (j : Fin 128) :
    val_main_call1_v0 (F := Ideal) (ix2 r j) = Ideal.ofBits .f32 0x00000000#32 := by
  rewrite [val_main_call1_v0_apply, val_main_call1_cst_apply]
  rfl

/-- The second hidden array at (r, j) is the second layer's hidden row of node r at j. -/
theorem hidden1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))
    (r : Fin 100000) (j : Fin 128) :
    val_main_v84 (F := Ideal) x0 x1 x2 x3 x4 x5 x6 x7 x8 x9 x10 x11 x12 x13 x14 x15 (ix2 r j)
      = hiddenRow (rowOf (val_main_v51 (F := Ideal) x0 x1 x2 x3 x6 x7 x8 x9 x14 x15) r) (rowOf (val_main_v63 (F := Ideal) x0 x1 x2 x3 x6 x7 x8 x9 x14 x15) r) (matOf (val_main_v64 (F := Ideal) x4)) (matOf (val_main_v66 (F := Ideal) x5))
          (vecOf x10) (vecOf x11) (vecOf x12) (vecOf x13) j := by
  rewrite [val_main_v84_apply, val_main_v83_apply, val_main_v80_apply, val_main_v77_apply, val_main_v71_apply, val_main_v68_apply,
    v65_at, v67_at, v70_at, v76_at, v79_at, v82_at, c1_at]
  rfl

/-- Row r of the second hidden array. -/
theorem row84 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))
    (r : Fin 100000) :
    rowOf (val_main_v84 (F := Ideal) x0 x1 x2 x3 x4 x5 x6 x7 x8 x9 x10 x11 x12 x13 x14 x15) r
      = hiddenRow (rowOf (val_main_v51 (F := Ideal) x0 x1 x2 x3 x6 x7 x8 x9 x14 x15) r) (rowOf (val_main_v63 (F := Ideal) x0 x1 x2 x3 x6 x7 x8 x9 x14 x15) r) (matOf (val_main_v64 (F := Ideal) x4)) (matOf (val_main_v66 (F := Ideal) x5))
          (vecOf x10) (vecOf x11) (vecOf x12) (vecOf x13) :=
  funext fun j => hidden1 x0 x1 x2 x3 x4 x5 x6 x7 x8 x9 x10 x11 x12 x13 x14 x15 r j

/-! ## The three arrays joined along the columns -/

/-- The joined array read at (r, k): the piece whose span of 128 columns holds k, at (r, k minus the columns before it). -/
theorem v85_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))
    (r : Fin 100000) (k : Fin 384) :
    val_main_v85 (F := Ideal) x0 x1 x2 x3 x4 x5 x6 x7 x8 x9 x10 x11 x12 x13 x14 x15 (ix2 r k)
      = joinRow (rowOf x0 r) (rowOf (val_main_v45 (F := Ideal) x0 x1 x2 x3 x6 x7 x8 x9) r) (rowOf (val_main_v84 (F := Ideal) x0 x1 x2 x3 x4 x5 x6 x7 x8 x9 x10 x11 x12 x13 x14 x15) r) k := by
  unfold val_main_v85 joinRow
  generalize val_main_v45 (F := Ideal) x0 x1 x2 x3 x6 x7 x8 x9 = h0
  generalize val_main_v84 (F := Ideal) x0 x1 x2 x3 x4 x5 x6 x7 x8 x9 x10 x11 x12 x13 x14 x15 = h1
  by_cases hA : k.val < 128
  · rw [dif_pos hA]
    exact concatenate_apply_piece (t := S100000x384) 1 _ _ (ix2 r k) 0 (by simp) S100000x128 x0 rfl rfl 0 rfl (ix2 r ⟨k.val, hA⟩) (fun b hb => by match b with | ⟨0, _⟩ => rfl | ⟨1, _⟩ => exact absurd rfl hb)
      (by show 0 + k.val = k.val; omega)
  · rw [dif_neg hA]
    by_cases hB : k.val < 256
    · rw [dif_pos hB]
      exact concatenate_apply_piece (t := S100000x384) 1 _ _ (ix2 r k) 1 (by simp) S100000x128 h0 rfl rfl 128 rfl (ix2 r ⟨k.val - 128, by omega⟩) (fun b hb => by match b with | ⟨0, _⟩ => rfl | ⟨1, _⟩ => exact absurd rfl hb)
        (by show 128 + (k.val - 128) = k.val; omega)
    · rw [dif_neg hB]
      exact concatenate_apply_piece (t := S100000x384) 1 _ _ (ix2 r k) 2 (by simp) S100000x128 h1 rfl rfl 256 rfl (ix2 r ⟨k.val - 256, by omega⟩) (fun b hb => by match b with | ⟨0, _⟩ => rfl | ⟨1, _⟩ => exact absurd rfl hb)
        (by show 256 + (k.val - 256) = k.val; omega)

/-- Row r of the joined array. -/
theorem row85 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))
    (r : Fin 100000) :
    rowOf (val_main_v85 (F := Ideal) x0 x1 x2 x3 x4 x5 x6 x7 x8 x9 x10 x11 x12 x13 x14 x15) r
      = joinRow (rowOf x0 r) (rowOf (val_main_v45 (F := Ideal) x0 x1 x2 x3 x6 x7 x8 x9) r) (rowOf (val_main_v84 (F := Ideal) x0 x1 x2 x3 x4 x5 x6 x7 x8 x9 x10 x11 x12 x13 x14 x15) r) :=
  funext fun j => v85_at x0 x1 x2 x3 x4 x5 x6 x7 x8 x9 x10 x11 x12 x13 x14 x15 r j

/-! ## The head's first layer -/

/-- The joined row through the first head weight. -/
theorem v87_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S80x384, .f32⟩ : BufTy).Contents (Elt Ideal))
    (r : Fin 100000) (j : Fin 80) :
    val_main_v87 (F := Ideal) x0 x1 x2 x3 x4 x5 x6 x7 x8 x9 x10 x11 x12 x13 x14 x15 x16 (ix2 r j)
      = rowMul (rowOf (val_main_v85 (F := Ideal) x0 x1 x2 x3 x4 x5 x6 x7 x8 x9 x10 x11 x12 x13 x14 x15) r) (matOf (val_main_v86 (F := Ideal) x16)) j := by
  rewrite [val_main_v87_apply]
  exact sum_rowMul (val_main_v85 (F := Ideal) x0 x1 x2 x3 x4 x5 x6 x7 x8 x9 x10 x11 x12 x13 x14 x15) (val_main_v86 (F := Ideal) x16) r j _ _ (fun _ => idx2) (fun _ => idx2)

/-- The bias, broadcast along the rows and read at (r, j): the vector at j. -/
theorem v89_at (x17 : (⟨S80, .f32⟩ : BufTy).Contents (Elt Ideal)) (r : Fin 100000) (j : Fin 80) :
    val_main_v89 (F := Ideal) x17 (ix2 r j) = vecOf x17 j := by
  rewrite [val_main_v89_apply, val_main_v88_apply]
  exact congrArg x17 idx1

/-- The running mean, broadcast along the rows and read at (r, j): the vector at j. -/
theorem v92_at (x20 : (⟨S80, .f32⟩ : BufTy).Contents (Elt Ideal)) (r : Fin 100000) (j : Fin 80) :
    val_main_v92 (F := Ideal) x20 (ix2 r j) = vecOf x20 j := by
  rewrite [val_main_v92_apply, val_main_v91_apply]
  exact congrArg x20 idx1

/-- The inverse root of (running variance + ε), computed on the vector, broadcast along the rows and read at (r, j). -/
theorem v98_at (x21 : (⟨S80, .f32⟩ : BufTy).Contents (Elt Ideal)) (r : Fin 100000) (j : Fin 80) :
    val_main_v98 (F := Ideal) x21 (ix2 r j) = Ideal.rsqrt (vecOf x21 j + Ideal.ofBits .f32 0x3727C5AC#32) := by
  rewrite [val_main_v98_apply, val_main_v97_apply, val_main_v96_apply, val_main_v95_apply, val_main_v94_apply, val_main_cst_10_apply]
  exact congrArg (fun t => Ideal.rsqrt (x21 t + Ideal.ofBits .f32 0x3727C5AC#32)) idx1

/-- The gain, broadcast along the rows and read at (r, j): the vector at j. -/
theorem v101_at (x18 : (⟨S80, .f32⟩ : BufTy).Contents (Elt Ideal)) (r : Fin 100000) (j : Fin 80) :
    val_main_v101 (F := Ideal) x18 (ix2 r j) = vecOf x18 j := by
  rewrite [val_main_v101_apply, val_main_v100_apply]
  exact congrArg x18 idx1

/-- The shift, broadcast along the rows and read at (r, j): the vector at j. -/
theorem v104_at (x19 : (⟨S80, .f32⟩ : BufTy).Contents (Elt Ideal)) (r : Fin 100000) (j : Fin 80) :
    val_main_v104 (F := Ideal) x19 (ix2 r j) = vecOf x19 j := by
  rewrite [val_main_v104_apply, val_main_v103_apply]
  exact congrArg x19 idx1

/-- The clamp's zero, broadcast to the whole array, read anywhere. -/
theorem c2_at (r : Fin 100000) (j : Fin 80) :
    val_main_call2_v0 (F := Ideal) (ix2 r j) = Ideal.ofBits .f32 0x00000000#32 := by
  rewrite [val_main_call2_v0_apply, val_main_call2_cst_apply]
  rfl

/-- The head's first hidden array at (r, j). -/
theorem dense0 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S80x384, .f32⟩ : BufTy).Contents (Elt Ideal)) (x17 : (⟨S80, .f32⟩ : BufTy).Contents (Elt Ideal)) (x18 : (⟨S80, .f32⟩ : BufTy).Contents (Elt Ideal)) (x19 : (⟨S80, .f32⟩ : BufTy).Contents (Elt Ideal)) (x20 : (⟨S80, .f32⟩ : BufTy).Contents (Elt Ideal)) (x21 : (⟨S80, .f32⟩ : BufTy).Contents (Elt Ideal))
    (r : Fin 100000) (j : Fin 80) :
    val_main_v106 (F := Ideal) x0 x1 x2 x3 x4 x5 x6 x7 x8 x9 x10 x11 x12 x13 x14 x15 x16 x17 x18 x19 x20 x21 (ix2 r j)
      = denseRow (rowOf (val_main_v85 (F := Ideal) x0 x1 x2 x3 x4 x5 x6 x7 x8 x9 x10 x11 x12 x13 x14 x15) r) (matOf (val_main_v86 (F := Ideal) x16)) (vecOf x17) (vecOf x18) (vecOf x19) (vecOf x20) (vecOf x21) j := by
  rewrite [val_main_v106_apply, val_main_v105_apply, val_main_v102_apply, val_main_v99_apply, val_main_v93_apply, val_main_v90_apply,
    v87_at, v89_at, v92_at, v98_at, v101_at, v104_at, c2_at]
  rfl

/-- Row r of the head's first hidden array. -/
theorem row106 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S80x384, .f32⟩ : BufTy).Contents (Elt Ideal)) (x17 : (⟨S80, .f32⟩ : BufTy).Contents (Elt Ideal)) (x18 : (⟨S80, .f32⟩ : BufTy).Contents (Elt Ideal)) (x19 : (⟨S80, .f32⟩ : BufTy).Contents (Elt Ideal)) (x20 : (⟨S80, .f32⟩ : BufTy).Contents (Elt Ideal)) (x21 : (⟨S80, .f32⟩ : BufTy).Contents (Elt Ideal))
    (r : Fin 100000) :
    rowOf (val_main_v106 (F := Ideal) x0 x1 x2 x3 x4 x5 x6 x7 x8 x9 x10 x11 x12 x13 x14 x15 x16 x17 x18 x19 x20 x21) r
      = denseRow (rowOf (val_main_v85 (F := Ideal) x0 x1 x2 x3 x4 x5 x6 x7 x8 x9 x10 x11 x12 x13 x14 x15) r) (matOf (val_main_v86 (F := Ideal) x16)) (vecOf x17) (vecOf x18) (vecOf x19) (vecOf x20) (vecOf x21) :=
  funext fun j => dense0 x0 x1 x2 x3 x4 x5 x6 x7 x8 x9 x10 x11 x12 x13 x14 x15 x16 x17 x18 x19 x20 x21 r j

/-! ## The head's second layer -/

/-- The first hidden row through the second head weight. -/
theorem v108_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S80x384, .f32⟩ : BufTy).Contents (Elt Ideal)) (x17 : (⟨S80, .f32⟩ : BufTy).Contents (Elt Ideal)) (x18 : (⟨S80, .f32⟩ : BufTy).Contents (Elt Ideal)) (x19 : (⟨S80, .f32⟩ : BufTy).Contents (Elt Ideal)) (x20 : (⟨S80, .f32⟩ : BufTy).Contents (Elt Ideal)) (x21 : (⟨S80, .f32⟩ : BufTy).Contents (Elt Ideal)) (x22 : (⟨S80x80, .f32⟩ : BufTy).Contents (Elt Ideal))
    (r : Fin 100000) (j : Fin 80) :
    val_main_v108 (F := Ideal) x0 x1 x2 x3 x4 x5 x6 x7 x8 x9 x10 x11 x12 x13 x14 x15 x16 x17 x18 x19 x20 x21 x22 (ix2 r j)
      = rowMul (rowOf (val_main_v106 (F := Ideal) x0 x1 x2 x3 x4 x5 x6 x7 x8 x9 x10 x11 x12 x13 x14 x15 x16 x17 x18 x19 x20 x21) r) (matOf (val_main_v107 (F := Ideal) x22)) j := by
  rewrite [val_main_v108_apply]
  exact sum_rowMul (val_main_v106 (F := Ideal) x0 x1 x2 x3 x4 x5 x6 x7 x8 x9 x10 x11 x12 x13 x14 x15 x16 x17 x18 x19 x20 x21) (val_main_v107 (F := Ideal) x22) r j _ _ (fun _ => idx2) (fun _ => idx2)

/-- The bias, broadcast along the rows and read at (r, j): the vector at j. -/
theorem v110_at (x23 : (⟨S80, .f32⟩ : BufTy).Contents (Elt Ideal)) (r : Fin 100000) (j : Fin 80) :
    val_main_v110 (F := Ideal) x23 (ix2 r j) = vecOf x23 j := by
  rewrite [val_main_v110_apply, val_main_v109_apply]
  exact congrArg x23 idx1

/-- The running mean, broadcast along the rows and read at (r, j): the vector at j. -/
theorem v113_at (x26 : (⟨S80, .f32⟩ : BufTy).Contents (Elt Ideal)) (r : Fin 100000) (j : Fin 80) :
    val_main_v113 (F := Ideal) x26 (ix2 r j) = vecOf x26 j := by
  rewrite [val_main_v113_apply, val_main_v112_apply]
  exact congrArg x26 idx1

/-- The inverse root of (running variance + ε), computed on the vector, broadcast along the rows and read at (r, j). -/
theorem v119_at (x27 : (⟨S80, .f32⟩ : BufTy).Contents (Elt Ideal)) (r : Fin 100000) (j : Fin 80) :
    val_main_v119 (F := Ideal) x27 (ix2 r j) = Ideal.rsqrt (vecOf x27 j + Ideal.ofBits .f32 0x3727C5AC#32) := by
  rewrite [val_main_v119_apply, val_main_v118_apply, val_main_v117_apply, val_main_v116_apply, val_main_v115_apply, val_main_cst_11_apply]
  exact congrArg (fun t => Ideal.rsqrt (x27 t + Ideal.ofBits .f32 0x3727C5AC#32)) idx1

/-- The gain, broadcast along the rows and read at (r, j): the vector at j. -/
theorem v122_at (x24 : (⟨S80, .f32⟩ : BufTy).Contents (Elt Ideal)) (r : Fin 100000) (j : Fin 80) :
    val_main_v122 (F := Ideal) x24 (ix2 r j) = vecOf x24 j := by
  rewrite [val_main_v122_apply, val_main_v121_apply]
  exact congrArg x24 idx1

/-- The shift, broadcast along the rows and read at (r, j): the vector at j. -/
theorem v125_at (x25 : (⟨S80, .f32⟩ : BufTy).Contents (Elt Ideal)) (r : Fin 100000) (j : Fin 80) :
    val_main_v125 (F := Ideal) x25 (ix2 r j) = vecOf x25 j := by
  rewrite [val_main_v125_apply, val_main_v124_apply]
  exact congrArg x25 idx1

/-- The clamp's zero, broadcast to the whole array, read anywhere. -/
theorem c3_at (r : Fin 100000) (j : Fin 80) :
    val_main_call3_v0 (F := Ideal) (ix2 r j) = Ideal.ofBits .f32 0x00000000#32 := by
  rewrite [val_main_call3_v0_apply, val_main_call3_cst_apply]
  rfl

/-- The head's second hidden array at (r, j). -/
theorem dense1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S80x384, .f32⟩ : BufTy).Contents (Elt Ideal)) (x17 : (⟨S80, .f32⟩ : BufTy).Contents (Elt Ideal)) (x18 : (⟨S80, .f32⟩ : BufTy).Contents (Elt Ideal)) (x19 : (⟨S80, .f32⟩ : BufTy).Contents (Elt Ideal)) (x20 : (⟨S80, .f32⟩ : BufTy).Contents (Elt Ideal)) (x21 : (⟨S80, .f32⟩ : BufTy).Contents (Elt Ideal)) (x22 : (⟨S80x80, .f32⟩ : BufTy).Contents (Elt Ideal)) (x23 : (⟨S80, .f32⟩ : BufTy).Contents (Elt Ideal)) (x24 : (⟨S80, .f32⟩ : BufTy).Contents (Elt Ideal)) (x25 : (⟨S80, .f32⟩ : BufTy).Contents (Elt Ideal)) (x26 : (⟨S80, .f32⟩ : BufTy).Contents (Elt Ideal)) (x27 : (⟨S80, .f32⟩ : BufTy).Contents (Elt Ideal))
    (r : Fin 100000) (j : Fin 80) :
    val_main_v127 (F := Ideal) x0 x1 x2 x3 x4 x5 x6 x7 x8 x9 x10 x11 x12 x13 x14 x15 x16 x17 x18 x19 x20 x21 x22 x23 x24 x25 x26 x27 (ix2 r j)
      = denseRow (rowOf (val_main_v106 (F := Ideal) x0 x1 x2 x3 x4 x5 x6 x7 x8 x9 x10 x11 x12 x13 x14 x15 x16 x17 x18 x19 x20 x21) r) (matOf (val_main_v107 (F := Ideal) x22)) (vecOf x23) (vecOf x24) (vecOf x25) (vecOf x26) (vecOf x27) j := by
  rewrite [val_main_v127_apply, val_main_v126_apply, val_main_v123_apply, val_main_v120_apply, val_main_v114_apply, val_main_v111_apply,
    v108_at, v110_at, v113_at, v119_at, v122_at, v125_at, c3_at]
  rfl

/-- Row r of the head's second hidden array. -/
theorem row127 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S80x384, .f32⟩ : BufTy).Contents (Elt Ideal)) (x17 : (⟨S80, .f32⟩ : BufTy).Contents (Elt Ideal)) (x18 : (⟨S80, .f32⟩ : BufTy).Contents (Elt Ideal)) (x19 : (⟨S80, .f32⟩ : BufTy).Contents (Elt Ideal)) (x20 : (⟨S80, .f32⟩ : BufTy).Contents (Elt Ideal)) (x21 : (⟨S80, .f32⟩ : BufTy).Contents (Elt Ideal)) (x22 : (⟨S80x80, .f32⟩ : BufTy).Contents (Elt Ideal)) (x23 : (⟨S80, .f32⟩ : BufTy).Contents (Elt Ideal)) (x24 : (⟨S80, .f32⟩ : BufTy).Contents (Elt Ideal)) (x25 : (⟨S80, .f32⟩ : BufTy).Contents (Elt Ideal)) (x26 : (⟨S80, .f32⟩ : BufTy).Contents (Elt Ideal)) (x27 : (⟨S80, .f32⟩ : BufTy).Contents (Elt Ideal))
    (r : Fin 100000) :
    rowOf (val_main_v127 (F := Ideal) x0 x1 x2 x3 x4 x5 x6 x7 x8 x9 x10 x11 x12 x13 x14 x15 x16 x17 x18 x19 x20 x21 x22 x23 x24 x25 x26 x27) r
      = denseRow (rowOf (val_main_v106 (F := Ideal) x0 x1 x2 x3 x4 x5 x6 x7 x8 x9 x10 x11 x12 x13 x14 x15 x16 x17 x18 x19 x20 x21) r) (matOf (val_main_v107 (F := Ideal) x22)) (vecOf x23) (vecOf x24) (vecOf x25) (vecOf x26) (vecOf x27) :=
  funext fun j => dense1 x0 x1 x2 x3 x4 x5 x6 x7 x8 x9 x10 x11 x12 x13 x14 x15 x16 x17 x18 x19 x20 x21 x22 x23 x24 x25 x26 x27 r j

/-! ## The last affine layer and the whole head -/

/-- The second hidden row through the last weight. -/
theorem v129_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S80x384, .f32⟩ : BufTy).Contents (Elt Ideal)) (x17 : (⟨S80, .f32⟩ : BufTy).Contents (Elt Ideal)) (x18 : (⟨S80, .f32⟩ : BufTy).Contents (Elt Ideal)) (x19 : (⟨S80, .f32⟩ : BufTy).Contents (Elt Ideal)) (x20 : (⟨S80, .f32⟩ : BufTy).Contents (Elt Ideal)) (x21 : (⟨S80, .f32⟩ : BufTy).Contents (Elt Ideal)) (x22 : (⟨S80x80, .f32⟩ : BufTy).Contents (Elt Ideal)) (x23 : (⟨S80, .f32⟩ : BufTy).Contents (Elt Ideal)) (x24 : (⟨S80, .f32⟩ : BufTy).Contents (Elt Ideal)) (x25 : (⟨S80, .f32⟩ : BufTy).Contents (Elt Ideal)) (x26 : (⟨S80, .f32⟩ : BufTy).Contents (Elt Ideal)) (x27 : (⟨S80, .f32⟩ : BufTy).Contents (Elt Ideal)) (x28 : (⟨S40x80, .f32⟩ : BufTy).Contents (Elt Ideal))
    (r : Fin 100000) (j : Fin 40) :
    val_main_v129 (F := Ideal) x0 x1 x2 x3 x4 x5 x6 x7 x8 x9 x10 x11 x12 x13 x14 x15 x16 x17 x18 x19 x20 x21 x22 x23 x24 x25 x26 x27 x28 (ix2 r j)
      = rowMul (rowOf (val_main_v127 (F := Ideal) x0 x1 x2 x3 x4 x5 x6 x7 x8 x9 x10 x11 x12 x13 x14 x15 x16 x17 x18 x19 x20 x21 x22 x23 x24 x25 x26 x27) r) (matOf (val_main_v128 (F := Ideal) x28)) j := by
  rewrite [val_main_v129_apply]
  exact sum_rowMul (val_main_v127 (F := Ideal) x0 x1 x2 x3 x4 x5 x6 x7 x8 x9 x10 x11 x12 x13 x14 x15 x16 x17 x18 x19 x20 x21 x22 x23 x24 x25 x26 x27) (val_main_v128 (F := Ideal) x28) r j _ _ (fun _ => idx2) (fun _ => idx2)

/-- The last bias, broadcast along the rows and read at (r, j): the vector at j. -/
theorem v131_at (x29 : (⟨S40, .f32⟩ : BufTy).Contents (Elt Ideal)) (r : Fin 100000) (j : Fin 40) :
    val_main_v131 (F := Ideal) x29 (ix2 r j) = vecOf x29 j := by
  rewrite [val_main_v131_apply, val_main_v130_apply]
  exact congrArg x29 idx1

/-- **The result at (r, j)** is the head's output row of node r at j: the last affine layer on the row of the second
    hidden array, which is the second normalised layer on the row of the first, which is the first on the joined row. -/
theorem out (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S80x384, .f32⟩ : BufTy).Contents (Elt Ideal)) (x17 : (⟨S80, .f32⟩ : BufTy).Contents (Elt Ideal)) (x18 : (⟨S80, .f32⟩ : BufTy).Contents (Elt Ideal)) (x19 : (⟨S80, .f32⟩ : BufTy).Contents (Elt Ideal)) (x20 : (⟨S80, .f32⟩ : BufTy).Contents (Elt Ideal)) (x21 : (⟨S80, .f32⟩ : BufTy).Contents (Elt Ideal)) (x22 : (⟨S80x80, .f32⟩ : BufTy).Contents (Elt Ideal)) (x23 : (⟨S80, .f32⟩ : BufTy).Contents (Elt Ideal)) (x24 : (⟨S80, .f32⟩ : BufTy).Contents (Elt Ideal)) (x25 : (⟨S80, .f32⟩ : BufTy).Contents (Elt Ideal)) (x26 : (⟨S80, .f32⟩ : BufTy).Contents (Elt Ideal)) (x27 : (⟨S80, .f32⟩ : BufTy).Contents (Elt Ideal)) (x28 : (⟨S40x80, .f32⟩ : BufTy).Contents (Elt Ideal)) (x29 : (⟨S40, .f32⟩ : BufTy).Contents (Elt Ideal))
    (r : Fin 100000) (j : Fin 40) :
    val_main_v132 (F := Ideal) x0 x1 x2 x3 x4 x5 x6 x7 x8 x9 x10 x11 x12 x13 x14 x15 x16 x17 x18 x19 x20 x21 x22 x23 x24 x25 x26 x27 x28 x29 (ix2 r j)
      = outRow (rowOf x0 r) (rowOf (val_main_v45 (F := Ideal) x0 x1 x2 x3 x6 x7 x8 x9) r) (rowOf (val_main_v51 (F := Ideal) x0 x1 x2 x3 x6 x7 x8 x9 x14 x15) r)
          (rowOf (val_main_v63 (F := Ideal) x0 x1 x2 x3 x6 x7 x8 x9 x14 x15) r)
          (matOf (val_main_v64 (F := Ideal) x4)) (matOf (val_main_v66 (F := Ideal) x5)) (vecOf x10) (vecOf x11) (vecOf x12) (vecOf x13)
          (matOf (val_main_v86 (F := Ideal) x16)) (vecOf x17) (vecOf x18) (vecOf x19) (vecOf x20) (vecOf x21)
          (matOf (val_main_v107 (F := Ideal) x22)) (vecOf x23) (vecOf x24) (vecOf x25) (vecOf x26) (vecOf x27)
          (matOf (val_main_v128 (F := Ideal) x28)) (vecOf x29) j := by
  rewrite [val_main_v132_apply, v129_at, v131_at, row127, row106, row85, row84]
  rfl

end Cert.Sage.Ref

end
-- ==== Proof.RefArrays.lean ====
/-
  The reference program as whole arrays.

  Read one row at a time (the module of row theorems) each stage is the per-row function of the specification; here the
  rows are put back together: each of the three stages is the array-level function of its operands, a vector operand
  entering as the 1 × n array it is reshaped to, and the program's result is the network function of the program's
  arguments, the neighbourhood mean entering as the one map that sends an array to its mean over the edges.
-/
import proofs.«175949_j1623497638158_1_alg».proof.Proof.RefRows
import proofs.«175949_j1623497638158_1_alg».proof.Proof.Net
import Idealize.ShloMosaic.Lib.Pipeline.Value

noncomputable section

open scoped BigOperators

namespace Cert.Sage.Ref

open Cert.ReferenceIdeal Cert.ReferenceIdeal.Read Cert.Sage Idealize.ShloMosaic Idealize.ShloMosaic.ValueIdx Idealize.SL.Sem Idealize.ShloMosaic.TcCoe

/-! ## A vector reshaped to one row -/

/-- A vector of n entries reshaped to a 1 × n array reads back, along its single row, as the vector itself. -/
theorem vec2Of_shapeCast {n : Nat} (x : (⟨1, ![n]⟩ : Shape).Idx → EReal) (h : (⟨1, ![n]⟩ : Shape).ShapeCasts ⟨2, ![1, n]⟩) :
    vec2Of (shapeCast ⟨2, ![1, n]⟩ x h) = vecOf x :=
  funext fun j => (shapeCast_addUnit_apply ![n] x h (ix2 (0 : Fin 1) j)).trans
    (congrArg x (funext fun a => by match a with | ⟨0, _⟩ => rfl))

/-! ## The three stages as arrays -/

/-- The first hidden array is the first layer's array function of the node features, their neighbourhood mean, the two
    weights and the four normalisation vectors (each as a 1 × 128 array). -/
theorem hidden_arr (h128 : S128.ShapeCasts S1x128) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) :
    val_main_v45 (F := Ideal) x0 x1 x2 x3 x6 x7 x8 x9
      = hiddenArr x0 (val_main_v24 (F := Ideal) x0 x1) (val_main_v25 (F := Ideal) x2) (val_main_v27 (F := Ideal) x3)
          (shapeCast S1x128 x6 h128) (shapeCast S1x128 x7 h128) (shapeCast S1x128 x8 h128) (shapeCast S1x128 x9 h128) := by
  funext i
  obtain ⟨r, j, rfl⟩ : ∃ (r : Fin 100000) (j : Fin 128), i = ix2 r j := ⟨i 0, i 1, eq_ix2 i⟩
  rewrite [hidden0]
  unfold hiddenArr
  rewrite [vec2Of_shapeCast x6 h128, vec2Of_shapeCast x7 h128, vec2Of_shapeCast x8 h128, vec2Of_shapeCast x9 h128]
  rfl

/-- The array passed to the second layer is the array function of the first hidden array and the node features. -/
theorem resid_arr (h128 : S128.ShapeCasts S1x128) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal)) :
    val_main_v51 (F := Ideal) x0 x1 x2 x3 x6 x7 x8 x9 x14 x15
      = residArr (val_main_v45 (F := Ideal) x0 x1 x2 x3 x6 x7 x8 x9) x0 (val_main_v46 (F := Ideal) x14) (shapeCast S1x128 x15 h128) := by
  funext i
  obtain ⟨r, j, rfl⟩ : ∃ (r : Fin 100000) (j : Fin 128), i = ix2 r j := ⟨i 0, i 1, eq_ix2 i⟩
  rewrite [resid0]
  unfold residArr
  rewrite [vec2Of_shapeCast x15 h128]
  rfl

/-- The result is the head's array function of the node features, the first hidden array, the second layer's input and
    its neighbourhood mean. -/
theorem out_arr (h128 : S128.ShapeCasts S1x128) (h80 : S80.ShapeCasts S1x80) (h40 : S40.ShapeCasts S1x40) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S80x384, .f32⟩ : BufTy).Contents (Elt Ideal)) (x17 : (⟨S80, .f32⟩ : BufTy).Contents (Elt Ideal)) (x18 : (⟨S80, .f32⟩ : BufTy).Contents (Elt Ideal)) (x19 : (⟨S80, .f32⟩ : BufTy).Contents (Elt Ideal)) (x20 : (⟨S80, .f32⟩ : BufTy).Contents (Elt Ideal)) (x21 : (⟨S80, .f32⟩ : BufTy).Contents (Elt Ideal)) (x22 : (⟨S80x80, .f32⟩ : BufTy).Contents (Elt Ideal)) (x23 : (⟨S80, .f32⟩ : BufTy).Contents (Elt Ideal)) (x24 : (⟨S80, .f32⟩ : BufTy).Contents (Elt Ideal)) (x25 : (⟨S80, .f32⟩ : BufTy).Contents (Elt Ideal)) (x26 : (⟨S80, .f32⟩ : BufTy).Contents (Elt Ideal)) (x27 : (⟨S80, .f32⟩ : BufTy).Contents (Elt Ideal)) (x28 : (⟨S40x80, .f32⟩ : BufTy).Contents (Elt Ideal)) (x29 : (⟨S40, .f32⟩ : BufTy).Contents (Elt Ideal)) :
    val_main_v132 (F := Ideal) x0 x1 x2 x3 x4 x5 x6 x7 x8 x9 x10 x11 x12 x13 x14 x15 x16 x17 x18 x19 x20 x21 x22 x23 x24 x25 x26 x27 x28 x29
      = outArr x0 (val_main_v45 (F := Ideal) x0 x1 x2 x3 x6 x7 x8 x9) (val_main_v51 (F := Ideal) x0 x1 x2 x3 x6 x7 x8 x9 x14 x15)
          (val_main_v63 (F := Ideal) x0 x1 x2 x3 x6 x7 x8 x9 x14 x15)
          (val_main_v64 (F := Ideal) x4) (val_main_v66 (F := Ideal) x5) (shapeCast S1x128 x10 h128) (shapeCast S1x128 x11 h128) (shapeCast S1x128 x12 h128) (shapeCast S1x128 x13 h128)
          (val_main_v86 (F := Ideal) x16) (shapeCast S1x80 x17 h80) (shapeCast S1x80 x18 h80) (shapeCast S1x80 x19 h80) (shapeCast S1x80 x20 h80) (shapeCast S1x80 x21 h80)
          (val_main_v107 (F := Ideal) x22) (shapeCast S1x80 x23 h80) (shapeCast S1x80 x24 h80) (shapeCast S1x80 x25 h80) (shapeCast S1x80 x26 h80) (shapeCast S1x80 x27 h80)
          (val_main_v128 (F := Ideal) x28) (shapeCast S1x40 x29 h40) := by
  funext i
  obtain ⟨r, j, rfl⟩ : ∃ (r : Fin 100000) (j : Fin 40), i = ix2 r j := ⟨i 0, i 1, eq_ix2 i⟩
  rewrite [out]
  unfold outArr
  rewrite [vec2Of_shapeCast x10 h128, vec2Of_shapeCast x11 h128, vec2Of_shapeCast x12 h128, vec2Of_shapeCast x13 h128, vec2Of_shapeCast x17 h80, vec2Of_shapeCast x18 h80, vec2Of_shapeCast x19 h80, vec2Of_shapeCast x20 h80, vec2Of_shapeCast x21 h80, vec2Of_shapeCast x23 h80, vec2Of_shapeCast x24 h80, vec2Of_shapeCast x25 h80, vec2Of_shapeCast x26 h80, vec2Of_shapeCast x27 h80, vec2Of_shapeCast x29 h40]
  rfl

/-! ## The second neighbourhood mean -/

/-- The neighbourhood mean of the second layer's input is the first layer's mean stage applied to that array: the same
    chain of operations on the same edges, by unfolding both. -/
theorem v63_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal)) :
    val_main_v63 (F := Ideal) x0 x1 x2 x3 x6 x7 x8 x9 x14 x15
      = val_main_v24 (F := Ideal) (val_main_v51 (F := Ideal) x0 x1 x2 x3 x6 x7 x8 x9 x14 x15) x1 := rfl

/-! ## The program's result -/

/-- **The reference program's result** is the network function of its arguments, with the neighbourhood mean over the
    program's edge list as the aggregation map. -/
theorem ref_value (m : (ℓ : Loc nD τ sig) → Buf (Elt Ideal) ℓ) (c : Dev nD)
    (h128 : S128.ShapeCasts S1x128) (h80 : S80.ShapeCasts S1x80) (h40 : S40.ShapeCasts S1x40) :
    Cert.ReferenceIdeal.Value.res_main_v132 m c
      = netArr (fun X => val_main_v24 (F := Ideal) X (m ((c.tc : Thread nD τ).loc main_arg1))) (m ((c.tc : Thread nD τ).loc main_arg0))
          (val_main_v25 (F := Ideal) (m ((c.tc : Thread nD τ).loc main_arg2))) (val_main_v27 (F := Ideal) (m ((c.tc : Thread nD τ).loc main_arg3)))
          (shapeCast S1x128 (m ((c.tc : Thread nD τ).loc main_arg6)) h128) (shapeCast S1x128 (m ((c.tc : Thread nD τ).loc main_arg7)) h128) (shapeCast S1x128 (m ((c.tc : Thread nD τ).loc main_arg8)) h128) (shapeCast S1x128 (m ((c.tc : Thread nD τ).loc main_arg9)) h128)
          (val_main_v46 (F := Ideal) (m ((c.tc : Thread nD τ).loc main_arg14))) (shapeCast S1x128 (m ((c.tc : Thread nD τ).loc main_arg15)) h128)
          (val_main_v64 (F := Ideal) (m ((c.tc : Thread nD τ).loc main_arg4))) (val_main_v66 (F := Ideal) (m ((c.tc : Thread nD τ).loc main_arg5)))
          (shapeCast S1x128 (m ((c.tc : Thread nD τ).loc main_arg10)) h128) (shapeCast S1x128 (m ((c.tc : Thread nD τ).loc main_arg11)) h128) (shapeCast S1x128 (m ((c.tc : Thread nD τ).loc main_arg12)) h128) (shapeCast S1x128 (m ((c.tc : Thread nD τ).loc main_arg13)) h128)
          (val_main_v86 (F := Ideal) (m ((c.tc : Thread nD τ).loc main_arg16))) (shapeCast S1x80 (m ((c.tc : Thread nD τ).loc main_arg17)) h80) (shapeCast S1x80 (m ((c.tc : Thread nD τ).loc main_arg18)) h80) (shapeCast S1x80 (m ((c.tc : Thread nD τ).loc main_arg19)) h80) (shapeCast S1x80 (m ((c.tc : Thread nD τ).loc main_arg20)) h80) (shapeCast S1x80 (m ((c.tc : Thread nD τ).loc main_arg21)) h80)
          (val_main_v107 (F := Ideal) (m ((c.tc : Thread nD τ).loc main_arg22))) (shapeCast S1x80 (m ((c.tc : Thread nD τ).loc main_arg23)) h80) (shapeCast S1x80 (m ((c.tc : Thread nD τ).loc main_arg24)) h80) (shapeCast S1x80 (m ((c.tc : Thread nD τ).loc main_arg25)) h80) (shapeCast S1x80 (m ((c.tc : Thread nD τ).loc main_arg26)) h80) (shapeCast S1x80 (m ((c.tc : Thread nD τ).loc main_arg27)) h80)
          (val_main_v128 (F := Ideal) (m ((c.tc : Thread nD τ).loc main_arg28))) (shapeCast S1x40 (m ((c.tc : Thread nD τ).loc main_arg29)) h40) := by
  rewrite [val_main_v132_eq]
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  generalize m ((c.tc : Thread nD τ).loc main_arg5) = x5
  generalize m ((c.tc : Thread nD τ).loc main_arg6) = x6
  generalize m ((c.tc : Thread nD τ).loc main_arg7) = x7
  generalize m ((c.tc : Thread nD τ).loc main_arg8) = x8
  generalize m ((c.tc : Thread nD τ).loc main_arg9) = x9
  generalize m ((c.tc : Thread nD τ).loc main_arg10) = x10
  generalize m ((c.tc : Thread nD τ).loc main_arg11) = x11
  generalize m ((c.tc : Thread nD τ).loc main_arg12) = x12
  generalize m ((c.tc : Thread nD τ).loc main_arg13) = x13
  generalize m ((c.tc : Thread nD τ).loc main_arg14) = x14
  generalize m ((c.tc : Thread nD τ).loc main_arg15) = x15
  generalize m ((c.tc : Thread nD τ).loc main_arg16) = x16
  generalize m ((c.tc : Thread nD τ).loc main_arg17) = x17
  generalize m ((c.tc : Thread nD τ).loc main_arg18) = x18
  generalize m ((c.tc : Thread nD τ).loc main_arg19) = x19
  generalize m ((c.tc : Thread nD τ).loc main_arg20) = x20
  generalize m ((c.tc : Thread nD τ).loc main_arg21) = x21
  generalize m ((c.tc : Thread nD τ).loc main_arg22) = x22
  generalize m ((c.tc : Thread nD τ).loc main_arg23) = x23
  generalize m ((c.tc : Thread nD τ).loc main_arg24) = x24
  generalize m ((c.tc : Thread nD τ).loc main_arg25) = x25
  generalize m ((c.tc : Thread nD τ).loc main_arg26) = x26
  generalize m ((c.tc : Thread nD τ).loc main_arg27) = x27
  generalize m ((c.tc : Thread nD τ).loc main_arg28) = x28
  generalize m ((c.tc : Thread nD τ).loc main_arg29) = x29
  rewrite [out_arr h128 h80 h40, v63_eq, resid_arr h128, hidden_arr h128]
  rfl

end Cert.Sage.Ref

end
-- ==== Proof.NetOfArgs.lean ====
/-
  The network function with every operand produced from the thirty argument arrays: the neighbourhood mean over the edge
  array, the weight matrices transposed, the vectors reshaped to rows.  Both programs' results are this function of their
  arguments; it depends on them only through their values, so two launches that agree on the arguments get the same array.
-/
import proofs.«175949_j1623497638158_1_alg».proof.Proof.Gen.ReferenceIdeal.Read
import proofs.«175949_j1623497638158_1_alg».proof.Proof.Net

noncomputable section

namespace Cert.Sage

open Cert.ReferenceIdeal Cert.ReferenceIdeal.Read Idealize.ShloMosaic

/-- The result array as a function of the argument arrays. -/
def netOfArgs (h128 : S128.ShapeCasts S1x128) (h80 : S80.ShapeCasts S1x80) (h40 : S40.ShapeCasts S1x40)
    (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128x128, .f32⟩ : BufTy).Contents (Elt Ideal))
    (x4 : (⟨S128x128, .f32⟩ : BufTy).Contents (Elt Ideal))
    (x5 : (⟨S128x128, .f32⟩ : BufTy).Contents (Elt Ideal))
    (x6 : (⟨S128, .f32⟩ : BufTy).Contents (Elt Ideal))
    (x7 : (⟨S128, .f32⟩ : BufTy).Contents (Elt Ideal))
    (x8 : (⟨S128, .f32⟩ : BufTy).Contents (Elt Ideal))
    (x9 : (⟨S128, .f32⟩ : BufTy).Contents (Elt Ideal))
    (x10 : (⟨S128, .f32⟩ : BufTy).Contents (Elt Ideal))
    (x11 : (⟨S128, .f32⟩ : BufTy).Contents (Elt Ideal))
    (x12 : (⟨S128, .f32⟩ : BufTy).Contents (Elt Ideal))
    (x13 : (⟨S128, .f32⟩ : BufTy).Contents (Elt Ideal))
    (x14 : (⟨S128x128, .f32⟩ : BufTy).Contents (Elt Ideal))
    (x15 : (⟨S128, .f32⟩ : BufTy).Contents (Elt Ideal))
    (x16 : (⟨S80x384, .f32⟩ : BufTy).Contents (Elt Ideal))
    (x17 : (⟨S80, .f32⟩ : BufTy).Contents (Elt Ideal))
    (x18 : (⟨S80, .f32⟩ : BufTy).Contents (Elt Ideal))
    (x19 : (⟨S80, .f32⟩ : BufTy).Contents (Elt Ideal))
    (x20 : (⟨S80, .f32⟩ : BufTy).Contents (Elt Ideal))
    (x21 : (⟨S80, .f32⟩ : BufTy).Contents (Elt Ideal))
    (x22 : (⟨S80x80, .f32⟩ : BufTy).Contents (Elt Ideal))
    (x23 : (⟨S80, .f32⟩ : BufTy).Contents (Elt Ideal))
    (x24 : (⟨S80, .f32⟩ : BufTy).Contents (Elt Ideal))
    (x25 : (⟨S80, .f32⟩ : BufTy).Contents (Elt Ideal))
    (x26 : (⟨S80, .f32⟩ : BufTy).Contents (Elt Ideal))
    (x27 : (⟨S80, .f32⟩ : BufTy).Contents (Elt Ideal))
    (x28 : (⟨S40x80, .f32⟩ : BufTy).Contents (Elt Ideal))
    (x29 : (⟨S40, .f32⟩ : BufTy).Contents (Elt Ideal)) :
    (⟨2, ![100000, 40]⟩ : Shape).Idx → EReal :=
  netArr (fun X => val_main_v24 (F := Ideal) X x1) x0
    (val_main_v25 (F := Ideal) x2) (val_main_v27 (F := Ideal) x3) (shapeCast S1x128 x6 h128) (shapeCast S1x128 x7 h128) (shapeCast S1x128 x8 h128) (shapeCast S1x128 x9 h128)
    (val_main_v46 (F := Ideal) x14) (shapeCast S1x128 x15 h128)
    (val_main_v64 (F := Ideal) x4) (val_main_v66 (F := Ideal) x5) (shapeCast S1x128 x10 h128) (shapeCast S1x128 x11 h128) (shapeCast S1x128 x12 h128) (shapeCast S1x128 x13 h128)
    (val_main_v86 (F := Ideal) x16) (shapeCast S1x80 x17 h80) (shapeCast S1x80 x18 h80) (shapeCast S1x80 x19 h80) (shapeCast S1x80 x20 h80) (shapeCast S1x80 x21 h80)
    (val_main_v107 (F := Ideal) x22) (shapeCast S1x80 x23 h80) (shapeCast S1x80 x24 h80) (shapeCast S1x80 x25 h80) (shapeCast S1x80 x26 h80) (shapeCast S1x80 x27 h80)
    (val_main_v128 (F := Ideal) x28) (shapeCast S1x40 x29 h40)

/-- Equal arguments give equal results. -/
theorem netOfArgs_congr (h128 : S128.ShapeCasts S1x128) (h80 : S80.ShapeCasts S1x80) (h40 : S40.ShapeCasts S1x40)
    {x0 y0 : (⟨S100000x128, .f32⟩ : BufTy).Contents (Elt Ideal)}
    {x1 y1 : (⟨S2x1600000, .i32⟩ : BufTy).Contents (Elt Ideal)}
    {x2 y2 : (⟨S128x128, .f32⟩ : BufTy).Contents (Elt Ideal)}
    {x3 y3 : (⟨S128x128, .f32⟩ : BufTy).Contents (Elt Ideal)}
    {x4 y4 : (⟨S128x128, .f32⟩ : BufTy).Contents (Elt Ideal)}
    {x5 y5 : (⟨S128x128, .f32⟩ : BufTy).Contents (Elt Ideal)}
    {x6 y6 : (⟨S128, .f32⟩ : BufTy).Contents (Elt Ideal)}
    {x7 y7 : (⟨S128, .f32⟩ : BufTy).Contents (Elt Ideal)}
    {x8 y8 : (⟨S128, .f32⟩ : BufTy).Contents (Elt Ideal)}
    {x9 y9 : (⟨S128, .f32⟩ : BufTy).Contents (Elt Ideal)}
    {x10 y10 : (⟨S128, .f32⟩ : BufTy).Contents (Elt Ideal)}
    {x11 y11 : (⟨S128, .f32⟩ : BufTy).Contents (Elt Ideal)}
    {x12 y12 : (⟨S128, .f32⟩ : BufTy).Contents (Elt Ideal)}
    {x13 y13 : (⟨S128, .f32⟩ : BufTy).Contents (Elt Ideal)}
    {x14 y14 : (⟨S128x128, .f32⟩ : BufTy).Contents (Elt Ideal)}
    {x15 y15 : (⟨S128, .f32⟩ : BufTy).Contents (Elt Ideal)}
    {x16 y16 : (⟨S80x384, .f32⟩ : BufTy).Contents (Elt Ideal)}
    {x17 y17 : (⟨S80, .f32⟩ : BufTy).Contents (Elt Ideal)}
    {x18 y18 : (⟨S80, .f32⟩ : BufTy).Contents (Elt Ideal)}
    {x19 y19 : (⟨S80, .f32⟩ : BufTy).Contents (Elt Ideal)}
    {x20 y20 : (⟨S80, .f32⟩ : BufTy).Contents (Elt Ideal)}
    {x21 y21 : (⟨S80, .f32⟩ : BufTy).Contents (Elt Ideal)}
    {x22 y22 : (⟨S80x80, .f32⟩ : BufTy).Contents (Elt Ideal)}
    {x23 y23 : (⟨S80, .f32⟩ : BufTy).Contents (Elt Ideal)}
    {x24 y24 : (⟨S80, .f32⟩ : BufTy).Contents (Elt Ideal)}
    {x25 y25 : (⟨S80, .f32⟩ : BufTy).Contents (Elt Ideal)}
    {x26 y26 : (⟨S80, .f32⟩ : BufTy).Contents (Elt Ideal)}
    {x27 y27 : (⟨S80, .f32⟩ : BufTy).Contents (Elt Ideal)}
    {x28 y28 : (⟨S40x80, .f32⟩ : BufTy).Contents (Elt Ideal)}
    {x29 y29 : (⟨S40, .f32⟩ : BufTy).Contents (Elt Ideal)}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) (e19 : x19 = y19) (e20 : x20 = y20) (e21 : x21 = y21) (e22 : x22 = y22) (e23 : x23 = y23) (e24 : x24 = y24) (e25 : x25 = y25) (e26 : x26 = y26) (e27 : x27 = y27) (e28 : x28 = y28) (e29 : x29 = y29) :
    netOfArgs h128 h80 h40 x0 x1 x2 x3 x4 x5 x6 x7 x8 x9 x10 x11 x12 x13 x14 x15 x16 x17 x18 x19 x20 x21 x22 x23 x24 x25 x26 x27 x28 x29 = netOfArgs h128 h80 h40 y0 y1 y2 y3 y4 y5 y6 y7 y8 y9 y10 y11 y12 y13 y14 y15 y16 y17 y18 y19 y20 y21 y22 y23 y24 y25 y26 y27 y28 y29 := by
  subst e0 e1 e2 e3 e4 e5 e6 e7 e8 e9 e10 e11 e12 e13 e14 e15 e16 e17 e18 e19 e20 e21 e22 e23 e24 e25 e26 e27 e28 e29
  rfl

end Cert.Sage

end
-- ==== Proof.lean ====
/-
  The kernel program (two row-blocked regions among host stretches) and the reference compute one function.

  Both programs aggregate neighbours with the same host chain (a gather along the edges, a scatter-add into the target rows,
  a division by the clamped degree), transpose their weight matrices on the host, and then apply, row by row, two
  mean-aggregating graph layers and a three-layer head.  The kernel does the dense part in two regions of 50 grid points,
  each point on a block of 2000 rows; a row of any result depends only on the same row of the row-indexed operands, so what
  the points write back are the blocks of the whole-array functions (Layer0Array, Layer1Array), and the result array ends at
  the network function of the arguments (KernelGlue).  The reference's run, read one stage at a time, is the same function
  (RefArrays).  At the ideal instance a change of float format is the identity and a product into a zero accumulator is the
  host's contraction, so no algebraic law is needed beyond re-indexing the contraction sums, and the precondition is not used.
-/
import proofs.«175949_j1623497638158_1_alg».proof.Defs
import proofs.«175949_j1623497638158_1_alg».proof.Proof.Gen.Kernel
import proofs.«175949_j1623497638158_1_alg».proof.Proof.Gen.KernelIdeal
import proofs.«175949_j1623497638158_1_alg».proof.Proof.Gen.ReferenceIdeal
import proofs.«175949_j1623497638158_1_alg».proof.Proof.Gen.Pre_finite_inputs
import proofs.«175949_j1623497638158_1_alg».proof.Proof.Gen.ReferenceIdeal.Run
import proofs.«175949_j1623497638158_1_alg».proof.Proof.Gen.ReferenceIdeal.Read
import proofs.«175949_j1623497638158_1_alg».proof.Proof.FrameK
import proofs.«175949_j1623497638158_1_alg».proof.Proof.FrameKI
import proofs.«175949_j1623497638158_1_alg».proof.Proof.KernelRun
import proofs.«175949_j1623497638158_1_alg».proof.Proof.KernelGlue
import proofs.«175949_j1623497638158_1_alg».proof.Proof.RefArrays
import proofs.«175949_j1623497638158_1_alg».proof.Proof.NetOfArgs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

section
open Cert.KernelIdeal Cert.KernelIdeal.Gen Cert.KernelIdeal.GenP

/-- The kernel program's run: the result at the network function of the arguments, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v66) = W4 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c =>
    ⟨h c _ (mem_uc main_v66 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c),
     (h c _ (mem_uc main_arg20 (by decide))).trans (W4_main_arg20 m ρ c),
     (h c _ (mem_uc main_arg21 (by decide))).trans (W4_main_arg21 m ρ c),
     (h c _ (mem_uc main_arg22 (by decide))).trans (W4_main_arg22 m ρ c),
     (h c _ (mem_uc main_arg23 (by decide))).trans (W4_main_arg23 m ρ c),
     (h c _ (mem_uc main_arg24 (by decide))).trans (W4_main_arg24 m ρ c),
     (h c _ (mem_uc main_arg25 (by decide))).trans (W4_main_arg25 m ρ c),
     (h c _ (mem_uc main_arg26 (by decide))).trans (W4_main_arg26 m ρ c),
     (h c _ (mem_uc main_arg27 (by decide))).trans (W4_main_arg27 m ρ c),
     (h c _ (mem_uc main_arg28 (by decide))).trans (W4_main_arg28 m ρ c),
     (h c _ (mem_uc main_arg29 (by decide))).trans (W4_main_arg29 m ρ c)⟩)
    (Cert.Sage.KRun.run_all m ρ)
end

section
open Cert.KernelIdeal Cert.KernelIdeal.Gen Cert.KernelIdeal.GenP

/-- At the ideal instance the two programs, run from memories agreeing on the arguments, end with the same result array:
    each result is the network function of its own arguments, and the arguments agree. -/
theorem algebraic : Cert.algebraic_KernelIdeal_ReferenceIdeal := by
  intro m ρ m' ρ' _ hagree
  refine ⟨fun c => W4 m ρ c (Proc.devRef .tc main_v66), kernel_run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24, e25, e26, e27, e28, e29⟩ := hagree c
  exact (Cert.Sage.Ref.ref_value m' c shapeCasts_S128_S1x128 shapeCasts_S80_S1x80 shapeCasts_S40_S1x40).trans
    ((Cert.Sage.netOfArgs_congr shapeCasts_S128_S1x128 shapeCasts_S80_S1x80 shapeCasts_S40_S1x40 e0 e1 e2 e3 e4 e5 e6 e7 e8 e9 e10 e11 e12 e13 e14 e15 e16 e17 e18 e19 e20 e21 e22 e23 e24 e25 e26 e27 e28 e29).trans
      (Cert.Sage.KGlue.kernel_value m ρ c).symm)
end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
